-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x256 : Shape := ⟨2, ![512, 256]⟩
abbrev S256x1 : Shape := ⟨2, ![256, 1]⟩
abbrev S8192x8192 : Shape := ⟨2, ![8192, 8192]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256x1 : S_.BroadcastsInDim S256x1 (![] : Fin 0 → Fin S256x1.rank)
  reducesTo_S256x1_S_d0_1 : S256x1.ReducesTo [0, 1] S_
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_arg4 : FVec F S8192x8192 .f32) (main_arg5 : FVec F S8192x8192 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S8192x8192 .f32 := Host.absf main_arg4
  let main_cst_6 : FVec F S_ .f32 := constant S_ .f32 0x7F800000#32
  let main_v20 : FVec F S8192x8192 .f32 := broadcastInDim S8192x8192 ![] bcast_S_S8192x8192 main_cst_6
  let main_v21 : IVec S8192x8192 1 := cmpf .olt main_v19 main_v20
  let main_c_7 : IVec S_ 1 := constantI S_ 1 1#1
  let main_v22 : IVec S_ 1 := (fun x v => Host.reduce IntOp.andi x v reducesTo_S8192x8192_S_d0_1 h_S_) main_v21 main_c_7
  let main_v23 : IVec S_ 1 := andi main_v18 main_v22
  let main_v24 : FVec F S8192x8192 .f32 := Host.absf main_arg5
  let main_cst_8 : FVec F S_ .f32 := constant S_ .f32 0x7F800000#32
  let main_v25 : FVec F S8192x8192 .f32 := broadcastInDim S8192x8192 ![] bcast_S_S8192x8192 main_cst_8
  let main_v26 : IVec S8192x8192 1 := cmpf .olt main_v24 main_v25
  let main_c_9 : IVec S_ 1 := constantI S_ 1 1#1
  let main_v27 : IVec S_ 1 := (fun x v => Host.reduce IntOp.andi x v reducesTo_S8192x8192_S_d0_1 h_S_) main_v26 main_c_9
  let main_v28 : IVec S_ 1 := andi main_v23 main_v27
  main_v28

def fn {F : FTy → Type} [FloatOps F] (main_arg0 : FVec F S8192x512 .f32) (main_arg1 : FVec F S512x256 .f32) (main_arg2 : FVec F S256x1 .f32) (main_arg3 : FVec F S256x1 .f32) (main_arg4 : FVec F S8192x8192 .f32) (main_arg5 : FVec F S8192x8192 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256x1 .f32 := Host.absf main_arg2
  let main_cst_2 : FVec F S_ .f32 := constant S_ .f32 0x7F800000#32
  let main_v10 : FVec F S256x1 .f32 := broadcastInDim S256x1 ![] bcast_S_S256x1 main_cst_2
  let main_v11 : IVec S256x1 1 := cmpf .olt main_v9 main_v10
  let main_c_3 : IVec S_ 1 := constantI S_ 1 1#1
  let main_v12 : IVec S_ 1 := (fun x v => Host.reduce IntOp.andi x v reducesTo_S256x1_S_d0_1 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_arg5 main_v13 main_v16
-- ==== Kernel.lean ====
abbrev S8192x512 : Shape := ⟨2, ![8192, 512]⟩
abbrev S512x256 : Shape := ⟨2, ![512, 256]⟩
abbrev S256x1 : Shape := ⟨2, ![256, 1]⟩
abbrev S8192x8192 : Shape := ⟨2, ![8192, 8192]⟩
abbrev S8192x256 : Shape := ⟨2, ![8192, 256]⟩
abbrev S8192x1 : Shape := ⟨2, ![8192, 1]⟩
abbrev S1024x512 : Shape := ⟨2, ![1024, 512]⟩
abbrev S1024x256 : Shape := ⟨2, ![1024, 256]⟩
abbrev S1024x1 : Shape := ⟨2, ![1024, 1]⟩
abbrev S1x8192 : Shape := ⟨2, ![1, 8192]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 11
  | .vmem => 26
  | .smem => 0
  | _ => 0

abbrev bufTy : (tb : Table) → Fin (tcTables nBuf tb) → BufTy
  | .hbm, ⟨0, _⟩ => ⟨S8192x512, .f32⟩
  | .hbm, ⟨1, _⟩ => ⟨S512x256, .f32⟩
  | .hbm, ⟨2, _⟩ => ⟨S256x1, .f32⟩
  | .hbm, ⟨3, _⟩ => ⟨S256x1, .f32⟩
  | .hbm, ⟨4, _⟩ => ⟨S8192x8192, .f32⟩
  | .hbm, ⟨5, _⟩ => ⟨S8192x8192, .f32⟩
  | .hbm, ⟨6, _⟩ => ⟨S8192x256, .bf16⟩
  | .hbm, ⟨7, _⟩ => ⟨S8192x1, .f32⟩
  | .hbm, ⟨8, _⟩ => ⟨S8192x1, .f32⟩
  | .hbm, ⟨9, _⟩ => ⟨S1x8192, .f32⟩
  | .hbm, ⟨10, _⟩ => ⟨S8192x256, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S256x1, .f32⟩
  | .local _ .vmem, ⟨4, _⟩ => ⟨S256x1, .f32⟩
  | .local _ .vmem, ⟨5, _⟩ => ⟨S1024x256, .bf16⟩
  | .local _ .vmem, ⟨6, _⟩ => ⟨S1024x256, .bf16⟩
  | .local _ .vmem, ⟨7, _⟩ => ⟨S1024x1, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | .local _ .vmem, ⟨19, _⟩ => ⟨S1024x256, .bf16⟩
  | .local _ .vmem, ⟨20, _⟩ => ⟨S1024x256, .bf16⟩
  | .local _ .vmem, ⟨21, _⟩ => ⟨S1024x256, .f32⟩
  | .local _ .vmem, ⟨22, _⟩ => ⟨S1024x256, .f32⟩
  | .local _ .vmem, ⟨23, _⟩ => ⟨S1024x1, .f32⟩
  | .local _ .vmem, ⟨24, _⟩ => ⟨S1024x1, .f32⟩
  | .local _ .vmem, ⟨25, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v54 : BitVec 1 := Scalar.cmpi .eq arg1 c7_i32
  let v55 : BitVec 32 := Scalar.extui v54
  let c0_i32_30 : BitVec 32 := 0#32
  let v56 : BitVec 1 := Scalar.cmpi .ne v55 c0_i32_30
  v56

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1024x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S256x1_S256x1_0_0 : ∀ a, (![0, 0] : Fin 2 → Nat) a + S256x1.size a ≤ S256x1.size a
  h_S256x1 : 0 < S256x1.numel
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S8192x1_S1x8192 : S8192x1.ShapeCasts S1x8192
  shapeCasts_S1024x1_S1024x1 : S1024x1.ShapeCasts S1024x1
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x256 : S1024x1.Broadcasts S1024x256
  dot_S1024x512_S512x256_S1024x256_1_0_0_1_n_n_wf : DotDims.WF S1024x512 S512x256 S1024x256 [1] [0] [0] [1] [] []
  dot_S1024x256_S256x1_S1024x1_1_0_0_1_n_n_wf : DotDims.WF S1024x256 S256x1 S1024x1 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .bf16 = 32 ∨ (Rect.block (s := S8192x256) S1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S8192x1.size a
  hwx1_0 : ∀ i : grid1.Coords, EltTy.bits .f32 = 32 ∨ (Rect.block (s := S8192x1) S1024x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x8192.size a
  hwx1_1 : ∀ i : grid1.Coords, EltTy.bits .f32 = 32 ∨ (Rect.block (s := S1x8192) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x8192.size a
  hwx1_3 : ∀ i : grid1.Coords, EltTy.bits .f32 = 32 ∨ (Rect.block (s := S8192x8192) S1024x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S8192x256.size a
  hwx1_4 : ∀ i : grid1.Coords, EltTy.bits .bf16 = 32 ∨ (Rect.block (s := S8192x256) S1024x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S8192x256.size a
  hwx1_5 : ∀ i : grid1.Coords, EltTy.bits .f32 = 32 ∨ (Rect.block (s := S8192x256) S1024x256.size (cc1_transform_5 i) (hinb1_5 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_1) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0_0) S1024x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1024x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S512x256 : Shape := ⟨2, ![512, 256]⟩
abbrev S256x1 : Shape := ⟨2, ![256, 1]⟩
abbrev S8192x8192 : Shape := ⟨2, ![8192, 8192]⟩
abbrev S8192x256 : Shape := ⟨2, ![8192, 256]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x256, .f32⟩
  | .hbm, ⟨2, _⟩ => ⟨S256x1, .f32⟩
  | .hbm, ⟨3, _⟩ => ⟨S256x1, .f32⟩
  | .hbm, ⟨4, _⟩ => ⟨S8192x8192, .f32⟩
  | .hbm, ⟨5, _⟩ => ⟨S8192x8192, .f32⟩
  | .hbm, ⟨6, _⟩ => ⟨S8192x256, .f32⟩
  | .hbm, ⟨7, _⟩ => ⟨S8192x1, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .i1⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S8192x256, .f32⟩
  | .hbm, ⟨43, _⟩ => ⟨S_, .f32⟩
  | .hbm, ⟨44, _⟩ => ⟨S8192x256, .f32⟩
  | .hbm, ⟨45, _⟩ => ⟨S8192x256, .i1⟩
  | .hbm, ⟨46, _⟩ => ⟨S_, .f32⟩
  | .hbm, ⟨47, _⟩ => ⟨S8192x256, .f32⟩
  | .hbm, ⟨48, _⟩ => ⟨S8192x256, .i1⟩
  | .hbm, ⟨49, _⟩ => ⟨S_, .f32⟩
  | .hbm, ⟨50, _⟩ => ⟨S_, .f32⟩
  | .hbm, ⟨51, _⟩ => ⟨S8192x256, .f32⟩
  | .hbm, ⟨52, _⟩ => ⟨S8192x256, .f32⟩
  | .hbm, ⟨53, _⟩ => ⟨S8192x256, .f32⟩
  | .hbm, ⟨54, _⟩ => ⟨S_, .f32⟩
  | .hbm, ⟨55, _⟩ => ⟨S8192x256, .f32⟩
  | .hbm, ⟨56, _⟩ => ⟨S8192x256, .f32⟩
  | .hbm, ⟨57, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call1_v0 : Ref sig .tc := ⟨.hbm, 25, rfl⟩
abbrev main_call1_v1 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call2_cst : Ref sig .tc := ⟨.hbm, 43, rfl⟩
abbrev main_call2_v0 : Ref sig .tc := ⟨.hbm, 44, rfl⟩
abbrev main_call2_v1 : Ref sig .tc := ⟨.hbm, 45, rfl⟩
abbrev main_call2_cst_0 : Ref sig .tc := ⟨.hbm, 46, rfl⟩
abbrev main_call2_v2 : Ref sig .tc := ⟨.hbm, 47, rfl⟩
abbrev main_call2_v3 : Ref sig .tc := ⟨.hbm, 48, rfl⟩
abbrev main_call2_cst_1 : Ref sig .tc := ⟨.hbm, 49, rfl⟩
abbrev main_call2_call0_v0 : Ref sig .tc := ⟨.hbm, 50, rfl⟩
abbrev main_call2_call0_v1 : Ref sig .tc := ⟨.hbm, 51, rfl⟩
abbrev main_call2_v4 : Ref sig .tc := ⟨.hbm, 52, rfl⟩
abbrev main_call2_v5 : Ref sig .tc := ⟨.hbm, 53, rfl⟩
abbrev main_call2_cst_2 : Ref sig .tc := ⟨.hbm, 54, rfl⟩
abbrev main_call2_v6 : Ref sig .tc := ⟨.hbm, 55, rfl⟩
abbrev main_call2_v7 : Ref sig .tc := ⟨.hbm, 56, rfl⟩
abbrev main_v28 : Ref sig .tc := ⟨.hbm, 57, rfl⟩

abbrev nD : Nat := 1
abbrev τ : Topo := Topo.v7x

variable {F : FTy → Type} [FloatOps F]

class Facts₀ : Prop where
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x256 : S_.BroadcastsInDim S8192x256 (![] : Fin 0 → Fin S8192x256.rank)
  dot_S8192x512_S512x256_S8192x256_1_0_0_1_n_n_wf : DotDims.WF S8192x512 S512x256 S8192x256 [1] [0] [0] [1] [] []
  dot_S8192x256_S256x1_S8192x1_1_0_0_1_n_n_wf : DotDims.WF S8192x256 S256x1 S8192x1 [1] [0] [0] [1] [] []
  dot_S8192x8192_S8192x256_S8192x256_1_0_0_1_n_n_wf : DotDims.WF S8192x8192 S8192x256 S8192x256 [1] [0] [0] [1] [] []

variable [Facts₀]

def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x256_S256x1_S8192x1_1_0_0_1_n_n : DotDims S8192x256 S256x1 S8192x1 where
  lhsContracting := [1]
  rhsContracting := [0]
  lhsNonContracting := [0]
  rhsNonContracting := [1]
  lhsBatch := []
  rhsBatch := []
  wf := dot_S8192x256_S256x1_S8192x1_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.Reg0.lean ====
/-
  Region 0 of @main — the projection kernel on its grid of 8 points — as proof data for its pipeline and the
  body's obligation at every point.

  At a point the body reads its four input blocks whole (a 1024x512 tile x of the features, the 512x256 weights W
  and the two 256x1 vectors a_self, a_neighs), forms h = bf16(x) · bf16(W) accumulated in f32, and writes three
  blocks whole: h rounded to bf16, h · a_self and h · a_neighs.  Each output buffer therefore ends as ONE store
  through the whole-buffer rectangle, whose payload depends on the input blocks only (the body also reads each
  output buffer before writing it; what it reads is never used).  Everything is stated at a parameter V, the
  TensorCore's buffer contents when the region is entered.
-/
import proofs.«124482_j60979945668752_2_alg».proof.Proof.Gen.KernelIdeal.Launch
import proofs.«124482_j60979945668752_2_alg».proof.Proof.Gen.KernelIdeal.Skeleton
import proofs.«124482_j60979945668752_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there
    or not (unfetched, the block index has not moved since the last fetch) — for any proof data whose array is V's
    and whose body leaves the block in place.  Window 0 moves with the point; windows 1, 2 and 3 have one block for
    the whole grid, fetched at the first point only. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer through its whole-shape rectangle at offset zero -/

abbrev r0_0 : Rect S1024x512 := Rect.unit (s := S1024x512) ![0, 0] S1024x512.size inb_S1024x512_S1024x512_0_0
abbrev r0_1 : Rect S512x256 := Rect.unit (s := S512x256) ![0, 0] S512x256.size inb_S512x256_S512x256_0_0
abbrev r0_2 : Rect S256x1 := Rect.unit (s := S256x1) ![0, 0] S256x1.size inb_S256x1_S256x1_0_0
abbrev r0_3 : Rect S1024x256 := Rect.unit (s := S1024x256) ![0, 0] S1024x256.size inb_S1024x256_S1024x256_0_0
abbrev r0_4 : Rect S1024x1 := Rect.unit (s := S1024x1) ![0, 0] S1024x1.size inb_S1024x1_S1024x1_0_0

/-- The offsets of those rectangles are zero on both axes. -/
theorem zeros2 : (![0, 0] : Fin 2 → Nat) = fun _ => 0 := funext fun a => by fin_cases a <;> rfl

/-! ## What the body leaves in each output window's buffer -/

/-- Window 4's buffer after the body: its one store, of the projected tile rounded to bf16. -/
def out0_4 (x0 : Vec F S1024x512 .f32) (x1 : Vec F S512x256 .f32) : Vec F S1024x256 .bf16 :=
  View.canon [⟨r0_3, k0_pay4 (View.ld x0 r0_0) (View.ld x1 r0_1)⟩]

/-- Window 5's buffer after the body: its one store, of the projected tile against a_self. -/
def out0_5 (x0 : Vec F S1024x512 .f32) (x1 : Vec F S512x256 .f32) (x2 : Vec F S256x1 .f32) : Vec F S1024x1 .f32 :=
  View.canon [⟨r0_4, k0_pay2 (View.ld x0 r0_0) (View.ld x1 r0_1) (View.ld x2 r0_2)⟩]

/-- Window 6's buffer after the body: its one store, of the projected tile against a_neighs. -/
def out0_6 (x0 : Vec F S1024x512 .f32) (x1 : Vec F S512x256 .f32) (x3 : Vec F S256x1 .f32) : Vec F S1024x1 .f32 :=
  View.canon [⟨r0_4, k0_pay3 (View.ld x0 r0_0) (View.ld x1 r0_1) (View.ld x3 r0_2)⟩]

/-- A whole-buffer load reads the contents and one whole-buffer store leaves its payload: each output is the
    payload of the input blocks themselves. -/
theorem out0_4_eq (x0 : Vec F S1024x512 .f32) (x1 : Vec F S512x256 .f32) : out0_4 x0 x1 = k0_pay4 x0 x1 := by
  unfold out0_4
  rw [View.canon_unit_zero zeros2]
  simp only [View.ld_unit_zero (S := S1024x512) zeros2, View.ld_unit_zero (S := S512x256) zeros2]
theorem out0_5_eq (x0 : Vec F S1024x512 .f32) (x1 : Vec F S512x256 .f32) (x2 : Vec F S256x1 .f32) : out0_5 x0 x1 x2 = k0_pay2 x0 x1 x2 := by
  unfold out0_5
  rw [View.canon_unit_zero zeros2]
  simp only [View.ld_unit_zero (S := S1024x512) zeros2, View.ld_unit_zero (S := S512x256) zeros2, View.ld_unit_zero (S := S256x1) zeros2]
theorem out0_6_eq (x0 : Vec F S1024x512 .f32) (x1 : Vec F S512x256 .f32) (x3 : Vec F S256x1 .f32) : out0_6 x0 x1 x3 = k0_pay3 x0 x1 x3 := by
  unfold out0_6
  rw [View.canon_unit_zero zeros2]
  simp only [View.ld_unit_zero (S := S1024x512) zeros2, View.ld_unit_zero (S := S512x256) zeros2, View.ld_unit_zero (S := S256x1) zeros2]

/-- The one store to each output buffer covers it: every index lies in the whole-shape rectangle. -/
theorem cover0_4 (p0 : Vec F S1024x256 .bf16) (y : S1024x256.Idx) :
    ∃ pc ∈ ([⟨r0_3, p0⟩] : List (View.Piece (Elt F) S1024x256 .bf16)), y ∈ pc.1.set :=
  ⟨_, List.mem_singleton_self _, View.mem_set_unit_zero zeros2 inb_S1024x256_S1024x256_0_0 y⟩
theorem cover0_5 (p0 : Vec F S1024x1 .f32) (y : S1024x1.Idx) :
    ∃ pc ∈ ([⟨r0_4, p0⟩] : List (View.Piece (Elt F) S1024x1 .f32)), y ∈ pc.1.set :=
  ⟨_, List.mem_singleton_self _, View.mem_set_unit_zero zeros2 inb_S1024x1_S1024x1_0_0 y⟩

/-! ## The body's triple -/

set_option maxHeartbeats 1000000 in
/-- The kernel body on whole staging memrefs, the inputs' at read contents and the outputs' at anything, runs to the
    continuation holding the inputs' as they were and each output's at its out0_W of the inputs'. -/
theorem sound_kernel0 (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S1024x256 .bf16) (harg5 : arg5.IsWhole) (arg6 : Memref sig .tc .vmem S1024x1 .f32) (harg6 : arg6.IsWhole)
    (arg7 : Memref sig .tc .vmem S1024x1 .f32) (harg7 : arg7.IsWhole)
    (x0 : Vec F S1024x512 .f32) (x1 : Vec F S512x256 .f32) (x2 : Vec F S256x1 .f32) (x3 : Vec F S256x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E (cc0__project_kernel i arg1 harg1 arg2 harg2 arg3 harg3 arg4 harg4 arg5 harg5 arg6 harg6 arg7 harg7) K := by
  simp only [cc0__project_kernel_eq_skeleton]; unfold cc0__project_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_5 _)

/-! ## The pipeline's proof data -/

/-- The proof data of pipeline 0 on core c: the arrays as the region finds them; after the body at point t each
    input's buffer at its block and each output's at its out0_W of the input blocks; the invariant the scoped rest
    and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Carry.lean ====
/-
  What one grid point of the attention region does to the three quantities it carries from one column tile to the
  next along a row tile: the running row maximum m, the running normaliser l and the running weighted sum acc.
  From the point's five input blocks (b0: the row tile's self scores, b1: the column tile's neighbour scores as a row,
  b2: the adjacency tile, b3: the weight tile, b4: the column tile's rows of the projected features) and the carried
  triple (m, l, acc):
    m'   = max m (row maxima of the tile's masked scores)
    l'   = exp (m − m') · l + row sums of exp (score − m')
    acc' = exp (m − m') · acc + exp (score − m') · b4
  A row tile's first column tile starts from (−∞, 0, 0); its last one also writes out acc' / l' through the
  exponential linear unit.  These are the program's own payload terms, composed; nothing is proved here.
-/
import proofs.«124482_j60979945668752_2_alg».proof.Proof.Gen.KernelIdeal.Skeleton

noncomputable section

namespace Cert.KernelIdeal.Hand

open Idealize.ShloMosaic Cert.KernelIdeal Cert.KernelIdeal.Gen

variable {F : FTy → Type} [FloatOps F]

/-- The carried triple: running maximum, running normaliser, running weighted sum. -/
abbrev Carried (F : FTy → Type) : Type := Vec F S1024x1 .f32 × Vec F S1024x1 .f32 × Vec F S1024x256 .f32

/-- What a row tile's first point starts from: the three buffers as the body's first branch fills them. -/
def init1 : Carried F := (k1_pay5 (F := F), k1_pay6 (F := F), k1_pay7 (F := F))

/-- One point's update of the carried triple from its input blocks. -/
def step1 (b0 : Vec F S1024x1 .f32) (b1 : Vec F S1x1024 .f32) (b2 b3 : Vec F S1024x1024 .f32) (b4 : Vec F S1024x256 .bf16)
    (s : Carried F) : Carried F :=
  (k1_pay3 (k1_pay9 b0 b1 b3 b2 s.1),
   k1_pay1 (k1_pay12 b0 b1 b3 b2 s.1 s.1 s.2.1) (k1_pay13 b0 b1 b3 b2 s.1),
   k1_pay2 (k1_pay10 b0 b1 b3 b2 s.1 s.1) (k1_pay11 b0 b1 b3 b2 s.1) s.2.2 b4)

/-- What a row tile's last point writes to the output block, from the triple it has just updated. -/
def emit1 (s : Carried F) : Vec F S1024x256 .f32 := k1_pay4 s.2.2 s.2.1

end Cert.KernelIdeal.Hand

end
-- ==== Proof.Reg1Kit.lean ====
import proofs.«124482_j60979945668752_2_alg».proof.Proof.Gen.KernelIdeal.Launch
import proofs.«124482_j60979945668752_2_alg».proof.Proof.Gen.KernelIdeal.Skeleton
import proofs.«124482_j60979945668752_2_alg».proof.Proof.Gen.KernelIdeal.Points
import proofs.«124482_j60979945668752_2_alg».proof.Proof.Carry
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangle membership at these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Entry
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is
    not fetched its block index has not moved since the point before. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is
    not fetched its block index has not moved since the point before. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is
    not fetched its block index has not moved since the point before. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is
    not fetched its block index has not moved since the point before. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is
    not fetched its block index has not moved since the point before. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The body's two branch conditions, in closed form over the 8 x 8 grid -/

/-- The first conditional's condition: the column tile is the row tile's first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition: the column tile is the row tile's last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the second condition fails the output window is idle and its block is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- Where it holds the window is live. -/
theorem liveAt1_5 : ∀ t : Fin cfg1.N, cond1_1 (grid1.coords t) → cfg1.idle 5 (grid1.coords t) = false := by decide +kernel

/-! ## The memrefs the body is called with -/

/-- One staging buffer of the output window, through which its contents are stated. -/
abbrev VO1_5 : View sig .tc .vmem S1024x256 .f32 := (Memref.whole cc1_stg5_0 : Memref sig .tc .vmem S1024x256 .f32).view
abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x256 .f32 := win1_5.stage (cfg1.slots t 5)
abbrev hs1_5 (t : Fin cfg1.N) : (ms1_5 t).IsWhole := hstage1_5 ((cfg1.slots t 5).cast nbuf1_5)
/-- The three scratch operands: running maximum, running normaliser, running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x256 .f32 := scM1_2.view

/-! ## The class invariant opened -/

/-- The scoped buffers of the core that this region neither stages through nor uses: the other region's staging buffers. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The class invariant is: the other region's staging buffers, the three scratch buffers at some contents, the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

theorem PhiA1_open (c : Dev nD) :
    (Pipeline.ΦA spec1 c : sProp 𝕄)
      ⊢ iprop(rest1 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  rw [PhiA1_eq]; unfold rest1
  iintro ⟨⟨HR0, HR1, HR2, HR3, HR4, HR5, HR6, HR7, HR8, HR9, HR10, HS0, HS1, HS2⟩, Hg⟩
  isplitl [HR0 HR1 HR2 HR3 HR4 HR5 HR6 HR7 HR8 HR9 HR10]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    iexact HR10
  isplitl [HS0]; · iexact HS0
  isplitl [HS1]; · iexact HS1
  isplitl [HS2]; · iexact HS2
  iexact Hg

theorem PhiA1_close (c : Dev nD) :
    iprop(rest1 c ∗ (∃ d, owns (c : Thread nD τ) scM1_0 fullShare d) ∗ (∃ d, owns (c : Thread nD τ) scM1_1 fullShare d) ∗ (∃ d, owns (c : Thread nD τ) scM1_2 fullShare d) ∗ (∃ r, prngReg c r))
      ⊢ (Pipeline.ΦA spec1 c : sProp 𝕄) := by
  rw [PhiA1_eq]; unfold rest1
  iintro ⟨⟨HR0, HR1, HR2, HR3, HR4, HR5, HR6, HR7, HR8, HR9, HR10⟩, HS0, HS1, HS2, Hg⟩
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HS0]; · iexact HS0
    isplitl [HS1]; · iexact HS1
    iexact HS2
  iexact Hg

end Cert.KernelIdeal.Hand

end
-- ==== Proof.Reg1RunA.lean ====
import proofs.«124482_j60979945668752_2_alg».proof.Proof.Reg1Kit

-- rectangle membership at these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- (the run's proof term is large)
set_option maxHeartbeats 4000000 in
/-- The body run on any whole memrefs in the case where the column tile is the first of its row tile and not the last: the three scratch buffers come in at anything, are filled with the starting values and then updated; the output buffer is handed back untouched.
    The lists are the pieces each buffer's stores leave (last first), found by running the body. -/
noncomputable def kernelRun1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : cond1_0 i) (hc1 : ¬cond1_1 i)
    (x0 : Vec F S1024x1 .f32) (x1 : Vec F S1x1024 .f32) (x2 : Vec F S1024x1024 .f32) (x3 : Vec F S1024x1024 .f32) (x4 : Vec F S1024x256 .bf16) :
    Σ' (L5 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.Reg1RunB.lean ====
import proofs.«124482_j60979945668752_2_alg».proof.Proof.Reg1RunA

-- rectangle membership at these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- (the run's proof term is large)
set_option maxHeartbeats 4000000 in
/-- The body run on any whole memrefs in the case where the column tile is neither first nor last: the three scratch buffers come in at what the point before left and are updated; the output buffer is handed back untouched.
    The lists are the pieces each buffer's stores leave (last first), found by running the body. -/
noncomputable def kernelRun1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond1_0 i) (hc1 : ¬cond1_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x1 .f32) (xs2 : Vec F S1024x256 .f32) :
    Σ' (L5 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.KernelIdeal.Hand

end
-- ==== Proof.Reg1RunC.lean ====
import proofs.«124482_j60979945668752_2_alg».proof.Proof.Reg1RunB

-- rectangle membership at these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- (the run's proof term is large)
set_option maxHeartbeats 4000000 in
/-- The body run on any whole memrefs in the case where the column tile is the last and not the first: the three scratch buffers come in at what the point before left and are updated, and the output block is written from the updated buffers.
    The lists are the pieces each buffer's stores leave (last first), found by running the body. -/
noncomputable def kernelRun1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond1_0 i) (hc1 : cond1_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x1 .f32) (xs2 : Vec F S1024x256 .f32) :
    Σ' (L5 : List (View.Piece (Elt F) S1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.KernelIdeal.Hand

end
-- ==== Proof.Reg1.lean ====
import proofs.«124482_j60979945668752_2_alg».proof.Proof.Reg1RunC

-- rectangle membership at these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Entry
variable (V : (c : Dev nD) → (b : Ref sig .tc) → Buf (Elt F) ((c : Thread nD τ).loc b))

/-! ## What each control case leaves at a point -/

/-- The body run at point `t`'s memrefs and input blocks. -/
abbrev run1_A (c : Dev nD) (t : Fin cfg1.N) (h0 : t.val % 8 = 0) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t) (iblk1 V c 4 t)

/-- Each scratch buffer's pieces cover it: one store of the whole buffer each. -/
theorem scover1_A_0 (c : Dev nD) (t : Fin cfg1.N) (h0 : t.val % 8 = 0) (y : S1024x1.Idx) :
    ∃ pc ∈ (run1_A V c t h0).2.1, y ∈ pc.1.set :=
  View.cover_of_tiledL (run1_A V c t h0).2.1 S1024x1.size (by sl_kernel_rfl) y
theorem scover1_A_1 (c : Dev nD) (t : Fin cfg1.N) (h0 : t.val % 8 = 0) (y : S1024x1.Idx) :
    ∃ pc ∈ (run1_A V c t h0).2.2.1, y ∈ pc.1.set :=
  View.cover_of_tiledL (run1_A V c t h0).2.2.1 S1024x1.size (by sl_kernel_rfl) y
theorem scover1_A_2 (c : Dev nD) (t : Fin cfg1.N) (h0 : t.val % 8 = 0) (y : S1024x256.Idx) :
    ∃ pc ∈ (run1_A V c t h0).2.2.2.1, y ∈ pc.1.set :=
  View.cover_of_tiledL (run1_A V c t h0).2.2.2.1 S1024x256.size (by sl_kernel_rfl) y

/-- What the point leaves: the output window's staging buffer (untouched in this case: a placeholder nothing reads), then the three scratch buffers, each as its pieces read back. -/
def pt1_A (c : Dev nD) (t : Fin cfg1.N) (h0 : t.val % 8 = 0) : Vec F S1024x256 .f32 × Carried F :=
  (VO1_5.read (Elt F) (VO1_5.writes (Elt F) VO1_5.junk (run1_A V c t h0).1),
   VS1_0.read (Elt F) (VS1_0.writes (Elt F) VS1_0.junk (run1_A V c t h0).2.1),
   VS1_1.read (Elt F) (VS1_1.writes (Elt F) VS1_1.junk (run1_A V c t h0).2.2.1),
   VS1_2.read (Elt F) (VS1_2.writes (Elt F) VS1_2.junk (run1_A V c t h0).2.2.2.1))

/-- The body run at point `t`'s memrefs and input blocks, the scratch buffers coming in at `s`. -/
abbrev run1_B (c : Dev nD) (t : Fin cfg1.N) (h0 : ¬t.val % 8 = 0) (h7 : ¬t.val % 8 = 7) (s : Carried F) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h7 ((hcond1_1 t).mp h)) (iblk1 V c 0 t) (iblk1 V c 1 t) (iblk1 V c 2 t) (iblk1 V c 3 t) (iblk1 V c 4 t) s.1 s.2.1 s.2.2

/-- Each scratch buffer's pieces cover it: one store of the whole buffer each. -/
theorem scover1_B_0 (c : Dev nD) (t : Fin cfg1.N) (h0 : ¬t.val % 8 = 0) (h7 : ¬t.val % 8 = 7) (s : Carried F) (y : S1024x1.Idx) :
    ∃ pc ∈ (run1_B V c t h0 h7 s).2.1, y ∈ pc.1.set :=
  View.cover_of_tiledL (run1_B V c t h0 h7 s).2.1 S1024x1.size (by sl_kernel_rfl) y
theorem scover1_B_1 (c : Dev nD) (t : Fin cfg1.N) (h0 : ¬t.val % 8 = 0) (h7 : ¬t.val % 8 = 7) (s : Carried F) (y : S1024x1.Idx) :
    ∃ pc ∈ (run1_B V c t h0 h7 s).2.2.1, y ∈ pc.1.set :=
  View.cover_of_tiledL (run1_B V c t h0 h7 s).2.2.1 S1024x1.size (by sl_kernel_rfl) y
theorem scover1_B_2 (c : Dev nD) (t : Fin cfg1.N) (h0 : ¬t.val % 8 = 0) (h7 : ¬t.val % 8 = 7) (s : Carried F) (y : S1024x256.Idx) :
    ∃ pc ∈ (run1_B V c t h0 h7 s).2.2.2.1, y ∈ pc.1.set :=
  View.cover_of_tiledL (run1_B V c t h0 h7 s).2.2.2.1 S1024x256.size (by sl_kernel_rfl) y

/-- What the point leaves: the output window's staging buffer (untouched in this case: a placeholder nothing reads), then the three scratch buffers, each as its pieces read back. -/
def pt1_B (c : Dev nD) (t : Fin cfg1.N) (h0 : ¬t.val % 8 = 0) (h7 : ¬t.val % 8 = 7) (s : Carried F) : Vec F S1024x256 .f32 × Carried F :=
  (VO1_5.read (Elt F) (VO1_5.writes (Elt F) VO1_5.junk (run1_B V c t h0 h7 s).1),
   VS1_0.read (Elt F) (VS1_0.writes (Elt F) VS1_0.junk (run1_B V c t h0 h7 s).2.1),
   VS1_1.read (Elt F) (VS1_1.writes (Elt F) VS1_1.junk (run1_B V c t h0 h7 s).2.2.1),
   VS1_2.read (Elt F) (VS1_2.writes (Elt F) VS1_2.junk (run1_B V c t h0 h7 s).2.2.2.1))

/-- The body run at point `t`'s memrefs and input blocks, the scratch buffers coming in at `s`. -/
abbrev run1_C (c : Dev nD) (t : Fin cfg1.N) (h7 : t.val % 8 = 7) (s : Carried F) :=
  kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => by have := (hcond1_0 t).mp h; omega) ((hcond1_1 t).mpr h7) (iblk1 V c 0 t) (iblk1 V c 1 t) (iblk1 V c 2 t) (iblk1 V c 3 t) (iblk1 V c 4 t) s.1 s.2.1 s.2.2

/-- Each scratch buffer's pieces cover it: one store of the whole buffer each. -/
theorem scover1_C_0 (c : Dev nD) (t : Fin cfg1.N) (h7 : t.val % 8 = 7) (s : Carried F) (y : S1024x1.Idx) :
    ∃ pc ∈ (run1_C V c t h7 s).2.1, y ∈ pc.1.set :=
  View.cover_of_tiledL (run1_C V c t h7 s).2.1 S1024x1.size (by sl_kernel_rfl) y
theorem scover1_C_1 (c : Dev nD) (t : Fin cfg1.N) (h7 : t.val % 8 = 7) (s : Carried F) (y : S1024x1.Idx) :
    ∃ pc ∈ (run1_C V c t h7 s).2.2.1, y ∈ pc.1.set :=
  View.cover_of_tiledL (run1_C V c t h7 s).2.2.1 S1024x1.size (by sl_kernel_rfl) y
theorem scover1_C_2 (c : Dev nD) (t : Fin cfg1.N) (h7 : t.val % 8 = 7) (s : Carried F) (y : S1024x256.Idx) :
    ∃ pc ∈ (run1_C V c t h7 s).2.2.2.1, y ∈ pc.1.set :=
  View.cover_of_tiledL (run1_C V c t h7 s).2.2.2.1 S1024x256.size (by sl_kernel_rfl) y
/-- In the last column tile the output block is covered too. -/
theorem cover1_C_5 (c : Dev nD) (t : Fin cfg1.N) (h7 : t.val % 8 = 7) (s : Carried F) (y : S1024x256.Idx) :
    ∃ pc ∈ (run1_C V c t h7 s).1, y ∈ pc.1.set :=
  View.cover_of_tiledL (run1_C V c t h7 s).1 S1024x256.size (by sl_kernel_rfl) y

/-- What the point leaves: the output window's staging buffer, then the three scratch buffers, each as its pieces read back. -/
def pt1_C (c : Dev nD) (t : Fin cfg1.N) (h7 : t.val % 8 = 7) (s : Carried F) : Vec F S1024x256 .f32 × Carried F :=
  (VO1_5.read (Elt F) (VO1_5.writes (Elt F) VO1_5.junk (run1_C V c t h7 s).1),
   VS1_0.read (Elt F) (VS1_0.writes (Elt F) VS1_0.junk (run1_C V c t h7 s).2.1),
   VS1_1.read (Elt F) (VS1_1.writes (Elt F) VS1_1.junk (run1_C V c t h7 s).2.2.1),
   VS1_2.read (Elt F) (VS1_2.writes (Elt F) VS1_2.junk (run1_C V c t h7 s).2.2.2.1))

/-! ## What the buffers hold after each point -/

/-- After the body at position `n`: the output window's staging buffer and the three carried scratch buffers. A row tile's
    first column tile starts afresh; the others continue from what the point before left in the scratch. -/
def outsAt1 (c : Dev nD) : (n : ℕ) → n < cfg1.N → Vec F S1024x256 .f32 × Carried F
  | 0, hn => pt1_A V c ⟨0, hn⟩ (Nat.zero_mod _)
  | n + 1, hn =>
    if h0 : (n + 1) % 8 = 0 then pt1_A V c ⟨n + 1, hn⟩ h0
    else if h7 : (n + 1) % 8 = 7 then pt1_C V c ⟨n + 1, hn⟩ h7 (outsAt1 c n (Nat.lt_of_succ_lt hn)).2
    else pt1_B V c ⟨n + 1, hn⟩ h0 h7 (outsAt1 c n (Nat.lt_of_succ_lt hn)).2

theorem outsAt1_A (c : Dev nD) (t : Fin cfg1.N) (h0 : t.val % 8 = 0) :
    outsAt1 V c t.val t.isLt = pt1_A V c t h0 := by
  obtain ⟨n, hn⟩ := t
  cases n with
  | zero => exact rfl
  | succ n => exact (dif_pos h0).trans rfl

theorem outsAt1_B (c : Dev nD) (t : Fin cfg1.N) (h0 : ¬t.val % 8 = 0) (h7 : ¬t.val % 8 = 7) :
    outsAt1 V c t.val t.isLt = pt1_B V c t h0 h7 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h7).trans rfl)

theorem outsAt1_C (c : Dev nD) (t : Fin cfg1.N) (h7 : t.val % 8 = 7) :
    outsAt1 V c t.val t.isLt = pt1_C V c t h7 (outsAt1 V c (t.val - 1) (Nat.lt_of_le_of_lt (Nat.sub_le _ _) t.isLt)).2 := by
  obtain ⟨n, hn⟩ := t
  cases n with
  | zero => exact (by exfalso; have h : (0 : ℕ) % 8 = 7 := h7; omega)
  | succ n => exact (dif_neg (show ¬(n + 1) % 8 = 0 from fun h => by have h7' : (n + 1) % 8 = 7 := h7; omega)).trans ((dif_pos h7).trans rfl)

/-! ## The invariant: the carried scratch at what the point before left -/

/-- Before position `n`: at the region's entry the class invariant (every scratch at anything); afterwards the other
    region's staging buffers, the three scratch buffers at what point `n - 1` left in them, and the generator register. -/
def PhiS (c : Dev nD) : (n : ℕ) → n ≤ cfg1.N → sProp 𝕄
  | 0, _ => Pipeline.ΦA spec1 c
  | n + 1, hn => iprop(rest1 c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest1 c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ (∃ r, prngReg c r)) := rfl

theorem PhiS_pos (c : Dev nD) (n : ℕ) (h : n ≤ cfg1.N) (hz : n ≠ 0) :
    PhiS V c n h = iprop(rest1 c ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2 ∗ (∃ r, prngReg c r)) := by
  cases n with
  | zero => exact absurd rfl hz
  | succ n => rfl

/-- At any position the invariant gives the three scratch buffers at some contents. -/
theorem PhiS_any (c : Dev nD) (n : ℕ) (h : n ≤ cfg1.N) :
    PhiS V c n h ⊢ iprop(rest1 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  cases n with
  | zero => exact PhiA1_open c
  | succ n =>
    rw [PhiS_succ]
    iintro ⟨HR, HS0, HS1, HS2, Hg⟩
    isplitl [HR]; · iexact HR
    isplitl [HS0]; · iexists _; iexact HS0
    isplitl [HS1]; · iexists _; iexact HS1
    isplitl [HS2]; · iexists _; iexact HS2
    iexact Hg

/-! ## The proof data -/

/-- The region's proof data on core `c`: the arrays as the region finds them; after the body at point `t` each input's buffer
    at its block and the output's at `outsAt1`'s first component; the invariant `PhiS`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the point's column tile decides the case; the invariant
    hands the body the three scratch buffers (at what the point before left, or at anything in a first column tile)
    and takes them back at this point's contents; where the output window is idle its buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  have hN : t.val < 64 := lt_of_lt_of_eq t.isLt (show cfg1.N = 64 from N_1)
  by_cases h0 : t.val % 8 = 0
  · have h7 : ¬t.val % 8 = 7 := by omega
    rw [Dat.leavesExact_idle (dat1 V c) 5 t (idleAt1_5 t (fun h => h7 ((hcond1_1 t).mp h))) (noFlush1_5 t (fun h => h7 ((hcond1_1 t).mp h)))]
    rw [outsAt1_A V c t h0]
    unfold pt1_A; (try dsimp only)
    rw [PhiS_castSucc V c t]
    iintro ⟨HΦ, Ho, ⟨%d0, H0⟩, ⟨%d1, H1⟩, ⟨%d2, H2⟩, ⟨%d3, H3⟩, ⟨%d4, H4⟩, ⟨%d5, H5⟩⟩
    ihave HΦ' := (PhiS_any V c t.val _) $$ HΦ
    icases HΦ' with ⟨HR, HS0, HS1, HS2, Hg⟩
    iapply ((run1_A V c t h0).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, ⟨%es0, HS0⟩, ⟨%es1, HS1⟩, ⟨%es2, HS2⟩⟩
    isplitl [HR HS0 HS1 HS2 Hg]
    · isplitl [HR]; · iexact HR
      isplitl [HS0]
      · unfold owns; iexists _; isplitr
        swap; · iexact HS0
        ipureintro; exact View.read_writes_of_cover _ _ _ _ _ (scover1_A_0 V c t h0)
      isplitl [HS1]
      · unfold owns; iexists _; isplitr
        swap; · iexact HS1
        ipureintro; exact View.read_writes_of_cover _ _ _ _ _ (scover1_A_1 V c t h0)
      isplitl [HS2]
      · unfold owns; iexists _; isplitr
        swap; · iexact HS2
        ipureintro; exact View.read_writes_of_cover _ _ _ _ _ (scover1_A_2 V c t h0)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    by_cases h7 : t.val % 8 = 7
    · rw [show (dat1 V c).leavesExact 5 t = owns (c : Thread nD τ) (ms1_5 t) fullShare ((dat1 V c).after 5 t) from by
        unfold Dat.leavesExact; rw [liveAt1_5 t ((hcond1_1 t).mpr h7)], after1_5]
      rw [outsAt1_C V c t h7]
      unfold pt1_C; (try dsimp only)
      rw [PhiS_castSucc V c t, PhiS_pos V c _ _ hz]
      iintro ⟨⟨HR, HS0, HS1, HS2, Hg⟩, Ho, ⟨%d0, H0⟩, ⟨%d1, H1⟩, ⟨%d2, H2⟩, ⟨%d3, H3⟩, ⟨%d4, H4⟩, ⟨%d5, H5⟩⟩
      iapply ((run1_C V c t h7 _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_C_0 V c t h7 _)
        isplitl [HS1]
        · unfold owns; iexists _; isplitr
          swap; · iexact HS1
          ipureintro; exact View.read_writes_of_cover _ _ _ _ _ (scover1_C_1 V c t h7 _)
        isplitl [HS2]
        · unfold owns; iexists _; isplitr
          swap; · iexact HS2
          ipureintro; exact View.read_writes_of_cover _ _ _ _ _ (scover1_C_2 V c t h7 _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 V c t h7 _)
    · rw [Dat.leavesExact_idle (dat1 V c) 5 t (idleAt1_5 t (fun h => h7 ((hcond1_1 t).mp h))) (noFlush1_5 t (fun h => h7 ((hcond1_1 t).mp h)))]
      rw [outsAt1_B V c t h0 h7]
      unfold pt1_B; (try dsimp only)
      rw [PhiS_castSucc V c t, PhiS_pos V c _ _ hz]
      iintro ⟨⟨HR, HS0, HS1, HS2, Hg⟩, Ho, ⟨%d0, H0⟩, ⟨%d1, H1⟩, ⟨%d2, H2⟩, ⟨%d3, H3⟩, ⟨%d4, H4⟩, ⟨%d5, H5⟩⟩
      iapply ((run1_B V c t h0 h7 _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_B_0 V c t h0 h7 _)
        isplitl [HS1]
        · unfold owns; iexists _; isplitr
          swap; · iexact HS1
          ipureintro; exact View.read_writes_of_cover _ _ _ _ _ (scover1_B_1 V c t h0 h7 _)
        isplitl [HS2]
        · unfold owns; iexists _; isplitr
          swap; · iexact HS2
          ipureintro; exact View.read_writes_of_cover _ _ _ _ _ (scover1_B_2 V c t h0 h7 _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the scratch buffers' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl]
  exact (PhiS_any V c _ _).trans (PhiA1_close c)

end Entry

end Cert.KernelIdeal.Hand

end
-- ==== Proof.KRun.lean ====
/-
  The program's run read through: region 0 (the projections), the host reshape of the neighbour scores into a row,
  region 1 (the attention), with the contents of every unscoped buffer named at each boundary — the launch memory,
  then region 0's three result arrays at what its blocks leave, then the reshape applied, then region 1's result
  array at what its blocks leave.  Every weakly fair execution terminates with all unscoped buffers at the last of
  these; in particular the six arguments end as launched and the result array is the fold of region 1's write-backs.
-/
import proofs.«124482_j60979945668752_2_alg».proof.Proof.Reg0
import proofs.«124482_j60979945668752_2_alg».proof.Proof.Reg1
import proofs.«124482_j60979945668752_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its arrays at what its blocks leave, everything else as before. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After the host reshape. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After region 1: its arrays at what its blocks leave, everything else as before. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched: no region writes one, and the reshape writes only its own result -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_writes_sub hostOps1 _ hostOps1_writes (by decide)
    _ = W0 m ρ c (Proc.devRef .tc main_arg3) := (W1_arr m ρ c 3).trans (((dat0 (V0 m ρ) c).arrAt_in 3 rfl _).trans (A_eq0 (V0 m ρ) c 3))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := (W3_arr m ρ c 2).trans (((dat1 (V2 m ρ) c).arrAt_in 2 rfl _).trans (A_eq1 (V2 m ρ) c 2))
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := (W3_arr m ρ c 3).trans (((dat1 (V2 m ρ) c).arrAt_in 3 rfl _).trans (A_eq1 (V2 m ρ) c 3))
    _ = W1 m ρ c (Proc.devRef .tc main_arg5) := StableHlo.after_of_writes_sub hostOps1 _ hostOps1_writes (by decide)
    _ = W0 m ρ c (Proc.devRef .tc main_arg5) := W1_of_ne m ρ c main_arg5 (by decide)
    _ = m ((c : Thread nD τ).loc main_arg5) := rfl

/-! ## The proof data family and the thread state -/

abbrev adm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0: entered with every unscoped buffer at its launch contents, left with them at the contents after it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at the contents after the reshape, left with them at the last contents;
    its invariant starts and ends as the class's, and in between tracks the three carried buffers. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- Every weakly fair execution terminates, nothing faulting, with every unscoped buffer at the last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run with the result array named and the six arguments as launched. -/
theorem run_val : θ_run defs (onTc (τ := τ) (main (F := F))) ⟨m, fun _ => 0, ρ⟩ (fun r => ∀ c : Dev nD,
      r.2.mem ((c.tc : Thread nD τ).loc main_v2) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v2 (by decide))).trans (W3_arr m ρ c 5),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

/-- The frame: the six arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_val m ρ)

end Cert.KernelIdeal.Hand

end
-- ==== Proof.Reg0B.lean ====
/-
  Region 0 of @main — the projection kernel on its grid of 8 points — as proof data for its pipeline and the
  body's obligation at every point.

  At a point the body reads its four input blocks whole (a 1024x512 tile x of the features, the 512x256 weights W
  and the two 256x1 vectors a_self, a_neighs), forms h = bf16(x) · bf16(W) accumulated in f32, and writes three
  blocks whole: h rounded to bf16, h · a_self and h · a_neighs.  Each output buffer therefore ends as ONE store
  through the whole-buffer rectangle, whose payload depends on the input blocks only (the body also reads each
  output buffer before writing it; what it reads is never used).  Everything is stated at a parameter V, the
  TensorCore's buffer contents when the region is entered.
-/
import proofs.«124482_j60979945668752_2_alg».proof.Proof.Gen.Kernel.Launch
import proofs.«124482_j60979945668752_2_alg».proof.Proof.Gen.Kernel.Skeleton
import proofs.«124482_j60979945668752_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there
    or not (unfetched, the block index has not moved since the last fetch) — for any proof data whose array is V's
    and whose body leaves the block in place.  Window 0 moves with the point; windows 1, 2 and 3 have one block for
    the whole grid, fetched at the first point only. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer through its whole-shape rectangle at offset zero -/

abbrev r0_0 : Rect S1024x512 := Rect.unit (s := S1024x512) ![0, 0] S1024x512.size inb_S1024x512_S1024x512_0_0
abbrev r0_1 : Rect S512x256 := Rect.unit (s := S512x256) ![0, 0] S512x256.size inb_S512x256_S512x256_0_0
abbrev r0_2 : Rect S256x1 := Rect.unit (s := S256x1) ![0, 0] S256x1.size inb_S256x1_S256x1_0_0
abbrev r0_3 : Rect S1024x256 := Rect.unit (s := S1024x256) ![0, 0] S1024x256.size inb_S1024x256_S1024x256_0_0
abbrev r0_4 : Rect S1024x1 := Rect.unit (s := S1024x1) ![0, 0] S1024x1.size inb_S1024x1_S1024x1_0_0

/-- The offsets of those rectangles are zero on both axes. -/
theorem zeros2 : (![0, 0] : Fin 2 → Nat) = fun _ => 0 := funext fun a => by fin_cases a <;> rfl

/-! ## What the body leaves in each output window's buffer -/

/-- Window 4's buffer after the body: its one store, of the projected tile rounded to bf16. -/
def out0_4 (x0 : Vec F S1024x512 .f32) (x1 : Vec F S512x256 .f32) : Vec F S1024x256 .bf16 :=
  View.canon [⟨r0_3, k0_pay4 (View.ld x0 r0_0) (View.ld x1 r0_1)⟩]

/-- Window 5's buffer after the body: its one store, of the projected tile against a_self. -/
def out0_5 (x0 : Vec F S1024x512 .f32) (x1 : Vec F S512x256 .f32) (x2 : Vec F S256x1 .f32) : Vec F S1024x1 .f32 :=
  View.canon [⟨r0_4, k0_pay2 (View.ld x0 r0_0) (View.ld x1 r0_1) (View.ld x2 r0_2)⟩]

/-- Window 6's buffer after the body: its one store, of the projected tile against a_neighs. -/
def out0_6 (x0 : Vec F S1024x512 .f32) (x1 : Vec F S512x256 .f32) (x3 : Vec F S256x1 .f32) : Vec F S1024x1 .f32 :=
  View.canon [⟨r0_4, k0_pay3 (View.ld x0 r0_0) (View.ld x1 r0_1) (View.ld x3 r0_2)⟩]

/-- A whole-buffer load reads the contents and one whole-buffer store leaves its payload: each output is the
    payload of the input blocks themselves. -/
theorem out0_4_eq (x0 : Vec F S1024x512 .f32) (x1 : Vec F S512x256 .f32) : out0_4 x0 x1 = k0_pay4 x0 x1 := by
  unfold out0_4
  rw [View.canon_unit_zero zeros2]
  simp only [View.ld_unit_zero (S := S1024x512) zeros2, View.ld_unit_zero (S := S512x256) zeros2]
theorem out0_5_eq (x0 : Vec F S1024x512 .f32) (x1 : Vec F S512x256 .f32) (x2 : Vec F S256x1 .f32) : out0_5 x0 x1 x2 = k0_pay2 x0 x1 x2 := by
  unfold out0_5
  rw [View.canon_unit_zero zeros2]
  simp only [View.ld_unit_zero (S := S1024x512) zeros2, View.ld_unit_zero (S := S512x256) zeros2, View.ld_unit_zero (S := S256x1) zeros2]
theorem out0_6_eq (x0 : Vec F S1024x512 .f32) (x1 : Vec F S512x256 .f32) (x3 : Vec F S256x1 .f32) : out0_6 x0 x1 x3 = k0_pay3 x0 x1 x3 := by
  unfold out0_6
  rw [View.canon_unit_zero zeros2]
  simp only [View.ld_unit_zero (S := S1024x512) zeros2, View.ld_unit_zero (S := S512x256) zeros2, View.ld_unit_zero (S := S256x1) zeros2]

/-- The one store to each output buffer covers it: every index lies in the whole-shape rectangle. -/
theorem cover0_4 (p0 : Vec F S1024x256 .bf16) (y : S1024x256.Idx) :
    ∃ pc ∈ ([⟨r0_3, p0⟩] : List (View.Piece (Elt F) S1024x256 .bf16)), y ∈ pc.1.set :=
  ⟨_, List.mem_singleton_self _, View.mem_set_unit_zero zeros2 inb_S1024x256_S1024x256_0_0 y⟩
theorem cover0_5 (p0 : Vec F S1024x1 .f32) (y : S1024x1.Idx) :
    ∃ pc ∈ ([⟨r0_4, p0⟩] : List (View.Piece (Elt F) S1024x1 .f32)), y ∈ pc.1.set :=
  ⟨_, List.mem_singleton_self _, View.mem_set_unit_zero zeros2 inb_S1024x1_S1024x1_0_0 y⟩

/-! ## The body's triple -/

set_option maxHeartbeats 1000000 in
/-- The kernel body on whole staging memrefs, the inputs' at read contents and the outputs' at anything, runs to the
    continuation holding the inputs' as they were and each output's at its out0_W of the inputs'. -/
theorem sound_kernel0 (c : Dev nD) (E : Set ℕ) (i : grid0.Coords)
    (arg1 : Memref sig .tc .vmem S1024x512 .f32) (harg1 : arg1.IsWhole) (arg2 : Memref sig .tc .vmem S512x256 .f32) (harg2 : arg2.IsWhole)
    (arg3 : Memref sig .tc .vmem S256x1 .f32) (harg3 : arg3.IsWhole) (arg4 : Memref sig .tc .vmem S256x1 .f32) (harg4 : arg4.IsWhole)
    (arg5 : Memref sig .tc .vmem S1024x256 .bf16) (harg5 : arg5.IsWhole) (arg6 : Memref sig .tc .vmem S1024x1 .f32) (harg6 : arg6.IsWhole)
    (arg7 : Memref sig .tc .vmem S1024x1 .f32) (harg7 : arg7.IsWhole)
    (x0 : Vec F S1024x512 .f32) (x1 : Vec F S512x256 .f32) (x2 : Vec F S256x1 .f32) (x3 : Vec F S256x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x1 x2)
            ∗ owns (c : Thread nD τ) arg7 fullShare (out0_6 x0 x1 x3)) -∗ K ⟨⟩))
      ⊢ wp frame (wpE (defs₀ (F := F)) Variants.none c none) E (cc0__project_kernel i arg1 harg1 arg2 harg2 arg3 harg3 arg4 harg4 arg5 harg5 arg6 harg6 arg7 harg7) K := by
  simp only [cc0__project_kernel_eq_skeleton]; unfold cc0__project_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_5 _)

/-! ## The pipeline's proof data -/

/-- The proof data of pipeline 0 on core c: the arrays as the region finds them; after the body at point t each
    input's buffer at its block and each output's at its out0_W of the input blocks; the invariant the scoped rest
    and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.CarryB.lean ====
/-
  What one grid point of the attention region does to the three quantities it carries from one column tile to the
  next along a row tile: the running row maximum m, the running normaliser l and the running weighted sum acc.
  From the point's five input blocks (b0: the row tile's self scores, b1: the column tile's neighbour scores as a row,
  b2: the adjacency tile, b3: the weight tile, b4: the column tile's rows of the projected features) and the carried
  triple (m, l, acc):
    m'   = max m (row maxima of the tile's masked scores)
    l'   = exp (m − m') · l + row sums of exp (score − m')
    acc' = exp (m − m') · acc + exp (score − m') · b4
  A row tile's first column tile starts from (−∞, 0, 0); its last one also writes out acc' / l' through the
  exponential linear unit.  These are the program's own payload terms, composed; nothing is proved here.
-/
import proofs.«124482_j60979945668752_2_alg».proof.Proof.Gen.Kernel.Skeleton

noncomputable section

namespace Cert.Kernel.Hand

open Idealize.ShloMosaic Cert.Kernel Cert.Kernel.Gen

variable {F : FTy → Type} [FloatOps F]

/-- The carried triple: running maximum, running normaliser, running weighted sum. -/
abbrev Carried (F : FTy → Type) : Type := Vec F S1024x1 .f32 × Vec F S1024x1 .f32 × Vec F S1024x256 .f32

/-- What a row tile's first point starts from: the three buffers as the body's first branch fills them. -/
def init1 : Carried F := (k1_pay5 (F := F), k1_pay6 (F := F), k1_pay7 (F := F))

/-- One point's update of the carried triple from its input blocks. -/
def step1 (b0 : Vec F S1024x1 .f32) (b1 : Vec F S1x1024 .f32) (b2 b3 : Vec F S1024x1024 .f32) (b4 : Vec F S1024x256 .bf16)
    (s : Carried F) : Carried F :=
  (k1_pay3 (k1_pay9 b0 b1 b3 b2 s.1),
   k1_pay1 (k1_pay12 b0 b1 b3 b2 s.1 s.1 s.2.1) (k1_pay13 b0 b1 b3 b2 s.1),
   k1_pay2 (k1_pay10 b0 b1 b3 b2 s.1 s.1) (k1_pay11 b0 b1 b3 b2 s.1) s.2.2 b4)

/-- What a row tile's last point writes to the output block, from the triple it has just updated. -/
def emit1 (s : Carried F) : Vec F S1024x256 .f32 := k1_pay4 s.2.2 s.2.1

end Cert.Kernel.Hand

end
-- ==== Proof.Reg1KitB.lean ====
import proofs.«124482_j60979945668752_2_alg».proof.Proof.Gen.Kernel.Launch
import proofs.«124482_j60979945668752_2_alg».proof.Proof.Gen.Kernel.Skeleton
import proofs.«124482_j60979945668752_2_alg».proof.Proof.Gen.Kernel.Points
import proofs.«124482_j60979945668752_2_alg».proof.Proof.CarryB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- rectangle membership at these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Entry
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is
    not fetched its block index has not moved since the point before. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is
    not fetched its block index has not moved since the point before. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is
    not fetched its block index has not moved since the point before. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is
    not fetched its block index has not moved since the point before. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is
    not fetched its block index has not moved since the point before. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The body's two branch conditions, in closed form over the 8 x 8 grid -/

/-- The first conditional's condition: the column tile is the row tile's first. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- The second conditional's condition: the column tile is the row tile's last. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Where the second condition fails the output window is idle and its block is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- Where it holds the window is live. -/
theorem liveAt1_5 : ∀ t : Fin cfg1.N, cond1_1 (grid1.coords t) → cfg1.idle 5 (grid1.coords t) = false := by decide +kernel

/-! ## The memrefs the body is called with -/

/-- One staging buffer of the output window, through which its contents are stated. -/
abbrev VO1_5 : View sig .tc .vmem S1024x256 .f32 := (Memref.whole cc1_stg5_0 : Memref sig .tc .vmem S1024x256 .f32).view
abbrev ms1_0 (t : Fin cfg1.N) : Memref sig .tc .vmem S1024x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x256 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x256 .f32 := win1_5.stage (cfg1.slots t 5)
abbrev hs1_5 (t : Fin cfg1.N) : (ms1_5 t).IsWhole := hstage1_5 ((cfg1.slots t 5).cast nbuf1_5)
/-- The three scratch operands: running maximum, running normaliser, running weighted sum. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x256 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x256 .f32 := scM1_2.view

/-! ## The class invariant opened -/

/-- The scoped buffers of the core that this region neither stages through nor uses: the other region's staging buffers. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The class invariant is: the other region's staging buffers, the three scratch buffers at some contents, the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

theorem PhiA1_open (c : Dev nD) :
    (Pipeline.ΦA spec1 c : sProp 𝕄)
      ⊢ iprop(rest1 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  rw [PhiA1_eq]; unfold rest1
  iintro ⟨⟨HR0, HR1, HR2, HR3, HR4, HR5, HR6, HR7, HR8, HR9, HR10, HS0, HS1, HS2⟩, Hg⟩
  isplitl [HR0 HR1 HR2 HR3 HR4 HR5 HR6 HR7 HR8 HR9 HR10]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    iexact HR10
  isplitl [HS0]; · iexact HS0
  isplitl [HS1]; · iexact HS1
  isplitl [HS2]; · iexact HS2
  iexact Hg

theorem PhiA1_close (c : Dev nD) :
    iprop(rest1 c ∗ (∃ d, owns (c : Thread nD τ) scM1_0 fullShare d) ∗ (∃ d, owns (c : Thread nD τ) scM1_1 fullShare d) ∗ (∃ d, owns (c : Thread nD τ) scM1_2 fullShare d) ∗ (∃ r, prngReg c r))
      ⊢ (Pipeline.ΦA spec1 c : sProp 𝕄) := by
  rw [PhiA1_eq]; unfold rest1
  iintro ⟨⟨HR0, HR1, HR2, HR3, HR4, HR5, HR6, HR7, HR8, HR9, HR10⟩, HS0, HS1, HS2, Hg⟩
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HS0]; · iexact HS0
    isplitl [HS1]; · iexact HS1
    iexact HS2
  iexact Hg

end Cert.Kernel.Hand

end
-- ==== Proof.Reg1RunAB.lean ====
import proofs.«124482_j60979945668752_2_alg».proof.Proof.Reg1KitB

-- rectangle membership at these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- (the run's proof term is large)
set_option maxHeartbeats 4000000 in
/-- The body run on any whole memrefs in the case where the column tile is the first of its row tile and not the last: the three scratch buffers come in at anything, are filled with the starting values and then updated; the output buffer is handed back untouched.
    The lists are the pieces each buffer's stores leave (last first), found by running the body. -/
noncomputable def kernelRun1_A (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : cond1_0 i) (hc1 : ¬cond1_1 i)
    (x0 : Vec F S1024x1 .f32) (x1 : Vec F S1x1024 .f32) (x2 : Vec F S1024x1024 .f32) (x3 : Vec F S1024x1024 .f32) (x4 : Vec F S1024x256 .bf16) :
    Σ' (L5 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.Reg1RunBB.lean ====
import proofs.«124482_j60979945668752_2_alg».proof.Proof.Reg1RunAB

-- rectangle membership at these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- (the run's proof term is large)
set_option maxHeartbeats 4000000 in
/-- The body run on any whole memrefs in the case where the column tile is neither first nor last: the three scratch buffers come in at what the point before left and are updated; the output buffer is handed back untouched.
    The lists are the pieces each buffer's stores leave (last first), found by running the body. -/
noncomputable def kernelRun1_B (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond1_0 i) (hc1 : ¬cond1_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x1 .f32) (xs2 : Vec F S1024x256 .f32) :
    Σ' (L5 : List (View.Piece (Elt F) S1024x256 .f32)) (LS0 : List (View.Piece (Elt F) S1024x1 .f32)) (LS1 : List (View.Piece (Elt F) S1024x1 .f32)), { LS2 : List (View.Piece (Elt F) S1024x256 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

end Cert.Kernel.Hand

end
-- ==== Proof.Reg1RunCB.lean ====
import proofs.«124482_j60979945668752_2_alg».proof.Proof.Reg1RunBB

-- rectangle membership at these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- (the run's proof term is large)
set_option maxHeartbeats 4000000 in
/-- The body run on any whole memrefs in the case where the column tile is the last and not the first: the three scratch buffers come in at what the point before left and are updated, and the output block is written from the updated buffers.
    The lists are the pieces each buffer's stores leave (last first), found by running the body. -/
noncomputable def kernelRun1_C (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond1_0 i) (hc1 : cond1_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x1 .f32) (xs2 : Vec F S1024x256 .f32) :
    Σ' (L5 : List (View.Piece (Elt F) S1024x256 .f32)) (LS0 : List (View.Piece (Elt F) S1024x1 .f32)) (LS1 : List (View.Piece (Elt F) S1024x1 .f32)), { LS2 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    iexists _; iexact HS2

end Cert.Kernel.Hand

end
-- ==== Proof.Reg1B.lean ====
import proofs.«124482_j60979945668752_2_alg».proof.Proof.Reg1RunCB

-- rectangle membership at these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

section Entry
variable (V : (c : Dev nD) → (b : Ref sig .tc) → Buf (Elt F) ((c : Thread nD τ).loc b))

/-! ## What each control case leaves at a point -/

/-- The body run at point `t`'s memrefs and input blocks. -/
abbrev run1_A (c : Dev nD) (t : Fin cfg1.N) (h0 : t.val % 8 = 0) :=
  kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => by have := (hcond1_1 t).mp h; omega) (iblk1 V c 0 t) (iblk1 V c 1 t) (iblk1 V c 2 t) (iblk1 V c 3 t) (iblk1 V c 4 t)

/-- Each scratch buffer's pieces cover it: one store of the whole buffer each. -/
theorem scover1_A_0 (c : Dev nD) (t : Fin cfg1.N) (h0 : t.val % 8 = 0) (y : S1024x1.Idx) :
    ∃ pc ∈ (run1_A V c t h0).2.1, y ∈ pc.1.set :=
  View.cover_of_tiledL (run1_A V c t h0).2.1 S1024x1.size (by sl_kernel_rfl) y
theorem scover1_A_1 (c : Dev nD) (t : Fin cfg1.N) (h0 : t.val % 8 = 0) (y : S1024x1.Idx) :
    ∃ pc ∈ (run1_A V c t h0).2.2.1, y ∈ pc.1.set :=
  View.cover_of_tiledL (run1_A V c t h0).2.2.1 S1024x1.size (by sl_kernel_rfl) y
theorem scover1_A_2 (c : Dev nD) (t : Fin cfg1.N) (h0 : t.val % 8 = 0) (y : S1024x256.Idx) :
    ∃ pc ∈ (run1_A V c t h0).2.2.2.1, y ∈ pc.1.set :=
  View.cover_of_tiledL (run1_A V c t h0).2.2.2.1 S1024x256.size (by sl_kernel_rfl) y

/-- What the point leaves: the output window's staging buffer (untouched in this case: a placeholder nothing reads), then the three scratch buffers, each as its pieces read back. -/
def pt1_A (c : Dev nD) (t : Fin cfg1.N) (h0 : t.val % 8 = 0) : Vec F S1024x256 .f32 × Carried F :=
  (VO1_5.read (Elt F) (VO1_5.writes (Elt F) VO1_5.junk (run1_A V c t h0).1),
   VS1_0.read (Elt F) (VS1_0.writes (Elt F) VS1_0.junk (run1_A V c t h0).2.1),
   VS1_1.read (Elt F) (VS1_1.writes (Elt F) VS1_1.junk (run1_A V c t h0).2.2.1),
   VS1_2.read (Elt F) (VS1_2.writes (Elt F) VS1_2.junk (run1_A V c t h0).2.2.2.1))

/-- The body run at point `t`'s memrefs and input blocks, the scratch buffers coming in at `s`. -/
abbrev run1_B (c : Dev nD) (t : Fin cfg1.N) (h0 : ¬t.val % 8 = 0) (h7 : ¬t.val % 8 = 7) (s : Carried F) :=
  kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h7 ((hcond1_1 t).mp h)) (iblk1 V c 0 t) (iblk1 V c 1 t) (iblk1 V c 2 t) (iblk1 V c 3 t) (iblk1 V c 4 t) s.1 s.2.1 s.2.2

/-- Each scratch buffer's pieces cover it: one store of the whole buffer each. -/
theorem scover1_B_0 (c : Dev nD) (t : Fin cfg1.N) (h0 : ¬t.val % 8 = 0) (h7 : ¬t.val % 8 = 7) (s : Carried F) (y : S1024x1.Idx) :
    ∃ pc ∈ (run1_B V c t h0 h7 s).2.1, y ∈ pc.1.set :=
  View.cover_of_tiledL (run1_B V c t h0 h7 s).2.1 S1024x1.size (by sl_kernel_rfl) y
theorem scover1_B_1 (c : Dev nD) (t : Fin cfg1.N) (h0 : ¬t.val % 8 = 0) (h7 : ¬t.val % 8 = 7) (s : Carried F) (y : S1024x1.Idx) :
    ∃ pc ∈ (run1_B V c t h0 h7 s).2.2.1, y ∈ pc.1.set :=
  View.cover_of_tiledL (run1_B V c t h0 h7 s).2.2.1 S1024x1.size (by sl_kernel_rfl) y
theorem scover1_B_2 (c : Dev nD) (t : Fin cfg1.N) (h0 : ¬t.val % 8 = 0) (h7 : ¬t.val % 8 = 7) (s : Carried F) (y : S1024x256.Idx) :
    ∃ pc ∈ (run1_B V c t h0 h7 s).2.2.2.1, y ∈ pc.1.set :=
  View.cover_of_tiledL (run1_B V c t h0 h7 s).2.2.2.1 S1024x256.size (by sl_kernel_rfl) y

/-- What the point leaves: the output window's staging buffer (untouched in this case: a placeholder nothing reads), then the three scratch buffers, each as its pieces read back. -/
def pt1_B (c : Dev nD) (t : Fin cfg1.N) (h0 : ¬t.val % 8 = 0) (h7 : ¬t.val % 8 = 7) (s : Carried F) : Vec F S1024x256 .f32 × Carried F :=
  (VO1_5.read (Elt F) (VO1_5.writes (Elt F) VO1_5.junk (run1_B V c t h0 h7 s).1),
   VS1_0.read (Elt F) (VS1_0.writes (Elt F) VS1_0.junk (run1_B V c t h0 h7 s).2.1),
   VS1_1.read (Elt F) (VS1_1.writes (Elt F) VS1_1.junk (run1_B V c t h0 h7 s).2.2.1),
   VS1_2.read (Elt F) (VS1_2.writes (Elt F) VS1_2.junk (run1_B V c t h0 h7 s).2.2.2.1))

/-- The body run at point `t`'s memrefs and input blocks, the scratch buffers coming in at `s`. -/
abbrev run1_C (c : Dev nD) (t : Fin cfg1.N) (h7 : t.val % 8 = 7) (s : Carried F) :=
  kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => by have := (hcond1_0 t).mp h; omega) ((hcond1_1 t).mpr h7) (iblk1 V c 0 t) (iblk1 V c 1 t) (iblk1 V c 2 t) (iblk1 V c 3 t) (iblk1 V c 4 t) s.1 s.2.1 s.2.2

/-- Each scratch buffer's pieces cover it: one store of the whole buffer each. -/
theorem scover1_C_0 (c : Dev nD) (t : Fin cfg1.N) (h7 : t.val % 8 = 7) (s : Carried F) (y : S1024x1.Idx) :
    ∃ pc ∈ (run1_C V c t h7 s).2.1, y ∈ pc.1.set :=
  View.cover_of_tiledL (run1_C V c t h7 s).2.1 S1024x1.size (by sl_kernel_rfl) y
theorem scover1_C_1 (c : Dev nD) (t : Fin cfg1.N) (h7 : t.val % 8 = 7) (s : Carried F) (y : S1024x1.Idx) :
    ∃ pc ∈ (run1_C V c t h7 s).2.2.1, y ∈ pc.1.set :=
  View.cover_of_tiledL (run1_C V c t h7 s).2.2.1 S1024x1.size (by sl_kernel_rfl) y
theorem scover1_C_2 (c : Dev nD) (t : Fin cfg1.N) (h7 : t.val % 8 = 7) (s : Carried F) (y : S1024x256.Idx) :
    ∃ pc ∈ (run1_C V c t h7 s).2.2.2.1, y ∈ pc.1.set :=
  View.cover_of_tiledL (run1_C V c t h7 s).2.2.2.1 S1024x256.size (by sl_kernel_rfl) y
/-- In the last column tile the output block is covered too. -/
theorem cover1_C_5 (c : Dev nD) (t : Fin cfg1.N) (h7 : t.val % 8 = 7) (s : Carried F) (y : S1024x256.Idx) :
    ∃ pc ∈ (run1_C V c t h7 s).1, y ∈ pc.1.set :=
  View.cover_of_tiledL (run1_C V c t h7 s).1 S1024x256.size (by sl_kernel_rfl) y

/-- What the point leaves: the output window's staging buffer, then the three scratch buffers, each as its pieces read back. -/
def pt1_C (c : Dev nD) (t : Fin cfg1.N) (h7 : t.val % 8 = 7) (s : Carried F) : Vec F S1024x256 .f32 × Carried F :=
  (VO1_5.read (Elt F) (VO1_5.writes (Elt F) VO1_5.junk (run1_C V c t h7 s).1),
   VS1_0.read (Elt F) (VS1_0.writes (Elt F) VS1_0.junk (run1_C V c t h7 s).2.1),
   VS1_1.read (Elt F) (VS1_1.writes (Elt F) VS1_1.junk (run1_C V c t h7 s).2.2.1),
   VS1_2.read (Elt F) (VS1_2.writes (Elt F) VS1_2.junk (run1_C V c t h7 s).2.2.2.1))

/-! ## What the buffers hold after each point -/

/-- After the body at position `n`: the output window's staging buffer and the three carried scratch buffers. A row tile's
    first column tile starts afresh; the others continue from what the point before left in the scratch. -/
def outsAt1 (c : Dev nD) : (n : ℕ) → n < cfg1.N → Vec F S1024x256 .f32 × Carried F
  | 0, hn => pt1_A V c ⟨0, hn⟩ (Nat.zero_mod _)
  | n + 1, hn =>
    if h0 : (n + 1) % 8 = 0 then pt1_A V c ⟨n + 1, hn⟩ h0
    else if h7 : (n + 1) % 8 = 7 then pt1_C V c ⟨n + 1, hn⟩ h7 (outsAt1 c n (Nat.lt_of_succ_lt hn)).2
    else pt1_B V c ⟨n + 1, hn⟩ h0 h7 (outsAt1 c n (Nat.lt_of_succ_lt hn)).2

theorem outsAt1_A (c : Dev nD) (t : Fin cfg1.N) (h0 : t.val % 8 = 0) :
    outsAt1 V c t.val t.isLt = pt1_A V c t h0 := by
  obtain ⟨n, hn⟩ := t
  cases n with
  | zero => exact rfl
  | succ n => exact (dif_pos h0).trans rfl

theorem outsAt1_B (c : Dev nD) (t : Fin cfg1.N) (h0 : ¬t.val % 8 = 0) (h7 : ¬t.val % 8 = 7) :
    outsAt1 V c t.val t.isLt = pt1_B V c t h0 h7 (outsAt1 V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h7).trans rfl)

theorem outsAt1_C (c : Dev nD) (t : Fin cfg1.N) (h7 : t.val % 8 = 7) :
    outsAt1 V c t.val t.isLt = pt1_C V c t h7 (outsAt1 V c (t.val - 1) (Nat.lt_of_le_of_lt (Nat.sub_le _ _) t.isLt)).2 := by
  obtain ⟨n, hn⟩ := t
  cases n with
  | zero => exact (by exfalso; have h : (0 : ℕ) % 8 = 7 := h7; omega)
  | succ n => exact (dif_neg (show ¬(n + 1) % 8 = 0 from fun h => by have h7' : (n + 1) % 8 = 7 := h7; omega)).trans ((dif_pos h7).trans rfl)

/-! ## The invariant: the carried scratch at what the point before left -/

/-- Before position `n`: at the region's entry the class invariant (every scratch at anything); afterwards the other
    region's staging buffers, the three scratch buffers at what point `n - 1` left in them, and the generator register. -/
def PhiS (c : Dev nD) : (n : ℕ) → n ≤ cfg1.N → sProp 𝕄
  | 0, _ => Pipeline.ΦA spec1 c
  | n + 1, hn => iprop(rest1 c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest1 c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ (∃ r, prngReg c r)) := rfl

theorem PhiS_pos (c : Dev nD) (n : ℕ) (h : n ≤ cfg1.N) (hz : n ≠ 0) :
    PhiS V c n h = iprop(rest1 c ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2 ∗ (∃ r, prngReg c r)) := by
  cases n with
  | zero => exact absurd rfl hz
  | succ n => rfl

/-- At any position the invariant gives the three scratch buffers at some contents. -/
theorem PhiS_any (c : Dev nD) (n : ℕ) (h : n ≤ cfg1.N) :
    PhiS V c n h ⊢ iprop(rest1 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  cases n with
  | zero => exact PhiA1_open c
  | succ n =>
    rw [PhiS_succ]
    iintro ⟨HR, HS0, HS1, HS2, Hg⟩
    isplitl [HR]; · iexact HR
    isplitl [HS0]; · iexists _; iexact HS0
    isplitl [HS1]; · iexists _; iexact HS1
    isplitl [HS2]; · iexists _; iexact HS2
    iexact Hg

/-! ## The proof data -/

/-- The region's proof data on core `c`: the arrays as the region finds them; after the body at point `t` each input's buffer
    at its block and the output's at `outsAt1`'s first component; the invariant `PhiS`; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' buffers hold their blocks; the point's column tile decides the case; the invariant
    hands the body the three scratch buffers (at what the point before left, or at anything in a first column tile)
    and takes them back at this point's contents; where the output window is idle its buffer goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  rw [show (dat1 V c).leavesExact 4 t = owns (c : Thread nD τ) (ms1_4 t) fullShare ((dat1 V c).after 4 t) from by
      unfold Dat.leavesExact; rw [liveAt1_4 t], after1_4]
  have hN : t.val < 64 := lt_of_lt_of_eq t.isLt (show cfg1.N = 64 from N_1)
  by_cases h0 : t.val % 8 = 0
  · have h7 : ¬t.val % 8 = 7 := by omega
    rw [Dat.leavesExact_idle (dat1 V c) 5 t (idleAt1_5 t (fun h => h7 ((hcond1_1 t).mp h))) (noFlush1_5 t (fun h => h7 ((hcond1_1 t).mp h)))]
    rw [outsAt1_A V c t h0]
    unfold pt1_A; (try dsimp only)
    rw [PhiS_castSucc V c t]
    iintro ⟨HΦ, Ho, ⟨%d0, H0⟩, ⟨%d1, H1⟩, ⟨%d2, H2⟩, ⟨%d3, H3⟩, ⟨%d4, H4⟩, ⟨%d5, H5⟩⟩
    ihave HΦ' := (PhiS_any V c t.val _) $$ HΦ
    icases HΦ' with ⟨HR, HS0, HS1, HS2, Hg⟩
    iapply ((run1_A V c t h0).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro ⟨H0, H1, H2, H3, H4, H5, ⟨%es0, HS0⟩, ⟨%es1, HS1⟩, ⟨%es2, HS2⟩⟩
    isplitl [HR HS0 HS1 HS2 Hg]
    · isplitl [HR]; · iexact HR
      isplitl [HS0]
      · unfold owns; iexists _; isplitr
        swap; · iexact HS0
        ipureintro; exact View.read_writes_of_cover _ _ _ _ _ (scover1_A_0 V c t h0)
      isplitl [HS1]
      · unfold owns; iexists _; isplitr
        swap; · iexact HS1
        ipureintro; exact View.read_writes_of_cover _ _ _ _ _ (scover1_A_1 V c t h0)
      isplitl [HS2]
      · unfold owns; iexists _; isplitr
        swap; · iexact HS2
        ipureintro; exact View.read_writes_of_cover _ _ _ _ _ (scover1_A_2 V c t h0)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    by_cases h7 : t.val % 8 = 7
    · rw [show (dat1 V c).leavesExact 5 t = owns (c : Thread nD τ) (ms1_5 t) fullShare ((dat1 V c).after 5 t) from by
        unfold Dat.leavesExact; rw [liveAt1_5 t ((hcond1_1 t).mpr h7)], after1_5]
      rw [outsAt1_C V c t h7]
      unfold pt1_C; (try dsimp only)
      rw [PhiS_castSucc V c t, PhiS_pos V c _ _ hz]
      iintro ⟨⟨HR, HS0, HS1, HS2, Hg⟩, Ho, ⟨%d0, H0⟩, ⟨%d1, H1⟩, ⟨%d2, H2⟩, ⟨%d3, H3⟩, ⟨%d4, H4⟩, ⟨%d5, H5⟩⟩
      iapply ((run1_C V c t h7 _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_C_0 V c t h7 _)
        isplitl [HS1]
        · unfold owns; iexists _; isplitr
          swap; · iexact HS1
          ipureintro; exact View.read_writes_of_cover _ _ _ _ _ (scover1_C_1 V c t h7 _)
        isplitl [HS2]
        · unfold owns; iexists _; isplitr
          swap; · iexact HS2
          ipureintro; exact View.read_writes_of_cover _ _ _ _ _ (scover1_C_2 V c t h7 _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 V c t h7 _)
    · rw [Dat.leavesExact_idle (dat1 V c) 5 t (idleAt1_5 t (fun h => h7 ((hcond1_1 t).mp h))) (noFlush1_5 t (fun h => h7 ((hcond1_1 t).mp h)))]
      rw [outsAt1_B V c t h0 h7]
      unfold pt1_B; (try dsimp only)
      rw [PhiS_castSucc V c t, PhiS_pos V c _ _ hz]
      iintro ⟨⟨HR, HS0, HS1, HS2, Hg⟩, Ho, ⟨%d0, H0⟩, ⟨%d1, H1⟩, ⟨%d2, H2⟩, ⟨%d3, H3⟩, ⟨%d4, H4⟩, ⟨%d5, H5⟩⟩
      iapply ((run1_B V c t h0 h7 _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HR HS0 HS1 HS2 Hg]
      · isplitl [HR]; · iexact HR
        isplitl [HS0]
        · unfold owns; iexists _; isplitr
          swap; · iexact HS0
          ipureintro; exact View.read_writes_of_cover _ _ _ _ _ (scover1_B_0 V c t h0 h7 _)
        isplitl [HS1]
        · unfold owns; iexists _; isplitr
          swap; · iexact HS1
          ipureintro; exact View.read_writes_of_cover _ _ _ _ _ (scover1_B_1 V c t h0 h7 _)
        isplitl [HS2]
        · unfold owns; iexists _; isplitr
          swap; · iexact HS2
          ipureintro; exact View.read_writes_of_cover _ _ _ _ _ (scover1_B_2 V c t h0 h7 _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class invariant back: the scratch buffers' named contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl]
  exact (PhiS_any V c _ _).trans (PhiA1_close c)

end Entry

end Cert.Kernel.Hand

end
-- ==== Proof.KRunB.lean ====
/-
  The program's run read through: region 0 (the projections), the host reshape of the neighbour scores into a row,
  region 1 (the attention), with the contents of every unscoped buffer named at each boundary — the launch memory,
  then region 0's three result arrays at what its blocks leave, then the reshape applied, then region 1's result
  array at what its blocks leave.  Every weakly fair execution terminates with all unscoped buffers at the last of
  these; in particular the six arguments end as launched and the result array is the fold of region 1's write-backs.
-/
import proofs.«124482_j60979945668752_2_alg».proof.Proof.Reg0B
import proofs.«124482_j60979945668752_2_alg».proof.Proof.Reg1B
import proofs.«124482_j60979945668752_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its arrays at what its blocks leave, everything else as before. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After the host reshape. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After region 1: its arrays at what its blocks leave, everything else as before. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The arguments end as launched: no region writes one, and the reshape writes only its own result -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 1).trans (((dat0 (V0 m ρ) c).arrAt_in 1 rfl _).trans (A_eq0 (V0 m ρ) c 1))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := (W1_arr m ρ c 2).trans (((dat0 (V0 m ρ) c).arrAt_in 2 rfl _).trans (A_eq0 (V0 m ρ) c 2))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_writes_sub hostOps1 _ hostOps1_writes (by decide)
    _ = W0 m ρ c (Proc.devRef .tc main_arg3) := (W1_arr m ρ c 3).trans (((dat0 (V0 m ρ) c).arrAt_in 3 rfl _).trans (A_eq0 (V0 m ρ) c 3))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := (W3_arr m ρ c 2).trans (((dat1 (V2 m ρ) c).arrAt_in 2 rfl _).trans (A_eq1 (V2 m ρ) c 2))
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := (W3_arr m ρ c 3).trans (((dat1 (V2 m ρ) c).arrAt_in 3 rfl _).trans (A_eq1 (V2 m ρ) c 3))
    _ = W1 m ρ c (Proc.devRef .tc main_arg5) := StableHlo.after_of_writes_sub hostOps1 _ hostOps1_writes (by decide)
    _ = W0 m ρ c (Proc.devRef .tc main_arg5) := W1_of_ne m ρ c main_arg5 (by decide)
    _ = m ((c : Thread nD τ).loc main_arg5) := rfl

/-! ## The proof data family and the thread state -/

abbrev adm : (p : Fin 2) → (pcfgs (F := F) p).Adm := fun p => (cfgs p).toPCfg_adm
def pdats : (p : Fin 2) → (c : Dev nD) → Dat τ (Elt F) Unit ℕ (Pipeline.UD sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- Region 0: entered with every unscoped buffer at its launch contents, left with them at the contents after it. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at the contents after the reshape, left with them at the last contents;
    its invariant starts and ends as the class's, and in between tracks the three carried buffers. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := Pipeline.UD sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- Every weakly fair execution terminates, nothing faulting, with every unscoped buffer at the last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run with the result array named and the six arguments as launched. -/
theorem run_val : θ_run defs (onTc (τ := τ) (main (F := F))) ⟨m, fun _ => 0, ρ⟩ (fun r => ∀ c : Dev nD,
      r.2.mem ((c.tc : Thread nD τ).loc main_v2) = (dat1 (V2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v2 (by decide))).trans (W3_arr m ρ c 5),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c)⟩) (run_all m ρ)

/-- The frame: the six arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => (h c).2) (run_val m ρ)

end Cert.Kernel.Hand

end
-- ==== Proof.RefRun.lean ====
/-
  The reference program's @main as one straight line of host operations — the three outlined
  selects and the outlined exponential linear unit (with its two inner selects) written out at
  their call sites over each call's own buffers — and its run: every weakly fair execution ends
  with each device buffer at the fold of the operations' results over the launch contents.
-/
import proofs.«124482_j60979945668752_2_alg».proof.ReferenceIdeal
import proofs.«124482_j60979945668752_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 52 operations in order, the calls unfolded: the first select is one operation into the first
    call's buffer; the masking select is three (the fill converted to its own type, its broadcast, the
    select); the exponential linear unit is fifteen, its inner selects three and one. An outlined function's
    operation is written as the plain operation on the call's buffers: its typed references are these literal
    buffers, along whose type equations contents are carried unchanged. -/
abbrev ops : List (HloOp τ sig (Elt F)) :=
  [ binary main_arg0 main_arg1 main_v0 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    binary main_v0 main_arg2 main_v1 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    binary main_v0 main_arg3 main_v2 ((fun l r => Host.dotGeneral dot_S8192x256_S256x1_S8192x1_1_0_0_1_n_n none l r) : (⟨S8192x256, .f32⟩ : BufTy).Contents (Elt F) → (⟨S256x1, .f32⟩ : BufTy).Contents (Elt F) → (⟨S8192x1, .f32⟩ : BufTy).Contents (Elt F)),
    unary main_v2 main_v3 ((transpose S1x8192 [1, 0] · transposes_S8192x1_S1x8192_1_0) : (⟨S8192x1, .f32⟩ : BufTy).Contents (Elt F) → (⟨S1x8192, .f32⟩ : BufTy).Contents (Elt F)),
    unary main_v1 main_v4 (broadcastInDim S8192x8192 ![0, 1] bcast_S8192x1_S8192x8192_0_1 : (⟨S8192x1, .f32⟩ : BufTy).Contents (Elt F) → (⟨S8192x8192, .f32⟩ : BufTy).Contents (Elt F)),
    unary main_v3 main_v5 (broadcastInDim S8192x8192 ![0, 1] bcast_S1x8192_S8192x8192_0_1 : (⟨S1x8192, .f32⟩ : BufTy).Contents (Elt F) → (⟨S8192x8192, .f32⟩ : BufTy).Contents (Elt F)),
    binary main_v4 main_v5 main_v6 (addf : (⟨S8192x8192, .f32⟩ : BufTy).Contents (Elt F) → (⟨S8192x8192, .f32⟩ : BufTy).Contents (Elt F) → (⟨S8192x8192, .f32⟩ : BufTy).Contents (Elt F)),
    binary main_v6 main_arg5 main_v7 (mulf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x00000000#32),
    unary main_cst main_v8 (broadcastInDim S8192x8192 ![] bcast_S_S8192x8192 : (⟨S_, .f32⟩ : BufTy).Contents (Elt F) → (⟨S8192x8192, .f32⟩ : BufTy).Contents (Elt F)),
    binary main_v7 main_v8 main_v9 (cmpf .ogt : (⟨S8192x8192, .f32⟩ : BufTy).Contents (Elt F) → (⟨S8192x8192, .f32⟩ : BufTy).Contents (Elt F) → (⟨S8192x8192, .i1⟩ : BufTy).Contents (Elt F)),
    nullary main_cst_0 (constant S_ .f32 0x3E4CCCCD#32),
    unary main_cst_0 main_v10 (broadcastInDim S8192x8192 ![] bcast_S_S8192x8192 : (⟨S_, .f32⟩ : BufTy).Contents (Elt F) → (⟨S8192x8192, .f32⟩ : BufTy).Contents (Elt F)),
    binary main_v10 main_v7 main_v11 (mulf : (⟨S8192x8192, .f32⟩ : BufTy).Contents (Elt F) → (⟨S8192x8192, .f32⟩ : BufTy).Contents (Elt F) → (⟨S8192x8192, .f32⟩ : BufTy).Contents (Elt F)),
    ternary main_v9 main_v7 main_v11 main_v12 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    nullary main_cst_1 (constant S_ .f32 0x00000000#32),
    unary main_cst_1 main_v13 (broadcastInDim S8192x8192 ![] bcast_S_S8192x8192 : (⟨S_, .f32⟩ : BufTy).Contents (Elt F) → (⟨S8192x8192, .f32⟩ : BufTy).Contents (Elt F)),
    binary main_arg4 main_v13 main_v14 (cmpf .ogt : (⟨S8192x8192, .f32⟩ : BufTy).Contents (Elt F) → (⟨S8192x8192, .f32⟩ : BufTy).Contents (Elt F) → (⟨S8192x8192, .i1⟩ : BufTy).Contents (Elt F)),
    nullary main_cst_2 (constant S_ .f32 0xD9FFCB9E#32),
    unary main_cst_2 main_call1_v0 (id : (⟨S_, .f32⟩ : BufTy).Contents (Elt F) → (⟨S_, .f32⟩ : BufTy).Contents (Elt F)),
    unary main_call1_v0 main_call1_v1 (broadcastInDim S8192x8192 ![] bcast_S_S8192x8192 : (⟨S_, .f32⟩ : BufTy).Contents (Elt F) → (⟨S8192x8192, .f32⟩ : BufTy).Contents (Elt F)),
    ternary main_v14 main_v12 main_call1_v1 main_v15 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    nullary main_cst_3 (constant S_ .f32 0xFF800000#32),
    binary main_v15 main_cst_3 main_v16 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_4 (constant S_ .f32 0xFF800000#32),
    unary main_cst_4 main_v17 (broadcastInDim S8192 ![] bcast_S_S8192 : (⟨S_, .f32⟩ : BufTy).Contents (Elt F) → (⟨S8192, .f32⟩ : BufTy).Contents (Elt F)),
    binary main_v17 main_v16 main_v18 (maximumf : (⟨S8192, .f32⟩ : BufTy).Contents (Elt F) → (⟨S8192, .f32⟩ : BufTy).Contents (Elt F) → (⟨S8192, .f32⟩ : BufTy).Contents (Elt F)),
    unary main_v18 main_v19 (broadcastInDim S8192x1 ![0] bcast_S8192_S8192x1_0 : (⟨S8192, .f32⟩ : BufTy).Contents (Elt F) → (⟨S8192x1, .f32⟩ : BufTy).Contents (Elt F)),
    unary main_v19 main_v20 (broadcastInDim S8192x8192 ![0, 1] bcast_S8192x1_S8192x8192_0_1 : (⟨S8192x1, .f32⟩ : BufTy).Contents (Elt F) → (⟨S8192x8192, .f32⟩ : BufTy).Contents (Elt F)),
    binary main_v15 main_v20 main_v21 (subf : (⟨S8192x8192, .f32⟩ : BufTy).Contents (Elt F) → (⟨S8192x8192, .f32⟩ : BufTy).Contents (Elt F) → (⟨S8192x8192, .f32⟩ : BufTy).Contents (Elt F)),
    unary main_v21 main_v22 (Host.exp : (⟨S8192x8192, .f32⟩ : BufTy).Contents (Elt F) → (⟨S8192x8192, .f32⟩ : BufTy).Contents (Elt F)),
    nullary main_cst_5 (constant S_ .f32 0x00000000#32),
    binary main_v22 main_cst_5 main_v23 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v23 main_v24 (broadcastInDim S8192x1 ![0] bcast_S8192_S8192x1_0 : (⟨S8192, .f32⟩ : BufTy).Contents (Elt F) → (⟨S8192x1, .f32⟩ : BufTy).Contents (Elt F)),
    unary main_v24 main_v25 (broadcastInDim S8192x8192 ![0, 1] bcast_S8192x1_S8192x8192_0_1 : (⟨S8192x1, .f32⟩ : BufTy).Contents (Elt F) → (⟨S8192x8192, .f32⟩ : BufTy).Contents (Elt F)),
    binary main_v22 main_v25 main_v26 (Host.divf : (⟨S8192x8192, .f32⟩ : BufTy).Contents (Elt F) → (⟨S8192x8192, .f32⟩ : BufTy).Contents (Elt F) → (⟨S8192x8192, .f32⟩ : BufTy).Contents (Elt F)),
    binary main_v26 main_v0 main_v27 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    nullary main_call2_cst (constant S_ .f32 0x00000000#32),
    unary main_call2_cst main_call2_v0 (broadcastInDim S8192x256 ![] bcast_S_S8192x256 : (⟨S_, .f32⟩ : BufTy).Contents (Elt F) → (⟨S8192x256, .f32⟩ : BufTy).Contents (Elt F)),
    binary main_v27 main_call2_v0 main_call2_v1 (cmpf .ogt : (⟨S8192x256, .f32⟩ : BufTy).Contents (Elt F) → (⟨S8192x256, .f32⟩ : BufTy).Contents (Elt F) → (⟨S8192x256, .i1⟩ : BufTy).Contents (Elt F)),
    nullary main_call2_cst_0 (constant S_ .f32 0x00000000#32),
    unary main_call2_cst_0 main_call2_v2 (broadcastInDim S8192x256 ![] bcast_S_S8192x256 : (⟨S_, .f32⟩ : BufTy).Contents (Elt F) → (⟨S8192x256, .f32⟩ : BufTy).Contents (Elt F)),
    binary main_v27 main_call2_v2 main_call2_v3 (cmpf .ogt : (⟨S8192x256, .f32⟩ : BufTy).Contents (Elt F) → (⟨S8192x256, .f32⟩ : BufTy).Contents (Elt F) → (⟨S8192x256, .i1⟩ : BufTy).Contents (Elt F)),
    nullary main_call2_cst_1 (constant S_ .f32 0x00000000#32),
    unary main_call2_cst_1 main_call2_call0_v0 (id : (⟨S_, .f32⟩ : BufTy).Contents (Elt F) → (⟨S_, .f32⟩ : BufTy).Contents (Elt F)),
    unary main_call2_call0_v0 main_call2_call0_v1 (broadcastInDim S8192x256 ![] bcast_S_S8192x256 : (⟨S_, .f32⟩ : BufTy).Contents (Elt F) → (⟨S8192x256, .f32⟩ : BufTy).Contents (Elt F)),
    ternary main_call2_v3 main_call2_call0_v1 main_v27 main_call2_v4 (select : (⟨S8192x256, .i1⟩ : BufTy).Contents (Elt F) → (⟨S8192x256, .f32⟩ : BufTy).Contents (Elt F) → (⟨S8192x256, .f32⟩ : BufTy).Contents (Elt F) → (⟨S8192x256, .f32⟩ : BufTy).Contents (Elt F)),
    unary main_call2_v4 main_call2_v5 (Host.expm1 : (⟨S8192x256, .f32⟩ : BufTy).Contents (Elt F) → (⟨S8192x256, .f32⟩ : BufTy).Contents (Elt F)),
    nullary main_call2_cst_2 (constant S_ .f32 0x3F800000#32),
    unary main_call2_cst_2 main_call2_v6 (broadcastInDim S8192x256 ![] bcast_S_S8192x256 : (⟨S_, .f32⟩ : BufTy).Contents (Elt F) → (⟨S8192x256, .f32⟩ : BufTy).Contents (Elt F)),
    binary main_call2_v6 main_call2_v5 main_call2_v7 (mulf : (⟨S8192x256, .f32⟩ : BufTy).Contents (Elt F) → (⟨S8192x256, .f32⟩ : BufTy).Contents (Elt F) → (⟨S8192x256, .f32⟩ : BufTy).Contents (Elt F)),
    ternary main_call2_v1 main_v27 main_call2_v7 main_v28 (select : (⟨S8192x256, .i1⟩ : BufTy).Contents (Elt F) → (⟨S8192x256, .f32⟩ : BufTy).Contents (Elt F) → (⟨S8192x256, .f32⟩ : BufTy).Contents (Elt F) → (⟨S8192x256, .f32⟩ : BufTy).Contents (Elt F)) ]

-- fifty-two binds re-associated: the rewrite under the chain recurses once per statement
set_option maxRecDepth 2048 in
/-- @main is that straight line: the outlined functions unfolded at their calls, both sides are one chain of
    steps once sequencing is reassociated, and step by step the same operation by computation. -/
theorem main_eq (c : Dev nD) : main (F := F) c = seq ops := by
  simp only [main, fn_where.body, fn_where_0.body, fn_where_1.body, fn_where_2.body, fn_elu.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., binary_bufs_sub .., binary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩

/-- From any memory with zero counters every weakly fair execution of @main terminates, and every final state
    has each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RefVal.lean ====
/-
  The reference's result as one function of its six argument arrays, built stage by stage in the
  order the program computes it: the projected features; the two score columns and the second
  one's transpose; the raw pair scores; the leaky slope; the mask; the row maximum; the
  exponentials and their row sums; the normalised weights; the mixed features; the exponential
  linear unit. Each stage is the program's own operations applied to the earlier stages.
-/
import proofs.«124482_j60979945668752_2_alg».proof.ReferenceIdeal
import proofs.«124482_j60979945668752_2_alg».proof.Proof.Gen.ReferenceIdeal
import Idealize.ShloMosaic.PureOps.Ideal

noncomputable section

namespace Cert.ReferenceIdeal.Hand

open Cert.ReferenceIdeal Cert.ReferenceIdeal.Gen Idealize.ShloMosaic

variable (x : FVec Ideal S8192x512 .f32) (w : FVec Ideal S512x256 .f32) (aS aN : FVec Ideal S256x1 .f32)
  (adj M : FVec Ideal S8192x8192 .f32)

/-- The scalar holding the word `b`, spread over a shape. -/
abbrev splat (T : Shape) (h : S_.BroadcastsInDim T (![] : Fin 0 → Fin T.rank)) (b : BitVec 32) : FVec Ideal T .f32 :=
  broadcastInDim T ![] h (constant (F := Ideal) S_ .f32 b)

/-- The projected features: the first product. -/
def sFeat : FVec Ideal S8192x256 .f32 :=
  Host.dotGeneral dot_S8192x512_S512x256_S8192x256_1_0_0_1_n_n none x w

/-- The features against one of the two score vectors: a column. -/
def sCol (a : FVec Ideal S256x1 .f32) : FVec Ideal S8192x1 .f32 :=
  Host.dotGeneral dot_S8192x256_S256x1_S8192x1_1_0_0_1_n_n none (sFeat x w) a

/-- The neighbour column laid out as a row. -/
def sRow : FVec Ideal S1x8192 .f32 :=
  transpose S1x8192 [1, 0] (sCol x w aN) transposes_S8192x1_S1x8192_1_0

/-- The raw pair scores: own column plus neighbour row, times the second square argument. -/
def sPre : FVec Ideal S8192x8192 .f32 :=
  mulf (addf (broadcastInDim S8192x8192 ![0, 1] bcast_S8192x1_S8192x8192_0_1 (sCol x w aS))
    (broadcastInDim S8192x8192 ![0, 1] bcast_S1x8192_S8192x8192_0_1 (sRow x w aN))) M

/-- The leaky slope: kept where positive, scaled elsewhere. -/
def sLeaky : FVec Ideal S8192x8192 .f32 :=
  select (cmpf .ogt (sPre x w aS aN M) (splat S8192x8192 bcast_S_S8192x8192 0x00000000#32)) (sPre x w aS aN M)
    (mulf (splat S8192x8192 bcast_S_S8192x8192 0x3E4CCCCD#32) (sPre x w aS aN M))

/-- The mask: kept where the first square argument is positive, the fill value elsewhere. -/
def sScore : FVec Ideal S8192x8192 .f32 :=
  select (cmpf .ogt adj (splat S8192x8192 bcast_S_S8192x8192 0x00000000#32)) (sLeaky x w aS aN M)
    (broadcastInDim S8192x8192 ![] bcast_S_S8192x8192 (id (constant (F := Ideal) S_ .f32 0xD9FFCB9E#32)))

/-- The row maximum, from the least element, once more against the least element. -/
def sRowMax : FVec Ideal S8192 .f32 :=
  maximumf (splat S8192 bcast_S_S8192 0xFF800000#32)
    (Host.reduce FloatOps.maximumf (sScore x w aS aN adj M) (constant (F := Ideal) S_ .f32 0xFF800000#32)
      reducesTo_S8192x8192_S8192_d1 h_S_)

/-- A per-row vector spread along the rows of the square. -/
abbrev alongRows (v : FVec Ideal S8192 .f32) : FVec Ideal S8192x8192 .f32 :=
  broadcastInDim S8192x8192 ![0, 1] bcast_S8192x1_S8192x8192_0_1 (broadcastInDim S8192x1 ![0] bcast_S8192_S8192x1_0 v)

/-- The exponentials of the scores less their row maximum. -/
def sWgt : FVec Ideal S8192x8192 .f32 :=
  Host.exp (subf (sScore x w aS aN adj M) (alongRows (sRowMax x w aS aN adj M)))

/-- Their row sums. -/
def sDen : FVec Ideal S8192 .f32 :=
  Host.reduceAdd (sWgt x w aS aN adj M) (constant (F := Ideal) S_ .f32 0x00000000#32) reducesTo_S8192x8192_S8192_d1 h_S_

/-- The normalised weights. -/
def sAttn : FVec Ideal S8192x8192 .f32 :=
  Host.divf (sWgt x w aS aN adj M) (alongRows (sDen x w aS aN adj M))

/-- The weights times the features. -/
def sMix : FVec Ideal S8192x256 .f32 :=
  Host.dotGeneral dot_S8192x8192_S8192x256_S8192x256_1_0_0_1_n_n none (sAttn x w aS aN adj M) (sFeat x w)

/-- The exponential linear unit as the program spells it: where positive the value, elsewhere one times the
    exponential less one of the value with its positive entries zeroed. -/
def sElu (y : FVec Ideal S8192x256 .f32) : FVec Ideal S8192x256 .f32 :=
  select (cmpf .ogt y (splat S8192x256 bcast_S_S8192x256 0x00000000#32)) y
    (mulf (splat S8192x256 bcast_S_S8192x256 0x3F800000#32)
      (Host.expm1 (select (cmpf .ogt y (splat S8192x256 bcast_S_S8192x256 0x00000000#32))
        (broadcastInDim S8192x256 ![] bcast_S_S8192x256 (id (constant (F := Ideal) S_ .f32 0x00000000#32))) y)))

/-- The reference's result: the operations' composed term of the six arguments. -/
def refVal : FVec Ideal S8192x256 .f32 := sElu (sMix x w aS aN adj M)

end Cert.ReferenceIdeal.Hand

end
-- ==== Proof.RefOut.lean ====
/-
  The reference's run with its result named: every weakly fair execution of @main ends with the result buffer
  at the stages' composed term of the six arguments' launch contents, and the arguments unchanged.
-/
import proofs.«124482_j60979945668752_2_alg».proof.Proof.RefRun
import proofs.«124482_j60979945668752_2_alg».proof.Proof.RefVal

noncomputable section

namespace Cert.ReferenceIdeal.Hand

open Cert.ReferenceIdeal Cert.ReferenceIdeal.Gen Idealize.ShloMosaic Idealize.ShloMosaic.TcCoe Idealize.SL.Sem Idealize.ShloMosaic.StableHlo

set_option maxRecDepth 8192 in
set_option maxHeartbeats 1000000 in
/-- The fold of the operations at the result buffer: each operation's result read at its own buffer is its
    function of its operands' contents, at any other buffer what was there; what is left is the stages' term. -/
theorem out_eq (V : Valuation τ sig (Elt Ideal)) :
    after ops V (main_v28 : DevRef τ sig)
      = refVal (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  unfold refVal sElu sMix sAttn sDen sWgt sRowMax sScore sLeaky sPre sRow sCol sFeat
  rfl

set_option maxRecDepth 8192 in
/-- No operation writes an argument. -/
theorem arg0_eq (V : Valuation τ sig (Elt Ideal)) :
    after ops V (main_arg0 : DevRef τ sig) = V (main_arg0 : DevRef τ sig) := by
  after_results_simp

set_option maxRecDepth 8192 in
/-- No operation writes an argument. -/
theorem arg1_eq (V : Valuation τ sig (Elt Ideal)) :
    after ops V (main_arg1 : DevRef τ sig) = V (main_arg1 : DevRef τ sig) := by
  after_results_simp

set_option maxRecDepth 8192 in
/-- No operation writes an argument. -/
theorem arg2_eq (V : Valuation τ sig (Elt Ideal)) :
    after ops V (main_arg2 : DevRef τ sig) = V (main_arg2 : DevRef τ sig) := by
  after_results_simp

set_option maxRecDepth 8192 in
/-- No operation writes an argument. -/
theorem arg3_eq (V : Valuation τ sig (Elt Ideal)) :
    after ops V (main_arg3 : DevRef τ sig) = V (main_arg3 : DevRef τ sig) := by
  after_results_simp

set_option maxRecDepth 8192 in
/-- No operation writes an argument. -/
theorem arg4_eq (V : Valuation τ sig (Elt Ideal)) :
    after ops V (main_arg4 : DevRef τ sig) = V (main_arg4 : DevRef τ sig) := by
  after_results_simp

set_option maxRecDepth 8192 in
/-- No operation writes an argument. -/
theorem arg5_eq (V : Valuation τ sig (Elt Ideal)) :
    after ops V (main_arg5 : DevRef τ sig) = V (main_arg5 : DevRef τ sig) := by
  after_results_simp

/-- From any memory with zero counters every weakly fair execution of @main terminates with the result buffer at
    `refVal` of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v28) = refVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v28).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_all m ρ)

end Cert.ReferenceIdeal.Hand

end
-- ==== Proof.Spec.lean ====
/-
  The layer as one function of the six argument arrays, index by index, on the extended reals.

  With x : [8192, 512], W : [512, 256], a_self, a_neighs : [256, 1], adj, M : [8192, 8192]:
    h r c      = ∑ k, x r k · W k c                                  (the projected features)
    s r        = ∑ k, h r k · a_self k,   n q = ∑ k, h q k · a_neighs k
    e r q      = (s r + n q) · M r q,  passed through the leaky slope (e if 0 < e, else α·e)
                 and the mask (kept where 0 < adj r q, else the fill value)
    mx r       = the greatest e r q over q
    p r q      = exp (e r q − mx r),   d r = ∑ q, p r q
    y r c      = ∑ q, (p r q / d r) · h q c
    G r c      = y r c if 0 < y r c, else exp (y r c) − 1.
  α and the fill are kept as the words both programs print; they are never evaluated.
-/
import Idealize.ShloMosaic.PureOps.Ideal
import Idealize.ShloMosaic.Lib.ValueIdx

noncomputable section

namespace Cert.Spec

open Idealize.ShloMosaic Idealize.ShloMosaic.ValueIdx

/-- A rank-2 array of extended reals. -/
abbrev Arr2 (a b : Nat) : Type := (⟨2, ![a, b]⟩ : Shape).Idx → EReal

/-- The leaky slope, as the word both programs print. -/
def slope : EReal := Ideal.ofBits .f32 0x3E4CCCCD#32
/-- The value a masked-out score is replaced by, as the word both programs print. -/
def fill : EReal := Ideal.ofBits .f32 0xD9FFCB9E#32

variable (x : Arr2 8192 512) (w : Arr2 512 256) (as an : Arr2 256 1) (adj M : Arr2 8192 8192)

/-- The projected features, x times W. -/
def feat (r : Fin 8192) (c : Fin 256) : EReal := ∑ k : Fin 512, x (ix2 r k) * w (ix2 k c)

/-- A row of the projected features against a column vector a. -/
def proj (a : Arr2 256 1) (r : Fin 8192) : EReal := ∑ k : Fin 256, feat x w r k * a (ix2 k 0)

/-- The leaky slope applied to one value. -/
def leaky (e : EReal) : EReal := if 0 < e then e else slope * e

/-- The masked score of the pair (r, q). -/
def score (r q : Fin 8192) : EReal :=
  if 0 < adj (ix2 r q) then leaky ((proj x w as r + proj x w an q) * M (ix2 r q)) else fill

/-- The greatest score of row r. -/
def rowMax (r : Fin 8192) : EReal := (Finset.univ : Finset (Fin 8192)).sup (score x w as an adj M r)

/-- The unnormalised weight of the pair (r, q). -/
def wgt (r q : Fin 8192) : EReal := Ideal.exp (score x w as an adj M r q - rowMax x w as an adj M r)

/-- The normaliser of row r. -/
def den (r : Fin 8192) : EReal := ∑ q : Fin 8192, wgt x w as an adj M r q

/-- The attention-weighted features. -/
def mix (r : Fin 8192) (c : Fin 256) : EReal :=
  ∑ q : Fin 8192, Ideal.div (wgt x w as an adj M r q) (den x w as an adj M r) * feat x w q c

/-- The exponential linear unit on one value. -/
def elu (y : EReal) : EReal := if 0 < y then y else Ideal.exp y - 1

/-- The layer's result at (r, c). -/
def G (r : Fin 8192) (c : Fin 256) : EReal := elu (mix x w as an adj M r c)

end Cert.Spec

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.Reg0Val.lean ====
/-
  Region 0's three output arrays, read at an index on the extended reals.

  At a point t the body forms, from the tile x (rows 1024·t … 1024·t + 1023 of the features) and the whole of W,
  a_self and a_neighs, the tile h = x · W and the columns h · a_self and h · a_neighs; on the extended reals the
  roundings to bf16 are the identity, so each entry is the plain sum of products.  Point t writes back block t of
  each output array, and the eight blocks tile the arrays' rows; so after the region the first output array is the
  projected features entry by entry, and the other two are the projected features against a_self and a_neighs.
-/
import proofs.«124482_j60979945668752_2_alg».proof.Proof.Reg0
import proofs.«124482_j60979945668752_2_alg».proof.Proof.Spec
import proofs.«124482_j60979945668752_2_alg».proof.Proof.LibPlainDot
import Idealize.ShloMosaic.Lib.Pipeline.Value
import Idealize.ShloMosaic.Lib.ValueIdx
import Idealize.ShloMosaic.Lib.Tactic

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

/-! ## The payloads at an index -/

/-- The projected tile at (p, q): the row p of the feature tile against the column q of the weights. -/
theorem pay1_apply (x0 : Vec Ideal S1024x512 .f32) (x1 : Vec Ideal S512x256 .f32) (p : Fin 1024) (q : Fin 256) :
    k0_pay1 x0 x1 (ix2 p q) = ∑ k : Fin 512, x0 (ix2 p k) * x1 (ix2 k q) := by
  unfold k0_pay1
  exact Cert.Sage.matmul_plain_zero_apply (M := 1024) (K := 512) (N := 256) none _ _ p q

/-- Rounded to bf16 it is the same entry. -/
theorem pay4_apply (x0 : Vec Ideal S1024x512 .f32) (x1 : Vec Ideal S512x256 .f32) (p : Fin 1024) (q : Fin 256) :
    k0_pay4 x0 x1 (ix2 p q) = ∑ k : Fin 512, x0 (ix2 p k) * x1 (ix2 k q) := by
  unfold k0_pay4
  exact pay1_apply x0 x1 p q

/-- The projected tile against a column vector, at row p. -/
theorem pay2_apply (x0 : Vec Ideal S1024x512 .f32) (x1 : Vec Ideal S512x256 .f32) (x2 : Vec Ideal S256x1 .f32) (p : Fin 1024) :
    k0_pay2 x0 x1 x2 (ix2 p (0 : Fin 1)) = ∑ k : Fin 256, (∑ j : Fin 512, x0 (ix2 p j) * x1 (ix2 j k)) * x2 (ix2 k (0 : Fin 1)) := by
  unfold k0_pay2
  refine (Cert.Sage.matmul_plain_zero_apply (M := 1024) (K := 256) (N := 1) none _ _ p 0).trans ?_
  refine Finset.sum_congr rfl fun k _ => ?_
  rw [pay1_apply]
theorem pay3_apply (x0 : Vec Ideal S1024x512 .f32) (x1 : Vec Ideal S512x256 .f32) (x3 : Vec Ideal S256x1 .f32) (p : Fin 1024) :
    k0_pay3 x0 x1 x3 (ix2 p (0 : Fin 1)) = ∑ k : Fin 256, (∑ j : Fin 512, x0 (ix2 p j) * x1 (ix2 j k)) * x3 (ix2 k (0 : Fin 1)) := by
  unfold k0_pay3
  refine (Cert.Sage.matmul_plain_zero_apply (M := 1024) (K := 256) (N := 1) none _ _ p 0).trans ?_
  refine Finset.sum_congr rfl fun k _ => ?_
  rw [pay1_apply]

/-! ## The blocks' places in the arrays -/

variable (V : (c : Dev nD) → (b : Ref sig .tc) → Buf (Elt Ideal) ((c : Thread nD τ).loc b))

/-- The printed index maps over the grid: the feature tile and the three output tiles sit at block row t, column
    block 0; the weights and the two vectors are block (0, 0) at every point. -/
theorem idx_rows : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The feature tile at point t, entry (p, k), is the features at row 1024·t + p, column k. -/
theorem tile_x (c : Dev nD) (t : Fin cfg0.N) (p : Fin 1024) (k : Fin 512) (r : Fin 8192) (hr : r.val = 1024 * t.val + p.val) :
    (iblk0 V c 0 t : Vec Ideal S1024x512 .f32) (ix2 p k) = (V c main_arg0 : S8192x512.Idx → EReal) (ix2 r k) := by
  obtain ⟨e0, e1, -⟩ := idx_rows t
  unfold iblk0
  rw [View.read_apply]
  show V c main_arg0 _ = V c main_arg0 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 512 + 1 * k.val = k.val; rw [e1]; omega

/-- The weights' block at any point is the weights. -/
theorem tile_w (c : Dev nD) (t : Fin cfg0.N) (k : Fin 512) (q q' : Fin 256) (hq : q'.val = q.val) :
    (iblk0 V c 1 t : Vec Ideal S512x256 .f32) (ix2 k q) = (V c main_arg1 : S512x256.Idx → EReal) (ix2 k q') := by
  obtain ⟨-, -, e0, e1, -⟩ := idx_rows t
  unfold iblk0
  rw [View.read_apply]
  show V c main_arg1 _ = V c main_arg1 _
  congr 1
  funext a
  apply Fin.ext
  match a with
  | ⟨0, _⟩ => show win0_1.index t (0 : Fin 2) * 512 + 1 * k.val = k.val; rw [e0]; omega
  | ⟨1, _⟩ => show win0_1.index t (1 : Fin 2) * 256 + 1 * q.val = q'.val; rw [e1, hq]; omega

/-- The two vectors' blocks at any point are the vectors. -/
theorem tile_as (c : Dev nD) (t : Fin cfg0.N) (k : Fin 256) :
    (iblk0 V c 2 t : Vec Ideal S256x1 .f32) (ix2 k (0 : Fin 1)) = (V c main_arg2 : S256x1.Idx → EReal) (ix2 k (0 : Fin 1)) := by
  obtain ⟨-, -, -, -, e0, e1, -⟩ := idx_rows t
  unfold iblk0
  rw [View.read_apply]
  show V c main_arg2 _ = V c main_arg2 _
  congr 1
  funext a
  apply Fin.ext
  match a with
  | ⟨0, _⟩ => show win0_2.index t (0 : Fin 2) * 256 + 1 * k.val = k.val; rw [e0]; omega
  | ⟨1, _⟩ => show win0_2.index t (1 : Fin 2) * 1 + 1 * (0 : Fin 1).val = (0 : Fin 1).val; rw [e1]; rfl
theorem tile_an (c : Dev nD) (t : Fin cfg0.N) (k : Fin 256) :
    (iblk0 V c 3 t : Vec Ideal S256x1 .f32) (ix2 k (0 : Fin 1)) = (V c main_arg3 : S256x1.Idx → EReal) (ix2 k (0 : Fin 1)) := by
  obtain ⟨-, -, -, -, -, -, e0, e1, -⟩ := idx_rows t
  unfold iblk0
  rw [View.read_apply]
  show V c main_arg3 _ = V c main_arg3 _
  congr 1
  funext a
  apply Fin.ext
  match a with
  | ⟨0, _⟩ => show win0_3.index t (0 : Fin 2) * 256 + 1 * k.val = k.val; rw [e0]; omega
  | ⟨1, _⟩ => show win0_3.index t (1 : Fin 2) * 1 + 1 * (0 : Fin 1).val = (0 : Fin 1).val; rw [e1]; rfl

/-! ## The whole arrays -/

/-- The projected features as one array. -/
def featArr (a0 : S8192x512.Idx → EReal) (a1 : S512x256.Idx → EReal) : S8192x256.Idx → EReal :=
  fun i => Cert.Spec.feat a0 a1 ⟨(i 0).val, idx2_lt0 i⟩ ⟨(i 1).val, idx2_lt1 i⟩

/-- The projected features against a column vector, as one array. -/
def projArr (a0 : S8192x512.Idx → EReal) (a1 : S512x256.Idx → EReal) (a : S256x1.Idx → EReal) : S8192x1.Idx → EReal :=
  fun i => Cert.Spec.proj a0 a1 a ⟨(i 0).val, idx2_lt0 i⟩

/-- What point t writes back to the first output array is block t of the projected features. -/
theorem flushed4_eq (c : Dev nD) (t : Fin cfg0.N) :
    (dat0 (F := Ideal) V c).flushed 4 t = ((cfg0.win 4).blk t).view.read (Elt Ideal) (featArr (V c main_arg0) (V c main_arg1)) := by
  show (cfg0.win 4).cut (grid0.coords t) ((dat0 V c).after 4 t) = _
  rw [after0_4, out0_4_eq]
  obtain ⟨-, -, -, -, -, -, -, -, e0, e1, -⟩ := idx_rows t
  have hN : cfg0.N = 8 := N_0
  have ht := t.isLt
  refine funext fun (j : S1024x256.Idx) => ?_
  obtain ⟨p, q, rfl⟩ : ∃ (p : Fin 1024) (q : Fin 256), j = ix2 p q := ⟨j 0, j 1, eq_ix2 j⟩
  show k0_pay4 (iblk0 V c 0 t) (iblk0 V c 1 t) (ix2 p q) = featArr (V c main_arg0) (V c main_arg1) (((cfg0.win 4).blk t).view.emb (ix2 p q))
  rw [pay4_apply]
  unfold featArr Cert.Spec.feat
  refine Finset.sum_congr rfl fun k _ => ?_
  rw [tile_x V c t p k ⟨((((cfg0.win 4).blk t).view.emb (ix2 p q)) 0).val, idx2_lt0 _⟩
      (show win0_4.index t (0 : Fin 2) * 1024 + 1 * p.val = 1024 * t.val + p.val by rw [e0]; omega),
    tile_w V c t k q ⟨((((cfg0.win 4).blk t).view.emb (ix2 p q)) 1).val, idx2_lt1 _⟩
      (show win0_4.index t (1 : Fin 2) * 256 + 1 * q.val = q.val by rw [e1]; omega)]

/-- What point t writes back to the second output array is block t of the projected features against a_self. -/
theorem flushed5_eq (c : Dev nD) (t : Fin cfg0.N) :
    (dat0 (F := Ideal) V c).flushed 5 t = ((cfg0.win 5).blk t).view.read (Elt Ideal) (projArr (V c main_arg0) (V c main_arg1) (V c main_arg2)) := by
  show (cfg0.win 5).cut (grid0.coords t) ((dat0 V c).after 5 t) = _
  rw [after0_5, out0_5_eq]
  obtain ⟨-, -, -, -, -, -, -, -, -, -, e0, e1, -⟩ := idx_rows t
  have hN : cfg0.N = 8 := N_0
  have ht := t.isLt
  refine funext fun (j : S1024x1.Idx) => ?_
  obtain ⟨p, q, rfl⟩ : ∃ (p : Fin 1024) (q : Fin 1), j = ix2 p q := ⟨j 0, j 1, eq_ix2 j⟩
  obtain rfl : q = 0 := Subsingleton.elim _ _
  show k0_pay2 (iblk0 V c 0 t) (iblk0 V c 1 t) (iblk0 V c 2 t) (ix2 p (0 : Fin 1))
    = projArr (V c main_arg0) (V c main_arg1) (V c main_arg2) (((cfg0.win 5).blk t).view.emb (ix2 p (0 : Fin 1)))
  rw [pay2_apply]
  unfold projArr Cert.Spec.proj Cert.Spec.feat
  refine Finset.sum_congr rfl fun k _ => ?_
  rw [tile_as V c t k]
  congr 1
  refine Finset.sum_congr rfl fun j _ => ?_
  rw [tile_x V c t p j ⟨((((cfg0.win 5).blk t).view.emb (ix2 p (0 : Fin 1))) 0).val, idx2_lt0 _⟩
      (show win0_5.index t (0 : Fin 2) * 1024 + 1 * p.val = 1024 * t.val + p.val by rw [e0]; omega),
    tile_w V c t j k k rfl]

/-- What point t writes back to the third output array is block t of the projected features against a_neighs. -/
theorem flushed6_eq (c : Dev nD) (t : Fin cfg0.N) :
    (dat0 (F := Ideal) V c).flushed 6 t = ((cfg0.win 6).blk t).view.read (Elt Ideal) (projArr (V c main_arg0) (V c main_arg1) (V c main_arg3)) := by
  show (cfg0.win 6).cut (grid0.coords t) ((dat0 V c).after 6 t) = _
  rw [after0_6, out0_6_eq]
  obtain ⟨-, -, -, -, -, -, -, -, -, -, -, -, e0, e1⟩ := idx_rows t
  have hN : cfg0.N = 8 := N_0
  have ht := t.isLt
  refine funext fun (j : S1024x1.Idx) => ?_
  obtain ⟨p, q, rfl⟩ : ∃ (p : Fin 1024) (q : Fin 1), j = ix2 p q := ⟨j 0, j 1, eq_ix2 j⟩
  obtain rfl : q = 0 := Subsingleton.elim _ _
  show k0_pay3 (iblk0 V c 0 t) (iblk0 V c 1 t) (iblk0 V c 3 t) (ix2 p (0 : Fin 1))
    = projArr (V c main_arg0) (V c main_arg1) (V c main_arg3) (((cfg0.win 6).blk t).view.emb (ix2 p (0 : Fin 1)))
  rw [pay3_apply]
  unfold projArr Cert.Spec.proj Cert.Spec.feat
  refine Finset.sum_congr rfl fun k _ => ?_
  rw [tile_an V c t k]
  congr 1
  refine Finset.sum_congr rfl fun j _ => ?_
  rw [tile_x V c t p j ⟨((((cfg0.win 6).blk t).view.emb (ix2 p (0 : Fin 1))) 0).val, idx2_lt0 _⟩
      (show win0_6.index t (0 : Fin 2) * 1024 + 1 * p.val = 1024 * t.val + p.val by rw [e0]; omega),
    tile_w V c t j k k rfl]

/-! ## The eight blocks tile each output array -/

/-- An index of the array is in point t's block iff each coordinate is in the block's range on its axis. -/
theorem mem_blk4 (t : Fin cfg0.N) (i : S8192x256.Idx) :
    i ∈ ((cfg0.win 4).blk t).view.set ↔ ∀ a : Fin 2, win0_4.index t a * S1024x256.size a ≤ (i a).val ∧ (i a).val < win0_4.index t a * S1024x256.size a + S1024x256.size a := by
  show i ∈ ((View.whole main_v0_0).slice (win0_4.rect t)).set ↔ _
  rw [View.set_slice_whole, Rect.mem_set_unit]
  exact Iff.rfl
theorem mem_blk5 (t : Fin cfg0.N) (i : S8192x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v0_1).slice (win0_5.rect t)).set ↔ _
  rw [View.set_slice_whole, Rect.mem_set_unit]
  exact Iff.rfl
theorem mem_blk6 (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v0_2).slice (win0_6.rect t)).set ↔ _
  rw [View.set_slice_whole, Rect.mem_set_unit]
  exact Iff.rfl

/-- Row r of an output array lies in the block of point r / 1024, which writes back. -/
theorem cover4 (i : S8192x256.Idx) : ∃ t : Fin cfg0.N, (cfg0.win 4).flush t = true ∧ i ∈ ((cfg0.win 4).blk t).view.set := by
  have hi0 : (i 0).val < 8192 := idx2_lt0 i
  have hi1 : (i 1).val < 256 := idx2_lt1 i
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, -, -, e0, e1, -⟩ := idx_rows t
  refine ⟨t, flush0_4 t, ?_⟩
  rw [mem_blk4]
  intro a
  match a with
  | ⟨0, _⟩ => show win0_4.index t (0 : Fin 2) * 1024 ≤ (i 0).val ∧ (i 0).val < win0_4.index t (0 : Fin 2) * 1024 + 1024; rw [e0]; omega
  | ⟨1, _⟩ => show win0_4.index t (1 : Fin 2) * 256 ≤ (i 1).val ∧ (i 1).val < win0_4.index t (1 : Fin 2) * 256 + 256; rw [e1]; omega
theorem cover5 (i : S8192x1.Idx) : ∃ t : Fin cfg0.N, (cfg0.win 5).flush t = true ∧ i ∈ ((cfg0.win 5).blk t).view.set := by
  have hi0 : (i 0).val < 8192 := idx2_lt0 i
  have hi1 : (i 1).val < 1 := idx2_lt1 i
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, -, -, -, -, e0, e1, -⟩ := idx_rows t
  refine ⟨t, flush0_5 t, ?_⟩
  rw [mem_blk5]
  intro a
  match a with
  | ⟨0, _⟩ => show win0_5.index t (0 : Fin 2) * 1024 ≤ (i 0).val ∧ (i 0).val < win0_5.index t (0 : Fin 2) * 1024 + 1024; rw [e0]; omega
  | ⟨1, _⟩ => show win0_5.index t (1 : Fin 2) * 1 ≤ (i 1).val ∧ (i 1).val < win0_5.index t (1 : Fin 2) * 1 + 1; rw [e1]; omega
theorem cover6 (i : S8192x1.Idx) : ∃ t : Fin cfg0.N, (cfg0.win 6).flush t = true ∧ i ∈ ((cfg0.win 6).blk t).view.set := by
  have hi0 : (i 0).val < 8192 := idx2_lt0 i
  have hi1 : (i 1).val < 1 := idx2_lt1 i
  have hN : cfg0.N = 8 := N_0
  obtain ⟨t, ht⟩ : ∃ t : Fin cfg0.N, t.val = (i 0).val / 1024 := ⟨⟨(i 0).val / 1024, by rw [hN]; omega⟩, rfl⟩
  obtain ⟨-, -, -, -, -, -, -, -, -, -, -, -, e0, e1⟩ := idx_rows t
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; rw [e0]; omega
  | ⟨1, _⟩ => show win0_6.index t (1 : Fin 2) * 1 ≤ (i 1).val ∧ (i 1).val < win0_6.index t (1 : Fin 2) * 1 + 1; rw [e1]; omega

/-! ## The arrays after the region -/

/-- The first output array is the projected features, entry by entry. -/
theorem arr0_4 (c : Dev nD) (r : Fin 8192) (k : Fin 256) :
    (dat0 (F := Ideal) V c).arrAt 4 cfg0.N (ix2 r k) = Cert.Spec.feat (V c main_arg0) (V c main_arg1) r k :=
  congrFun ((dat0 (F := Ideal) V c).arrAt_eq_of_cover 4 (featArr (V c main_arg0) (V c main_arg1)) (fun t _ => flushed4_eq V c t) cover4) (ix2 r k)

/-- The second is the projected features against a_self, row by row. -/
theorem arr0_5 (c : Dev nD) (r : Fin 8192) :
    (dat0 (F := Ideal) V c).arrAt 5 cfg0.N (ix2 r (0 : Fin 1)) = Cert.Spec.proj (V c main_arg0) (V c main_arg1) (V c main_arg2) r :=
  congrFun ((dat0 (F := Ideal) V c).arrAt_eq_of_cover 5 (projArr (V c main_arg0) (V c main_arg1) (V c main_arg2)) (fun t _ => flushed5_eq V c t) cover5) (ix2 r (0 : Fin 1))

/-- The third is the projected features against a_neighs, row by row. -/
theorem arr0_6 (c : Dev nD) (r : Fin 8192) :
    (dat0 (F := Ideal) V c).arrAt 6 cfg0.N (ix2 r (0 : Fin 1)) = Cert.Spec.proj (V c main_arg0) (V c main_arg1) (V c main_arg3) r :=
  congrFun ((dat0 (F := Ideal) V c).arrAt_eq_of_cover 6 (projArr (V c main_arg0) (V c main_arg1) (V c main_arg3)) (fun t _ => flushed6_eq V c t) cover6) (ix2 r (0 : Fin 1))

end Cert.KernelIdeal.Hand

end
-- ==== Proof.Reshape.lean ====
/-
  The host reshape between the two regions, read at an index on the extended reals: the column of 8192 entries the
  first region leaves as its third output becomes a row of 8192 entries, entry for entry.
-/
import proofs.«124482_j60979945668752_2_alg».proof.Proof.Gen.KernelIdeal.Launch
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Hand

open Idealize.ShloMosaic Idealize.ShloMosaic.TcCoe Idealize.SL.Sem
open Idealize.ShloMosaic.ValueIdx
open Cert.KernelIdeal Cert.KernelIdeal.Gen

/-- The reshape of the third output array, a column of 8192 entries, to a row: entry (0, q) of the row is entry
    (q, 0) of the column, whatever the buffers hold before it. -/
theorem reshape_row (W : Valuation τ sig (Elt Ideal)) (q : Fin 8192) :
    (StableHlo.after (hostOps1 (F := Ideal)) W (Proc.devRef .tc main_v1)) (ix2 (0 : Fin 1) q)
      = (W (Proc.devRef .tc main_v0_2)) (ix2 q (0 : Fin 1)) := by
  have e : (StableHlo.after (hostOps1 (F := Ideal)) W (Proc.devRef .tc main_v1) : S1x8192.Idx → EReal)
      = shapeCast S1x8192 (W (Proc.devRef .tc main_v0_2) : S8192x1.Idx → EReal) shapeCasts_S8192x1_S1x8192 := by
    dsimp only [hostOps1]; after_results; rfl
  refine (congrFun e (ix2 (0 : Fin 1) q)).trans ?_
  refine shapeCast_apply _ _ _ (ix2 q (0 : Fin 1)) ?_
  rw [Shape.rowMajor_val_two, Shape.rowMajor_val_two]
  show q.val * 1 + 0 = 0 * 8192 + q.val
  omega

end Cert.KernelIdeal.Hand

end
-- ==== Proof.KVal1.lean ====
/-
  What the attention region finds in the arrays it reads: the self scores and, through the reshape, the neighbour scores
  are the two projections of the features; the feature array is the product of the first two arguments; the adjacency
  and weight arrays are the last two arguments as launched.
-/
import proofs.«124482_j60979945668752_2_alg».proof.Proof.KRun
import proofs.«124482_j60979945668752_2_alg».proof.Proof.Reg0Val
import proofs.«124482_j60979945668752_2_alg».proof.Proof.Reshape
import proofs.«124482_j60979945668752_2_alg».proof.Proof.Spec

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

theorem V2_eq_V1 (c : Dev nD) (b : Ref sig .tc) (hb : b ∉ hostOps1_W) :
    W2 m ρ c (Proc.devRef .tc b) = W1 m ρ c (Proc.devRef .tc b) :=
  StableHlo.after_of_writes_sub hostOps1 _ hostOps1_writes hb

/-- The self scores region 1 reads are the features projected on the first vector. -/
theorem V2_self (c : Dev nD) (r : Fin 8192) :
    V2 m ρ c main_v0_1 (ix2 r (0 : Fin 1)) = Cert.Spec.proj (m ((c : Thread nD τ).loc main_arg0)) (m ((c : Thread nD τ).loc main_arg1)) (m ((c : Thread nD τ).loc main_arg2)) r := by
  have h1 := V2_eq_V1 m ρ c main_v0_1 (by decide)
  have h2 := W1_arr m ρ c 5
  exact (congrFun (h1.trans h2) (ix2 r (0 : Fin 1))).trans (arr0_5 (V0 m ρ) c r)

/-- The neighbour scores region 1 reads, a row after the reshape, are the features projected on the second vector. -/
theorem V2_neigh (c : Dev nD) (q : Fin 8192) :
    V2 m ρ c main_v1 (ix2 (0 : Fin 1) q) = Cert.Spec.proj (m ((c : Thread nD τ).loc main_arg0)) (m ((c : Thread nD τ).loc main_arg1)) (m ((c : Thread nD τ).loc main_arg3)) q := by
  have h0 := reshape_row (W1 m ρ c) q
  have h2 := W1_arr m ρ c 6
  exact h0.trans ((congrFun h2 (ix2 q (0 : Fin 1))).trans (arr0_6 (V0 m ρ) c q))

/-- The features region 1 reads. -/
theorem V2_feat (c : Dev nD) (q : Fin 8192) (d : Fin 256) :
    V2 m ρ c main_v0_0 (ix2 q d) = Cert.Spec.feat (m ((c : Thread nD τ).loc main_arg0)) (m ((c : Thread nD τ).loc main_arg1)) q d := by
  have h1 := V2_eq_V1 m ρ c main_v0_0 (by decide)
  have h2 := W1_arr m ρ c 4
  exact (congrFun (h1.trans h2) (ix2 q d)).trans (arr0_4 (V0 m ρ) c q d)

/-- The adjacency and weight arrays region 1 reads are the arguments as launched. -/
theorem V2_adj (c : Dev nD) : V2 m ρ c main_arg4 = (m ((c : Thread nD τ).loc main_arg4)) :=
  (V2_eq_V1 m ρ c main_arg4 (by decide)).trans (W1_of_ne m ρ c main_arg4 (by decide))
theorem V2_wts (c : Dev nD) : V2 m ρ c main_arg5 = (m ((c : Thread nD τ).loc main_arg5)) :=
  (V2_eq_V1 m ρ c main_arg5 (by decide)).trans (W1_of_ne m ρ c main_arg5 (by decide))

end Cert.KernelIdeal.Hand

end
-- ==== Proof.Reg1Blocks.lean ====
/-
  Region 1's blocks and its result array, in global coordinates.

  The attention region runs on an 8 x 8 grid: point t has row tile t / 8 and column tile t % 8.  Its input blocks
  are read off the arrays as the region finds them: the self scores and the output at the rows of the row tile; the
  neighbour scores (a row) and the projected features at the columns, respectively rows, of the column tile; the
  adjacency and weight tiles at (row tile, column tile).  The output block of a row tile is written back once, at the
  row tile's last column tile, so the result array's rows 1024·i … 1024·i + 1023 hold what point 8·i + 7 left.
-/
import proofs.«124482_j60979945668752_2_alg».proof.Proof.Reg1
import Idealize.ShloMosaic.Lib.Pipeline.Value
import Idealize.ShloMosaic.Lib.ValueIdx
import Idealize.ShloMosaic.Lib.Tactic

set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen

variable {F : FTy → Type} [FloatOps F]
variable (V : (c : Dev nD) → (b : Ref sig .tc) → Buf (Elt F) ((c : Thread nD τ).loc b))

/-! ## Tiles of the grid -/

/-- A row of the row tile of point t is a row of the array. -/
theorem rowTile_lt (t : Fin cfg1.N) (p : Fin 1024) : p.val + 1024 * (t.val / 8) < 8192 := by
  have ht : t.val < 64 := lt_of_lt_of_eq t.isLt N_1; have := p.isLt; omega
/-- A column of the column tile of point t is a column of the array. -/
theorem colTile_lt (t : Fin cfg1.N) (k : Fin 1024) : k.val + 1024 * (t.val % 8) < 8192 := by
  have := k.isLt; omega
/-- A row of the i-th row tile is a row of the array. -/
theorem tileRow_lt (i : Fin 8) (p : Fin 1024) : p.val + 1024 * i.val < 8192 := by
  have := i.isLt; have := p.isLt; omega
/-- The last column tile of the i-th row tile is a point of the grid. -/
theorem lastPt_lt (i : Fin 8) : 8 * i.val + 7 < cfg1.N := by
  rw [show cfg1.N = 64 from N_1]; have := i.isLt; omega

/-- The printed index maps over the 64 points. -/
theorem idx_tiles : ∀ t : Fin cfg1.N,
    win1_0.index t (0 : Fin 2) = t.val / 8 ∧ win1_0.index t (1 : Fin 2) = 0
    ∧ win1_1.index t (0 : Fin 2) = 0 ∧ win1_1.index t (1 : Fin 2) = t.val % 8
    ∧ win1_2.index t (0 : Fin 2) = t.val / 8 ∧ win1_2.index t (1 : Fin 2) = t.val % 8
    ∧ win1_3.index t (0 : Fin 2) = t.val / 8 ∧ win1_3.index t (1 : Fin 2) = t.val % 8
    ∧ win1_4.index t (0 : Fin 2) = t.val % 8 ∧ win1_4.index t (1 : Fin 2) = 0
    ∧ win1_5.index t (0 : Fin 2) = t.val / 8 ∧ win1_5.index t (1 : Fin 2) = 0 :=
  (by decide +kernel : ∀ t : Fin grid1.N, _)

/-! ## The input blocks in global coordinates -/

/-- The self scores' block: rows of the row tile. -/
theorem blk1_0 (c : Dev nD) (t : Fin cfg1.N) (p : Fin 1024) :
    (iblk1 V c 0 t : Vec F S1024x1 .f32) (ix2 p (0 : Fin 1))
      = (V c main_v0_1 : S8192x1.Idx → Elt F .f32) (ix2 (⟨p.val + 1024 * (t.val / 8), rowTile_lt t p⟩ : Fin 8192) (0 : Fin 1)) := by
  obtain ⟨e0, e1, -⟩ := idx_tiles t
  unfold iblk1
  rw [View.read_apply]
  show V c main_v0_1 _ = V c main_v0_1 _
  congr 1
  funext a
  apply Fin.ext
  match a with
  | ⟨0, _⟩ => show win1_0.index t (0 : Fin 2) * 1024 + 1 * p.val = p.val + 1024 * (t.val / 8); rw [e0]; omega
  | ⟨1, _⟩ => show win1_0.index t (1 : Fin 2) * 1 + 1 * (0 : Fin 1).val = (0 : Fin 1).val; rw [e1]; rfl

/-- The neighbour scores' block: columns of the column tile. -/
theorem blk1_1 (c : Dev nD) (t : Fin cfg1.N) (k : Fin 1024) :
    (iblk1 V c 1 t : Vec F S1x1024 .f32) (ix2 (0 : Fin 1) k)
      = (V c main_v1 : S1x8192.Idx → Elt F .f32) (ix2 (0 : Fin 1) (⟨k.val + 1024 * (t.val % 8), colTile_lt t k⟩ : Fin 8192)) := by
  obtain ⟨-, -, e0, e1, -⟩ := idx_tiles t
  unfold iblk1
  rw [View.read_apply]
  show V c main_v1 _ = V c main_v1 _
  congr 1
  funext a
  apply Fin.ext
  match a with
  | ⟨0, _⟩ => show win1_1.index t (0 : Fin 2) * 1 + 1 * (0 : Fin 1).val = (0 : Fin 1).val; rw [e0]; rfl
  | ⟨1, _⟩ => show win1_1.index t (1 : Fin 2) * 1024 + 1 * k.val = k.val + 1024 * (t.val % 8); rw [e1]; omega

/-- The adjacency tile at (row tile, column tile). -/
theorem blk1_2 (c : Dev nD) (t : Fin cfg1.N) (p k : Fin 1024) :
    (iblk1 V c 2 t : Vec F S1024x1024 .f32) (ix2 p k)
      = (V c main_arg4 : S8192x8192.Idx → Elt F .f32) (ix2 (⟨p.val + 1024 * (t.val / 8), rowTile_lt t p⟩ : Fin 8192) (⟨k.val + 1024 * (t.val % 8), colTile_lt t k⟩ : Fin 8192)) := by
  obtain ⟨-, -, -, -, e0, e1, -⟩ := idx_tiles t
  unfold iblk1
  rw [View.read_apply]
  show V c main_arg4 _ = V c main_arg4 _
  congr 1
  funext a
  apply Fin.ext
  match a with
  | ⟨0, _⟩ => show win1_2.index t (0 : Fin 2) * 1024 + 1 * p.val = p.val + 1024 * (t.val / 8); rw [e0]; omega
  | ⟨1, _⟩ => show win1_2.index t (1 : Fin 2) * 1024 + 1 * k.val = k.val + 1024 * (t.val % 8); rw [e1]; omega

/-- The weight tile at (row tile, column tile). -/
theorem blk1_3 (c : Dev nD) (t : Fin cfg1.N) (p k : Fin 1024) :
    (iblk1 V c 3 t : Vec F S1024x1024 .f32) (ix2 p k)
      = (V c main_arg5 : S8192x8192.Idx → Elt F .f32) (ix2 (⟨p.val + 1024 * (t.val / 8), rowTile_lt t p⟩ : Fin 8192) (⟨k.val + 1024 * (t.val % 8), colTile_lt t k⟩ : Fin 8192)) := by
  obtain ⟨-, -, -, -, -, -, e0, e1, -⟩ := idx_tiles t
  unfold iblk1
  rw [View.read_apply]
  show V c main_arg5 _ = V c main_arg5 _
  congr 1
  funext a
  apply Fin.ext
  match a with
  | ⟨0, _⟩ => show win1_3.index t (0 : Fin 2) * 1024 + 1 * p.val = p.val + 1024 * (t.val / 8); rw [e0]; omega
  | ⟨1, _⟩ => show win1_3.index t (1 : Fin 2) * 1024 + 1 * k.val = k.val + 1024 * (t.val % 8); rw [e1]; omega

/-- The projected features' block: rows of the COLUMN tile. -/
theorem blk1_4 (c : Dev nD) (t : Fin cfg1.N) (k : Fin 1024) (d : Fin 256) :
    (iblk1 V c 4 t : Vec F S1024x256 .bf16) (ix2 k d)
      = (V c main_v0_0 : S8192x256.Idx → Elt F .bf16) (ix2 (⟨k.val + 1024 * (t.val % 8), colTile_lt t k⟩ : Fin 8192) d) := by
  obtain ⟨-, -, -, -, -, -, -, -, e0, e1, -⟩ := idx_tiles t
  unfold iblk1
  rw [View.read_apply]
  show V c main_v0_0 _ = V c main_v0_0 _
  congr 1
  funext a
  apply Fin.ext
  match a with
  | ⟨0, _⟩ => show win1_4.index t (0 : Fin 2) * 1024 + 1 * k.val = k.val + 1024 * (t.val % 8); rw [e0]; omega
  | ⟨1, _⟩ => show win1_4.index t (1 : Fin 2) * 256 + 1 * d.val = d.val; rw [e1]; omega

/-! ## The result array -/

/-- What a position leaves does not depend on how the position is written. -/
theorem outsAt1_congr (c : Dev nD) {n n' : ℕ} (h : n = n') (hn : n < cfg1.N) (hn' : n' < cfg1.N) :
    outsAt1 V c n hn = outsAt1 V c n' hn' := by
  subst h; rfl

/-- The last column tile of the row tile that holds row r is a point of the grid. -/
theorem lastOfRow_lt (r : ℕ) (hr : r < 8192) : 8 * (r / 1024) + 7 < cfg1.N := by
  rw [show cfg1.N = 64 from N_1]; omega

/-- The result as one array: row r holds what the last column tile of r's row tile left in the output block, at
    row r % 1024. -/
def resArr (c : Dev nD) : S8192x256.Idx → Elt F .f32 := fun idx =>
  (outsAt1 V c (8 * ((idx 0).val / 1024) + 7) (lastOfRow_lt _ (idx2_lt0 idx))).1
    (ix2 (⟨(idx 0).val % 1024, Nat.mod_lt _ (by decide)⟩ : Fin 1024) (⟨(idx 1).val, idx2_lt1 idx⟩ : Fin 256))

/-- The array at an index whose row is row p of the row tile that ends at position n. -/
theorem resArr_apply (c : Dev nD) (idx : S8192x256.Idx) (n : ℕ) (hn : n < cfg1.N) (p : Fin 1024) (d : Fin 256)
    (h7 : n % 8 = 7) (h0 : (idx 0).val = p.val + 1024 * (n / 8)) (h1 : (idx 1).val = d.val) :
    resArr V c idx = (outsAt1 V c n hn).1 (ix2 p d) := by
  have hp := p.isLt
  unfold resArr
  have ep : (⟨(idx 0).val % 1024, Nat.mod_lt _ (by decide)⟩ : Fin 1024) = p := Fin.ext (by show (idx 0).val % 1024 = p.val; omega)
  have ed : (⟨(idx 1).val, idx2_lt1 idx⟩ : Fin 256) = d := Fin.ext h1
  rw [ep, ed, outsAt1_congr V c (show 8 * ((idx 0).val / 1024) + 7 = n by omega) _ hn]

/-- What a writing point t (a row tile's last column tile) writes back is block t of that array. -/
theorem flushed1_5_eq (c : Dev nD) (t : Fin cfg1.N) (hf : (cfg1.win 5).flush t = true) :
    (dat1 V c).flushed 5 t = ((cfg1.win 5).blk t).view.read (Elt F) (resArr V c) := by
  have h7 : t.val % 8 = 7 := (flush1_5 t).mp hf
  show (cfg1.win 5).cut (grid1.coords t) ((dat1 V c).after 5 t) = _
  rw [after1_5]
  obtain ⟨-, -, -, -, -, -, -, -, -, -, e0, e1⟩ := idx_tiles t
  refine funext fun (j : S1024x256.Idx) => ?_
  obtain ⟨p, d, rfl⟩ : ∃ (p : Fin 1024) (d : Fin 256), j = ix2 p d := ⟨j 0, j 1, eq_ix2 j⟩
  show (outsAt1 V c t.val t.isLt).1 (ix2 p d) = resArr V c (((cfg1.win 5).blk t).view.emb (ix2 p d))
  refine (resArr_apply V c _ t.val t.isLt p d h7 ?_ ?_).symm
  · show win1_5.index t (0 : Fin 2) * 1024 + 1 * p.val = p.val + 1024 * (t.val / 8); rw [e0]; omega
  · show win1_5.index t (1 : Fin 2) * 256 + 1 * d.val = d.val; rw [e1]; omega

/-- An index of the result array is in point t's block iff each coordinate is in the block's range on its axis. -/
theorem mem_blk1_5 (t : Fin cfg1.N) (i : S8192x256.Idx) :
    i ∈ ((cfg1.win 5).blk t).view.set ↔ ∀ a : Fin 2, win1_5.index t a * S1024x256.size a ≤ (i a).val ∧ (i a).val < win1_5.index t a * S1024x256.size a + S1024x256.size a := by
  show i ∈ ((View.whole main_v2).slice (win1_5.rect t)).set ↔ _
  rw [View.set_slice_whole, Rect.mem_set_unit]
  exact Iff.rfl

/-- Row r lies in the block of the last column tile of r's row tile, which writes back. -/
theorem cover1_5 (i : S8192x256.Idx) : ∃ t : Fin cfg1.N, (cfg1.win 5).flush t = true ∧ i ∈ ((cfg1.win 5).blk t).view.set := by
  have hi0 : (i 0).val < 8192 := idx2_lt0 i
  have hi1 : (i 1).val < 256 := idx2_lt1 i
  obtain ⟨t, ht⟩ : ∃ t : Fin cfg1.N, t.val = 8 * ((i 0).val / 1024) + 7 := ⟨⟨8 * ((i 0).val / 1024) + 7, lastOfRow_lt _ hi0⟩, rfl⟩
  obtain ⟨-, -, -, -, -, -, -, -, -, -, e0, e1⟩ := idx_tiles t
  refine ⟨t, (flush1_5 t).mpr (by omega), ?_⟩
  rw [mem_blk1_5]
  intro a
  match a with
  | ⟨0, _⟩ => show win1_5.index t (0 : Fin 2) * 1024 ≤ (i 0).val ∧ (i 0).val < win1_5.index t (0 : Fin 2) * 1024 + 1024; rw [e0]; omega
  | ⟨1, _⟩ => show win1_5.index t (1 : Fin 2) * 256 ≤ (i 1).val ∧ (i 1).val < win1_5.index t (1 : Fin 2) * 256 + 256; rw [e1]; omega

/-- The result array after the region: rows of the i-th row tile hold what point 8·i + 7 left in the output block. -/
theorem arr1_5 (c : Dev nD) (i : Fin 8) (p : Fin 1024) (d : Fin 256) :
    (dat1 V c).arrAt 5 cfg1.N (ix2 (⟨p.val + 1024 * i.val, tileRow_lt i p⟩ : Fin 8192) d)
      = (outsAt1 V c (8 * i.val + 7) (lastPt_lt i)).1 (ix2 p d) :=
  (congrFun ((dat1 V c).arrAt_eq_of_cover 5 (resArr V c) (flushed1_5_eq V c) cover1_5) (ix2 (⟨p.val + 1024 * i.val, tileRow_lt i p⟩ : Fin 8192) d)).trans
    (resArr_apply V c _ (8 * i.val + 7) (lastPt_lt i) p d (by omega)
      (by show p.val + 1024 * i.val = p.val + 1024 * ((8 * i.val + 7) / 8); omega) rfl)

end Cert.KernelIdeal.Hand

end
-- ==== Proof.LibLayout.lean ====
/-
  Unit axes added by a shape cast and filled by a broadcast, read at coordinates.

  A row statistic (a maximum or a sum along the last axis of an `[a, b]` array) comes back as an `[a]` vector; to
  combine it with the array again it is cast to a column `[a, 1]` and broadcast to `[a, b]`: entry (p, c) of the
  result is entry p of the vector. The same happens one rank up when every row of one `[a, c]` array is paired with
  every row of another `[b, c]` array: the first is cast to `[a, 1, c]` and broadcast along the new middle axis, the
  second, as `[1, b, c]`, along a new leading axis; entry (p, q, l) of the two results is entry (p, l) of the first and
  entry (q, l) of the second. Each lemma states one such step for arbitrary extents; a cast keeps the row-major
  position, a broadcast reads coordinate 0 on an axis of extent one and the same coordinate elsewhere.
-/
import Idealize.ShloMosaic.Lib.ValueLayout
import Idealize.ShloMosaic.Lib.Pipeline.Value
import Idealize.ShloMosaic.Lib.ValueIdx

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, c]` array cast to `[a, 1, c]` reads, at `(i, u, l)`, the operand at `(i, l)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (l : Fin c) : shapeCast ⟨3, ![a, 1, c]⟩ x h (ix3 i u l) = x (ix2 i l) :=
  shapeCast_apply x h _ _ (by
    have hu : u.val = 0 := by omega
    rw [Shape.rowMajor_val_three, Shape.rowMajor_val_two]
    show i.val * c + l.val = (i.val * 1 + u.val) * c + l.val
    rw [hu, Nat.mul_one, Nat.add_zero])

/-- An `[a, 1, c]` array broadcast to `[a, b, c]` reads, at `(p, q, l)`, the operand at `(p, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (l : Fin c) :
    broadcastTo ⟨3, ![a, b, c]⟩ v h (ix3 p q l) = v (ix3 p (0 : Fin 1) l) := by
  refine broadcastTo_apply v h (ix3 p q l) (ix3 p (0 : Fin 1) l) fun ax => ?_
  match ax with
  | ⟨0, _⟩ =>
    show p.val = if a = 1 then 0 else p.val
    split
    · have := p.isLt; omega
    · rfl
  | ⟨1, _⟩ => rfl
  | ⟨2, _⟩ =>
    show l.val = if c = 1 then 0 else l.val
    split
    · have := l.isLt; omega
    · rfl

/-- A `[1, b, c]` array broadcast to `[a, b, c]` reads, at `(p, q, l)`, the operand at `(0, q, l)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (l : Fin c) :
    broadcastTo ⟨3, ![a, b, c]⟩ v h (ix3 p q l) = v (ix3 (0 : Fin 1) q l) := by
  refine broadcastTo_apply v h (ix3 p q l) (ix3 (0 : Fin 1) q l) fun ax => ?_
  match ax with
  | ⟨0, _⟩ => rfl
  | ⟨1, _⟩ =>
    show q.val = if b = 1 then 0 else q.val
    split
    · have := q.isLt; omega
    · rfl
  | ⟨2, _⟩ =>
    show l.val = if c = 1 then 0 else l.val
    split
    · have := l.isLt; omega
    · rfl

end Cert.LibLayout

end
-- ==== Proof.LibHostRowMax.lean ====
/-
  A host reduction by maximum along the rows of a matrix, read at a row.

  For any extents: the one-operand host reduction of an `[n, d]` array along its second axis with the maximum as its body
  is, at row `p`, the fold of the maximum from the initial value over the row's `d` entries.
-/
import Idealize.ShloMosaic.PureOps.Ideal.Laws
import Idealize.ShloMosaic.PureOps.Reduce
import Idealize.ShloMosaic.Lib.ValueIdx

noncomputable section

namespace Cert.LibHostRowMax

open Idealize.ShloMosaic Idealize.ShloMosaic.ValueIdx

/-- Row `p` with the column coordinate `k` inserted is the entry `(p, k)`. -/
theorem lift_row {n d : ℕ} (hR : (⟨2, ![n, d]⟩ : Shape).Reduces [1] ⟨1, ![n]⟩) (p : Fin n) (k : Fin d) :
    hR.lift (ix1 p) k = ix2 p k := by
  funext a
  match a with
  | ⟨0, _⟩ => rfl
  | ⟨1, _⟩ => rfl

/-- The host's row maximum at row `p`: the fold of the maximum over the row from the initial value. -/
theorem reduce_max_row {n d : ℕ} {u : Shape} (A : (⟨2, ![n, d]⟩ : Shape).Idx → EReal) (init : u.Idx → EReal)
    (h' : (⟨2, ![n, d]⟩ : Shape).ReducesTo [1] ⟨1, ![n]⟩) (hR : (⟨2, ![n, d]⟩ : Shape).Reduces [1] ⟨1, ![n]⟩)
    (hu : 0 < u.numel) (p : Fin n) :
    Host.reduce (FloatOps.maximumf (F := Ideal) (φ := .f32)) A init h' hu (ix1 p)
      = (Finset.univ : Finset (Fin d)).fold max (init (Shape.Idx.first hu)) fun k => A (ix2 p k) := by
  refine (Host.reduce_eq_fold_single (α := Ideal .f32) FloatOps.maximumf A init h' hR hu (ix1 p)).trans ?_
  refine congrArg (Finset.fold max (init (Shape.Idx.first hu)) · Finset.univ) ?_
  funext k
  exact congrArg A (lift_row hR p k)

end Cert.LibHostRowMax

end
-- ==== Proof.LibOnlineSoftmax.lean ====
import Idealize.ShloMosaic.PureOps.Ideal

/-!
# The online softmax recurrence computes the plain softmax-weighted sum

A row of finite scores is read in `J` tiles of `K` scores each.  A state
`(m, l, a)` — running maximum, running normaliser, running weighted sum — starts at
`(⊥, 0, 0)` and is updated tile by tile: the maximum is raised to cover the new tile, the
old normaliser and weighted sum are rescaled by `exp (m - m')`, and the new tile's terms
`exp (e k - m')` (times the value `h k` for the weighted sum) are added.  After all the
tiles, `m` is the maximum of the whole row, `l` is `∑ exp (e - max)`, and `a / l` is the
softmax-weighted sum `∑ (exp (e - max) / l) * h`.

Everything is stated on the extended reals, with the exponential that sends `⊥` to `0`,
so that the empty history contributes nothing to the first tile.
-/

noncomputable section

namespace Cert.Online

open Idealize.ShloMosaic
open scoped BigOperators

/-- One tile's update of (running maximum, running normaliser, running weighted sum). -/
def upd {K : ℕ} (e h : Fin K → EReal) (s : EReal × EReal × EReal) : EReal × EReal × EReal :=
  (max s.1 ((Finset.univ : Finset (Fin K)).fold max ⊥ e),
   Ideal.exp (s.1 - max s.1 ((Finset.univ : Finset (Fin K)).fold max ⊥ e)) * s.2.1 + ∑ k : Fin K, Ideal.exp (e k - max s.1 ((Finset.univ : Finset (Fin K)).fold max ⊥ e)),
   Ideal.exp (s.1 - max s.1 ((Finset.univ : Finset (Fin K)).fold max ⊥ e)) * s.2.2 + ∑ k : Fin K, Ideal.exp (e k - max s.1 ((Finset.univ : Finset (Fin K)).fold max ⊥ e)) * h k)

/-- The state after the first n tiles. -/
def after {J K : ℕ} (e h : Fin J → Fin K → EReal) : (n : ℕ) → n ≤ J → EReal × EReal × EReal
  | 0, _ => (⊥, 0, 0)
  | n + 1, hn => upd (e ⟨n, hn⟩) (h ⟨n, hn⟩) (after e h n (Nat.le_of_succ_le hn))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the reals into the extended reals commutes with binary maxima. -/
theorem coe_max (x y : ℝ) : ((max x y : ℝ) : EReal) = max (x : EReal) (y : EReal) :=
  EReal.coe_strictMono.monotone.map_max

/-- A maximum folded from `⊥` over a finite set is that set's supremum. -/
theorem fold_max_eq_sup {ι : Type*} (s : Finset ι) (f : ι → EReal) : s.fold max ⊥ f = s.sup f := rfl

/-- The supremum in the extended reals of finitely many reals, at least one, is a real. -/
theorem exists_coe_eq_sup {ι : Type*} (s : Finset ι) (hs : s.Nonempty) (f : ι → ℝ) :
    ∃ m : ℝ, (m : EReal) = s.sup (fun i => (f i : EReal)) := by
  obtain ⟨i, _, hi⟩ := Finset.exists_mem_eq_sup s hs (fun i => (f i : EReal))
  exact ⟨f i, hi.symm⟩

/-- One tile's update of a state of three reals, the tile's scores and values being real and
    `T` the tile's maximum: the new state is again three reals, given by the same formulas
    read in the reals. -/
theorem upd_coe {K : ℕ} (e h : Fin K → ℝ) (M l a T : ℝ)
    (hT : (T : EReal) = (Finset.univ : Finset (Fin K)).sup (fun k => (e k : EReal))) :
    upd (fun k => (e k : EReal)) (fun k => (h k : EReal)) ((M : EReal), (l : EReal), (a : EReal))
      = (((max M T : ℝ) : EReal),
         ((Real.exp (M - max M T) * l + ∑ k, Real.exp (e k - max M T) : ℝ) : EReal),
         ((Real.exp (M - max M T) * a + ∑ k, Real.exp (e k - max M T) * h k : ℝ) : EReal)) := by
  have hmax : max (M : EReal) ((Finset.univ : Finset (Fin K)).fold max ⊥ (fun k => (e k : EReal)))
      = ((max M T : ℝ) : EReal) := by
    rw [fold_max_eq_sup, ← hT, coe_max]
  simp only [upd, hmax, ← EReal.coe_sub, Ideal.exp_coe, ← EReal.coe_mul, ← coe_sum, ← EReal.coe_add]

/-- The first tile's update, from the empty history `(⊥, 0, 0)`: the rescaling factor is
    `exp ⊥ = 0`, and the state becomes the tile's own maximum, normaliser and weighted sum. -/
theorem upd_bot {K : ℕ} (e h : Fin K → ℝ) (T : ℝ)
    (hT : (T : EReal) = (Finset.univ : Finset (Fin K)).sup (fun k => (e k : EReal))) :
    upd (fun k => (e k : EReal)) (fun k => (h k : EReal)) (⊥, 0, 0)
      = ((T : EReal), ((∑ k, Real.exp (e k - T) : ℝ) : EReal),
         ((∑ k, Real.exp (e k - T) * h k : ℝ) : EReal)) := by
  have hmax : max (⊥ : EReal) ((Finset.univ : Finset (Fin K)).fold max ⊥ (fun k => (e k : EReal)))
      = (T : EReal) := by
    rw [fold_max_eq_sup, ← hT, max_bot_left]
  simp only [upd, hmax, EReal.bot_sub, Ideal.exp_bot, zero_mul, zero_add, ← EReal.coe_sub,
    Ideal.exp_coe, ← EReal.coe_mul, ← coe_sum]

/-- The exponential rescaling of one term when the reference maximum moves from `M` to `M'`. -/
theorem exp_rescale (M M' x : ℝ) : Real.exp (M - M') * Real.exp (x - M) = Real.exp (x - M') := by
  rw [← Real.exp_add]; congr 1; ring

/-- The invariant of the recurrence.  After `n + 1` tiles of real scores and values the state
    is three reals: the maximum `M` of the scores read so far, the sum of `exp (e - M)` over
    them, and the sum of `exp (e - M) * h` over them. -/
theorem after_succ_coe {J K : ℕ} (hK : 0 < K) (e h : Fin J → Fin K → ℝ) :
    ∀ (n : ℕ) (hn : n + 1 ≤ J), ∃ M : ℝ,
      (M : EReal) = (Finset.univ.filter (fun j : Fin J => j.val < n + 1)).sup
          (fun j => (Finset.univ : Finset (Fin K)).sup (fun k => ((e j k : ℝ) : EReal)))
      ∧ after (fun j k => ((e j k : ℝ) : EReal)) (fun j k => ((h j k : ℝ) : EReal)) (n + 1) hn
        = ((M : EReal),
           ((∑ j ∈ Finset.univ.filter (fun j : Fin J => j.val < n + 1), ∑ k, Real.exp (e j k - M) : ℝ) : EReal),
           ((∑ j ∈ Finset.univ.filter (fun j : Fin J => j.val < n + 1), ∑ k, Real.exp (e j k - M) * h j k : ℝ) : EReal)) := by
  intro n
  induction n with
  | zero =>
    intro hn
    obtain ⟨T, hT⟩ := exists_coe_eq_sup Finset.univ ⟨⟨0, hK⟩, Finset.mem_univ _⟩ (e ⟨0, hn⟩)
    have hS : Finset.univ.filter (fun j : Fin J => j.val < 0 + 1) = {⟨0, hn⟩} := by
      ext j; simp [Fin.ext_iff]
    refine ⟨T, ?_, ?_⟩
    · rw [hS, Finset.sup_singleton]; exact hT
    · rw [hS, Finset.sum_singleton, Finset.sum_singleton]
      exact upd_bot (e ⟨0, hn⟩) (h ⟨0, hn⟩) T hT
  | succ n ih =>
    intro hn
    obtain ⟨M, hM, hA⟩ := ih (Nat.le_of_succ_le hn)
    obtain ⟨T, hT⟩ := exists_coe_eq_sup Finset.univ ⟨⟨0, hK⟩, Finset.mem_univ _⟩ (e ⟨n + 1, hn⟩)
    have hS : Finset.univ.filter (fun j : Fin J => j.val < n + 1 + 1)
        = insert ⟨n + 1, hn⟩ (Finset.univ.filter (fun j : Fin J => j.val < n + 1)) := by
      ext j; simp [Fin.ext_iff]; omega
    have hnot : (⟨n + 1, hn⟩ : Fin J) ∉ Finset.univ.filter (fun j : Fin J => j.val < n + 1) := by
      simp
    refine ⟨max M T, ?_, ?_⟩
    · rw [hS, Finset.sup_insert, ← hM, ← hT, coe_max, max_comm]
    · have step : after (fun j k => ((e j k : ℝ) : EReal)) (fun j k => ((h j k : ℝ) : EReal)) (n + 1 + 1) hn
          = upd (fun k => ((e ⟨n + 1, hn⟩ k : ℝ) : EReal)) (fun k => ((h ⟨n + 1, hn⟩ k : ℝ) : EReal))
              (after (fun j k => ((e j k : ℝ) : EReal)) (fun j k => ((h j k : ℝ) : EReal)) (n + 1)
                (Nat.le_of_succ_le hn)) := rfl
      rw [step, hA, upd_coe _ _ M _ _ T hT, hS, Finset.sum_insert hnot, Finset.sum_insert hnot]
      have e1 : Real.exp (M - max M T)
            * ∑ j ∈ Finset.univ.filter (fun j : Fin J => j.val < n + 1), ∑ k, Real.exp (e j k - M)
          = ∑ j ∈ Finset.univ.filter (fun j : Fin J => j.val < n + 1), ∑ k, Real.exp (e j k - max M T) := by
        rw [Finset.mul_sum]
        refine Finset.sum_congr rfl fun j _ => ?_
        rw [Finset.mul_sum]
        exact Finset.sum_congr rfl fun k _ => exp_rescale _ _ _
      have e2 : Real.exp (M - max M T)
            * ∑ j ∈ Finset.univ.filter (fun j : Fin J => j.val < n + 1), ∑ k, Real.exp (e j k - M) * h j k
          = ∑ j ∈ Finset.univ.filter (fun j : Fin J => j.val < n + 1), ∑ k, Real.exp (e j k - max M T) * h j k := by
        rw [Finset.mul_sum]
        refine Finset.sum_congr rfl fun j _ => ?_
        rw [Finset.mul_sum]
        refine Finset.sum_congr rfl fun k _ => ?_
        rw [← mul_assoc, exp_rescale]
      rw [e1, e2, add_comm (∑ j ∈ _, ∑ k, Real.exp (e j k - max M T)),
        add_comm (∑ j ∈ _, ∑ k, Real.exp (e j k - max M T) * h j k)]

/-- **The online softmax recurrence is the plain softmax.**  For `J ≥ 1` tiles of `K ≥ 1` real
    scores `e j k` with real values `h j k`, the state `(m, l, a)` after all `J` tiles satisfies:
    `m` is the maximum of all the scores; `l` is the sum over all scores of `exp (e - m)`; and the
    quotient `a / l` is the softmax-weighted sum of the values, `∑ (exp (e - m) / l) * h`. -/
theorem after_all {J K : ℕ} (hJ : 0 < J) (hK : 0 < K) (e h : Fin J → Fin K → ℝ) :
    (after (fun j k => ((e j k : ℝ) : EReal)) (fun j k => ((h j k : ℝ) : EReal)) J le_rfl).1
        = (Finset.univ : Finset (Fin J)).sup (fun j => (Finset.univ : Finset (Fin K)).sup (fun k => ((e j k : ℝ) : EReal)))
    ∧ (after (fun j k => ((e j k : ℝ) : EReal)) (fun j k => ((h j k : ℝ) : EReal)) J le_rfl).2.1
        = ∑ j : Fin J, ∑ k : Fin K, Ideal.exp (((e j k : ℝ) : EReal) - (Finset.univ : Finset (Fin J)).sup (fun j => (Finset.univ : Finset (Fin K)).sup (fun k => ((e j k : ℝ) : EReal))))
    ∧ Ideal.div (after (fun j k => ((e j k : ℝ) : EReal)) (fun j k => ((h j k : ℝ) : EReal)) J le_rfl).2.2 (after (fun j k => ((e j k : ℝ) : EReal)) (fun j k => ((h j k : ℝ) : EReal)) J le_rfl).2.1
        = ∑ j : Fin J, ∑ k : Fin K, Ideal.div (Ideal.exp (((e j k : ℝ) : EReal) - (Finset.univ : Finset (Fin J)).sup (fun j => (Finset.univ : Finset (Fin K)).sup (fun k => ((e j k : ℝ) : EReal))))) (∑ j : Fin J, ∑ k : Fin K, Ideal.exp (((e j k : ℝ) : EReal) - (Finset.univ : Finset (Fin J)).sup (fun j => (Finset.univ : Finset (Fin K)).sup (fun k => ((e j k : ℝ) : EReal))))) * ((h j k : ℝ) : EReal) := by
  obtain ⟨n, rfl⟩ : ∃ n, J = n + 1 := ⟨J - 1, by omega⟩
  obtain ⟨M, hM, hA⟩ := after_succ_coe hK e h n le_rfl
  have hS : Finset.univ.filter (fun j : Fin (n + 1) => j.val < n + 1) = Finset.univ :=
    Finset.filter_true_of_mem fun j _ => j.isLt
  rw [hS] at hM hA
  rw [hA, ← hM]
  -- the normaliser is a positive real
  have hl : (0 : ℝ) < ∑ j : Fin (n + 1), ∑ k : Fin K, Real.exp (e j k - M) := by
    haveI : Nonempty (Fin K) := ⟨⟨0, hK⟩⟩
    exact Finset.sum_pos (fun j _ => Finset.sum_pos (fun k _ => Real.exp_pos _) Finset.univ_nonempty)
      Finset.univ_nonempty
  have hsum : ∑ j : Fin (n + 1), ∑ k : Fin K, Ideal.exp (((e j k : ℝ) : EReal) - (M : EReal))
      = ((∑ j : Fin (n + 1), ∑ k : Fin K, Real.exp (e j k - M) : ℝ) : EReal) := by
    simp only [← EReal.coe_sub, Ideal.exp_coe, ← coe_sum]
  refine ⟨rfl, hsum.symm, ?_⟩
  rw [hsum]
  simp only [Ideal.div_coe hl.ne', ← EReal.coe_sub, Ideal.exp_coe, ← EReal.coe_mul, ← coe_sum]
  congr 1
  rw [Finset.sum_mul]
  refine Finset.sum_congr rfl fun j _ => ?_
  rw [Finset.sum_mul]
  refine Finset.sum_congr rfl fun k _ => ?_
  ring

end Cert.Online
-- ==== Proof.Step1Val.lean ====
/-
  One grid point's update of the carried triple, read entry by entry on the extended reals.
  For row p of the tile and column k: the masked score is the specification's score formula on the blocks' entries;
  the new running maximum is the greater of the old one and the row's greatest score; the weights are
  exp (score − new maximum); the running normaliser and the running weighted sum are rescaled by
  exp (old maximum − new maximum) and increased by the row's sum of weights, respectively of weights times values.
-/
import proofs.«124482_j60979945668752_2_alg».proof.Proof.Carry
import proofs.«124482_j60979945668752_2_alg».proof.Proof.Spec
import proofs.«124482_j60979945668752_2_alg».proof.Proof.LibLayout
import proofs.«124482_j60979945668752_2_alg».proof.Proof.LibPlainDot
import proofs.«124482_j60979945668752_2_alg».proof.Proof.LibHostRowMax
import proofs.«124482_j60979945668752_2_alg».proof.Proof.LibOnlineSoftmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

/-- A comparison with zero steering a choice between two values. -/
theorem select_pos (v a b : EReal) :
    Scalar.select (FloatOps.cmpf (F := Ideal) (φ := .f32) .ogt v (Scalar.ofBits (F := Ideal) .f32 0x00000000#32)) a b = if 0 < v then a else b := by
  show Scalar.select (Ideal.cmp .ogt v (Ideal.ofBits .f32 0x00000000#32)) a b = _
  rw [Ideal.ofBits_zero_f32]
  unfold Scalar.select Ideal.cmp
  by_cases h : (0 : EReal) < v <;> simp [h]

/-- The masked score of row p and column k of one tile, from the tile's blocks. -/
def tileScore (b0 : Vec Ideal S1024x1 .f32) (b1 : Vec Ideal S1x1024 .f32) (b2 b3 : Vec Ideal S1024x1024 .f32) (p k : Fin 1024) : EReal :=
  if 0 < b2 (ix2 p k) then Cert.Spec.leaky ((b0 (ix2 p (0 : Fin 1)) + b1 (ix2 (0 : Fin 1) k)) * b3 (ix2 p k)) else Cert.Spec.fill

theorem k1pay8_apply (b0 : Vec Ideal S1024x1 .f32) (b1 : Vec Ideal S1x1024 .f32) (b2 b3 : Vec Ideal S1024x1024 .f32) (p k : Fin 1024) :
    k1_pay8 (F := Ideal) b0 b1 b3 b2 (ix2 p k) = tileScore b0 b1 b2 b3 p k := by
  unfold k1_pay8 tileScore Cert.Spec.leaky Cert.Spec.slope Cert.Spec.fill
  simp only [select_apply, cmpf_apply, broadcast_apply, mulf_apply, addf_apply, shapeCast_self,
    Cert.LibLayout.broadcastTo_a1_ab_apply, broadcastTo_1b_ab_apply, select_pos]
  rfl

/-- The word the running maximum starts from is the bottom of the extended reals. -/
theorem negInf_f32 : Ideal.ofBits .f32 0xFF800000#32 = (⊥ : EReal) := by simp [Ideal.ofBits, Ideal.ieee]

/-- The new running maximum of row p: the greater of the old one and the row's greatest score in the tile. -/
theorem k1pay9_apply (b0 : Vec Ideal S1024x1 .f32) (b1 : Vec Ideal S1x1024 .f32) (b2 b3 : Vec Ideal S1024x1024 .f32)
    (mo : Vec Ideal S1024x1 .f32) (p : Fin 1024) :
    k1_pay9 (F := Ideal) b0 b1 b3 b2 mo (ix2 p (0 : Fin 1))
      = max (mo (ix2 p (0 : Fin 1))) ((Finset.univ : Finset (Fin 1024)).fold max ⊥ (tileScore b0 b1 b2 b3 p)) := by
  unfold k1_pay9
  refine (maximumf_apply _ _ _).trans (congrArg (max _) ?_)
  refine (Cert.LibLayout.shapeCast_a_a1_apply _ _ p (0 : Fin 1)).trans ?_
  refine (Ideal.multiReduction_maximumf_single _ _ _ _ _ (ix1 p)).trans ?_
  refine (congrArg (fun z => (Finset.univ : Finset (Fin 1024)).fold max z _) negInf_f32).trans ?_
  refine congrArg (fun f => (Finset.univ : Finset (Fin 1024)).fold max ⊥ f) ?_
  funext k
  refine (congrArg (k1_pay8 (F := Ideal) b0 b1 b3 b2) (Cert.LibHostRowMax.lift_row reduces_S1024x1024_S1024 p k)).trans ?_
  exact k1pay8_apply b0 b1 b2 b3 p k

/-- The factor the old normaliser and weighted sum are rescaled by. -/
theorem k1pay10_apply (b0 : Vec Ideal S1024x1 .f32) (b1 : Vec Ideal S1x1024 .f32) (b2 b3 : Vec Ideal S1024x1024 .f32)
    (mo mo' : Vec Ideal S1024x1 .f32) (p : Fin 1024) :
    k1_pay10 (F := Ideal) b0 b1 b3 b2 mo mo' (ix2 p (0 : Fin 1))
      = Ideal.exp (mo' (ix2 p (0 : Fin 1)) - k1_pay9 (F := Ideal) b0 b1 b3 b2 mo (ix2 p (0 : Fin 1))) := by
  unfold k1_pay10; rfl

/-- The weight of column k in row p: the exponential of its score less the new running maximum. -/
theorem k1pay11_apply (b0 : Vec Ideal S1024x1 .f32) (b1 : Vec Ideal S1x1024 .f32) (b2 b3 : Vec Ideal S1024x1024 .f32)
    (mo : Vec Ideal S1024x1 .f32) (p k : Fin 1024) :
    k1_pay11 (F := Ideal) b0 b1 b3 b2 mo (ix2 p k)
      = Ideal.exp (tileScore b0 b1 b2 b3 p k - k1_pay9 (F := Ideal) b0 b1 b3 b2 mo (ix2 p (0 : Fin 1))) := by
  unfold k1_pay11
  show Ideal.exp (k1_pay8 (F := Ideal) b0 b1 b3 b2 (ix2 p k) - broadcastTo S1024x1024 (k1_pay9 (F := Ideal) b0 b1 b3 b2 mo) broadcasts_S1024x1_S1024x1024 (ix2 p k)) = _
  rw [Cert.LibLayout.broadcastTo_a1_ab_apply, k1pay8_apply]

/-- The rescaled old normaliser. -/
theorem k1pay12_apply (b0 : Vec Ideal S1024x1 .f32) (b1 : Vec Ideal S1x1024 .f32) (b2 b3 : Vec Ideal S1024x1024 .f32)
    (mo mo' lo : Vec Ideal S1024x1 .f32) (p : Fin 1024) :
    k1_pay12 (F := Ideal) b0 b1 b3 b2 mo mo' lo (ix2 p (0 : Fin 1))
      = k1_pay10 (F := Ideal) b0 b1 b3 b2 mo mo' (ix2 p (0 : Fin 1)) * lo (ix2 p (0 : Fin 1)) := by
  unfold k1_pay12; rfl

/-- The row's sum of weights. -/
theorem k1pay13_apply (b0 : Vec Ideal S1024x1 .f32) (b1 : Vec Ideal S1x1024 .f32) (b2 b3 : Vec Ideal S1024x1024 .f32)
    (mo : Vec Ideal S1024x1 .f32) (p : Fin 1024) :
    k1_pay13 (F := Ideal) b0 b1 b3 b2 mo (ix1 p)
      = ∑ k : Fin 1024, k1_pay11 (F := Ideal) b0 b1 b3 b2 mo (ix2 p k) := by
  unfold k1_pay13
  refine (Ideal.multiReduction_add_single _ _ _ _ _ (ix1 p)).trans ?_
  refine Finset.sum_congr rfl fun k _ => ?_
  exact congrArg (k1_pay11 (F := Ideal) b0 b1 b3 b2 mo) (Cert.LibHostRowMax.lift_row reduces_S1024x1024_S1024 p k)

/-- The new normaliser: the rescaled old one plus the row's sum of weights. -/
theorem k1pay1_apply (v33 : FVec Ideal S1024x1 .f32) (v34 : FVec Ideal S1024 .f32) (p : Fin 1024) :
    k1_pay1 (F := Ideal) v33 v34 (ix2 p (0 : Fin 1)) = (v33 (ix2 p (0 : Fin 1)) : EReal) + (v34 (ix1 p) : EReal) := by
  unfold k1_pay1
  simp only [shapeCast_self, addf_apply, Cert.LibLayout.shapeCast_a_a1_apply]

/-- The new weighted sum: the rescaled old one plus the weights against the tile's values. -/
theorem k1pay2_apply (a : FVec Ideal S1024x1 .f32) (P : FVec Ideal S1024x1024 .f32) (acc : Vec Ideal S1024x256 .f32)
    (b4 : Vec Ideal S1024x256 .bf16) (p : Fin 1024) (c : Fin 256) :
    k1_pay2 (F := Ideal) a P acc b4 (ix2 p c)
      = (a (ix2 p (0 : Fin 1)) : EReal) * (acc (ix2 p c) : EReal) + ∑ k : Fin 1024, (P (ix2 p k) : EReal) * (b4 (ix2 k c) : EReal) := by
  unfold k1_pay2
  simp only [shapeCast_self, addf_apply, mulf_apply, Cert.LibLayout.broadcastTo_a1_ab_apply]
  refine congrArg (fun z : EReal => (a (ix2 p (0 : Fin 1)) : EReal) * (acc (ix2 p c) : EReal) + z) ?_
  exact Cert.Sage.matmul_plain_zero_apply (M := 1024) (K := 1024) (N := 256) none (truncf .bf16 P bitsLt_bf16_f32) b4 p c

theorem k1pay3_eq (v : FVec Ideal S1024x1 .f32) : k1_pay3 (F := Ideal) v = v := by
  unfold k1_pay3; exact shapeCast_self _ _

/-- One point's update, read at row p (and column c of the weighted sum), is the tile update of the running triple. -/
theorem step1_apply (b0 : Vec Ideal S1024x1 .f32) (b1 : Vec Ideal S1x1024 .f32) (b2 b3 : Vec Ideal S1024x1024 .f32)
    (b4 : Vec Ideal S1024x256 .bf16) (s : Carried Ideal) (p : Fin 1024) (c : Fin 256) :
    ((step1 b0 b1 b2 b3 b4 s).1 (ix2 p (0 : Fin 1)), (step1 b0 b1 b2 b3 b4 s).2.1 (ix2 p (0 : Fin 1)), (step1 b0 b1 b2 b3 b4 s).2.2 (ix2 p c))
      = Cert.Online.upd (tileScore b0 b1 b2 b3 p) (fun k => b4 (ix2 k c)) (s.1 (ix2 p (0 : Fin 1)), s.2.1 (ix2 p (0 : Fin 1)), s.2.2 (ix2 p c)) := by
  unfold step1 Cert.Online.upd
  simp only [k1pay3_eq, k1pay1_apply, k1pay2_apply, k1pay12_apply, k1pay13_apply, k1pay10_apply, k1pay11_apply, k1pay9_apply]

/-- The word for one. -/
theorem one_f32 : Ideal.ofBits .f32 0x3F800000#32 = (1 : EReal) := by
  simp [Ideal.ofBits, Ideal.ieee]
  rw [← EReal.coe_mul]
  norm_num

/-- What a row tile starts from, entry by entry: the bottom of the extended reals, zero and zero. -/
theorem init1_apply (p : Fin 1024) (c : Fin 256) :
    ((init1 (F := Ideal)).1 (ix2 p (0 : Fin 1)), (init1 (F := Ideal)).2.1 (ix2 p (0 : Fin 1)), (init1 (F := Ideal)).2.2 (ix2 p c))
      = ((⊥ : EReal), (0 : EReal), (0 : EReal)) := by
  unfold init1 k1_pay5 k1_pay6 k1_pay7
  simp only [shapeCast_self, broadcast_apply]
  refine Prod.ext ?_ (Prod.ext ?_ ?_)
  · exact negInf_f32
  · exact Ideal.ofBits_zero_f32
  · exact Ideal.ofBits_zero_f32

/-- What a row tile's last point writes out, entry by entry: the exponential linear unit of the weighted sum over the normaliser. -/
theorem emit1_apply (s : Carried Ideal) (p : Fin 1024) (c : Fin 256) :
    emit1 s (ix2 p c) = Cert.Spec.elu (Ideal.div (s.2.2 (ix2 p c)) (s.2.1 (ix2 p (0 : Fin 1)))) := by
  have hq : (divf (F := Ideal) (φ := .f32) s.2.2 (broadcastTo S1024x256 s.2.1 broadcasts_S1024x1_S1024x256)) (ix2 p c)
      = Ideal.div (s.2.2 (ix2 p c)) (s.2.1 (ix2 p (0 : Fin 1))) := by
    rw [divf_apply, Cert.LibLayout.broadcastTo_a1_ab_apply]
  have he : (exp (F := Ideal) (φ := .f32) (divf (F := Ideal) (φ := .f32) s.2.2 (broadcastTo S1024x256 s.2.1 broadcasts_S1024x1_S1024x256))) (ix2 p c)
      = Ideal.exp (Ideal.div (s.2.2 (ix2 p c)) (s.2.1 (ix2 p (0 : Fin 1)))) :=
    (show _ = Ideal.exp ((divf (F := Ideal) (φ := .f32) s.2.2 (broadcastTo S1024x256 s.2.1 broadcasts_S1024x1_S1024x256)) (ix2 p c)) from rfl).trans
      (congrArg Ideal.exp hq)
  unfold emit1 k1_pay4 Cert.Spec.elu
  simp only [select_apply, cmpf_apply, broadcast_apply, subf_apply, divf_apply, Cert.LibLayout.broadcastTo_a1_ab_apply, select_pos]
  rw [he]
  show (if 0 < Ideal.div (s.2.2 (ix2 p c)) (s.2.1 (ix2 p (0 : Fin 1))) then Ideal.div (s.2.2 (ix2 p c)) (s.2.1 (ix2 p (0 : Fin 1)))
      else Ideal.exp (Ideal.div (s.2.2 (ix2 p c)) (s.2.1 (ix2 p (0 : Fin 1)))) - Ideal.ofBits .f32 0x3F800000#32) = _
  rw [one_f32]

end Cert.KernelIdeal.Hand

end
-- ==== Proof.KVal2.lean ====
/-
  A tile of the attention region read against the specification: at the point of row tile i and column tile j, the
  masked score of the tile's row p and column k is the specification's score of row p + 1024 i and column k + 1024 j,
  and row k of the tile's feature block is row k + 1024 j of the projected features.
-/
import proofs.«124482_j60979945668752_2_alg».proof.Proof.KVal1
import proofs.«124482_j60979945668752_2_alg».proof.Proof.Reg1Blocks
import proofs.«124482_j60979945668752_2_alg».proof.Proof.Step1Val

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The six argument arrays on core c. -/
abbrev aX (c : Dev nD) : Cert.Spec.Arr2 8192 512 := m ((c : Thread nD τ).loc main_arg0)
abbrev aW (c : Dev nD) : Cert.Spec.Arr2 512 256 := m ((c : Thread nD τ).loc main_arg1)
abbrev aS (c : Dev nD) : Cert.Spec.Arr2 256 1 := m ((c : Thread nD τ).loc main_arg2)
abbrev aN (c : Dev nD) : Cert.Spec.Arr2 256 1 := m ((c : Thread nD τ).loc main_arg3)
abbrev aAdj (c : Dev nD) : Cert.Spec.Arr2 8192 8192 := m ((c : Thread nD τ).loc main_arg4)
abbrev aM (c : Dev nD) : Cert.Spec.Arr2 8192 8192 := m ((c : Thread nD τ).loc main_arg5)

theorem tile_score (c : Dev nD) (t : Fin cfg1.N) (i j : Fin 8) (hi : t.val / 8 = i.val) (hj : t.val % 8 = j.val) (p k : Fin 1024) :
    tileScore (iblk1 (V2 m ρ) c 0 t) (iblk1 (V2 m ρ) c 1 t) (iblk1 (V2 m ρ) c 2 t) (iblk1 (V2 m ρ) c 3 t) p k
      = Cert.Spec.score (aX m c) (aW m c) (aS m c) (aN m c) (aAdj m c) (aM m c)
          ⟨p.val + 1024 * i.val, tileRow_lt i p⟩ ⟨k.val + 1024 * j.val, tileRow_lt j k⟩ := by
  have hr : (⟨p.val + 1024 * (t.val / 8), rowTile_lt t p⟩ : Fin 8192) = ⟨p.val + 1024 * i.val, tileRow_lt i p⟩ := Fin.ext (congrArg (fun z => p.val + 1024 * z) hi)
  have hq : (⟨k.val + 1024 * (t.val % 8), colTile_lt t k⟩ : Fin 8192) = ⟨k.val + 1024 * j.val, tileRow_lt j k⟩ := Fin.ext (congrArg (fun z => k.val + 1024 * z) hj)
  unfold tileScore Cert.Spec.score
  rw [blk1_0, blk1_1, blk1_2, blk1_3, hr, hq, V2_self, V2_neigh, V2_adj, V2_wts]

theorem tile_feat (c : Dev nD) (t : Fin cfg1.N) (j : Fin 8) (hj : t.val % 8 = j.val) (k : Fin 1024) (d : Fin 256) :
    iblk1 (V2 m ρ) c 4 t (ix2 k d) = Cert.Spec.feat (aX m c) (aW m c) ⟨k.val + 1024 * j.val, tileRow_lt j k⟩ d := by
  have hq : (⟨k.val + 1024 * (t.val % 8), colTile_lt t k⟩ : Fin 8192) = ⟨k.val + 1024 * j.val, tileRow_lt j k⟩ := Fin.ext (congrArg (fun z => k.val + 1024 * z) hj)
  rw [blk1_4, hq, V2_feat]

end Cert.KernelIdeal.Hand

end
-- ==== Proof.Reg1Value.lean ====
import proofs.«124482_j60979945668752_2_alg».proof.Proof.Reg1
import Idealize.ShloMosaic.Lib.Pipeline.Value

-- rectangle membership at these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The zero offsets of a rank-two rectangle, however spelt. -/
theorem hz2 : (![0, 0] : Fin 2 → Nat) = fun _ => 0 := funext fun a => by fin_cases a <;> rfl

/-! ## What the runs found is the payloads composed -/

/-- Case A, scratch 0: what the body's last store into it leaves is the update's component, the loads before it reading
    the whole input buffers and the starting values the first branch has just stored. -/
theorem piece1_A_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : cond1_0 i) (hc1 : ¬cond1_1 i)
    (x0 : Vec F S1024x1 .f32) (x1 : Vec F S1x1024 .f32) (x2 : Vec F S1024x1024 .f32) (x3 : Vec F S1024x1024 .f32) (x4 : Vec F S1024x256 .bf16) :
    VS1_0.read (Elt F) (VS1_0.writes (Elt F) VS1_0.junk (kernelRun1_A c i arg2 harg2 arg3 harg3 arg4 harg4 arg5 harg5 arg6 harg6 arg7 harg7 arg8 harg8 arg9 harg9 arg10 harg10 hc0 hc1 x0 x1 x2 x3 x4).2.1) = (step1 x0 x1 x2 x3 x4 init1).1 := by
  rw [View.read_writes_junk_eq_canon]
  unfold kernelRun1_A
  dsimp only
  sl_unfold_words
  rw [View.canon_cons_unit_zero (S := S1024x1) hz2]
  simp only [View.readAt_eq_ld, harg2.read_unread, harg3.read_unread, harg4.read_unread, harg5.read_unread, harg6.read_unread, harg7.read_unread, harg8.read_unread, harg9.read_unread, harg10.read_unread, View.ld_unit_zero (S := S1024x1) hz2, View.ld_unit_zero (S := S1x1024) hz2, View.ld_unit_zero (S := S1024x1024) hz2, View.ld_unit_zero (S := S1024x256) hz2, View.readCov_unit_zero (S := S1024x1) _ hz2, View.readCov_unit_zero (S := S1024x256) _ hz2]
  rfl

/-- Case A, scratch 1: what the body's last store into it leaves is the update's component, the loads before it reading
    the whole input buffers and the starting values the first branch has just stored. -/
theorem piece1_A_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : cond1_0 i) (hc1 : ¬cond1_1 i)
    (x0 : Vec F S1024x1 .f32) (x1 : Vec F S1x1024 .f32) (x2 : Vec F S1024x1024 .f32) (x3 : Vec F S1024x1024 .f32) (x4 : Vec F S1024x256 .bf16) :
    VS1_1.read (Elt F) (VS1_1.writes (Elt F) VS1_1.junk (kernelRun1_A c i arg2 harg2 arg3 harg3 arg4 harg4 arg5 harg5 arg6 harg6 arg7 harg7 arg8 harg8 arg9 harg9 arg10 harg10 hc0 hc1 x0 x1 x2 x3 x4).2.2.1) = (step1 x0 x1 x2 x3 x4 init1).2.1 := by
  rw [View.read_writes_junk_eq_canon]
  unfold kernelRun1_A
  dsimp only
  sl_unfold_words
  rw [View.canon_cons_unit_zero (S := S1024x1) hz2]
  simp only [View.readAt_eq_ld, harg2.read_unread, harg3.read_unread, harg4.read_unread, harg5.read_unread, harg6.read_unread, harg7.read_unread, harg8.read_unread, harg9.read_unread, harg10.read_unread, View.ld_unit_zero (S := S1024x1) hz2, View.ld_unit_zero (S := S1x1024) hz2, View.ld_unit_zero (S := S1024x1024) hz2, View.ld_unit_zero (S := S1024x256) hz2, View.readCov_unit_zero (S := S1024x1) _ hz2, View.readCov_unit_zero (S := S1024x256) _ hz2]
  rfl

/-- Case A, scratch 2: what the body's last store into it leaves is the update's component, the loads before it reading
    the whole input buffers and the starting values the first branch has just stored. -/
theorem piece1_A_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : cond1_0 i) (hc1 : ¬cond1_1 i)
    (x0 : Vec F S1024x1 .f32) (x1 : Vec F S1x1024 .f32) (x2 : Vec F S1024x1024 .f32) (x3 : Vec F S1024x1024 .f32) (x4 : Vec F S1024x256 .bf16) :
    VS1_2.read (Elt F) (VS1_2.writes (Elt F) VS1_2.junk (kernelRun1_A c i arg2 harg2 arg3 harg3 arg4 harg4 arg5 harg5 arg6 harg6 arg7 harg7 arg8 harg8 arg9 harg9 arg10 harg10 hc0 hc1 x0 x1 x2 x3 x4).2.2.2.1) = (step1 x0 x1 x2 x3 x4 init1).2.2 := by
  rw [View.read_writes_junk_eq_canon]
  unfold kernelRun1_A
  dsimp only
  sl_unfold_words
  rw [View.canon_cons_unit_zero (S := S1024x256) hz2]
  simp only [View.readAt_eq_ld, harg2.read_unread, harg3.read_unread, harg4.read_unread, harg5.read_unread, harg6.read_unread, harg7.read_unread, harg8.read_unread, harg9.read_unread, harg10.read_unread, View.ld_unit_zero (S := S1024x1) hz2, View.ld_unit_zero (S := S1x1024) hz2, View.ld_unit_zero (S := S1024x1024) hz2, View.ld_unit_zero (S := S1024x256) hz2, View.readCov_unit_zero (S := S1024x1) _ hz2, View.readCov_unit_zero (S := S1024x256) _ hz2]
  rfl

/-- Case B, scratch 0: what the body's last store into it leaves is the update's component, the loads before it reading
    the whole input buffers and the scratch as it came in. -/
theorem piece1_B_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond1_0 i) (hc1 : ¬cond1_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x1 .f32) (xs2 : Vec F S1024x256 .f32) :
    VS1_0.read (Elt F) (VS1_0.writes (Elt F) VS1_0.junk (kernelRun1_B c i arg2 harg2 arg3 harg3 arg4 harg4 arg5 harg5 arg6 harg6 arg7 harg7 arg8 harg8 arg9 harg9 arg10 harg10 hc0 hc1 x0 x1 x2 x3 x4 xs0 xs1 xs2).2.1) = (step1 x0 x1 x2 x3 x4 (xs0, xs1, xs2)).1 := by
  rw [View.read_writes_junk_eq_canon]
  unfold kernelRun1_B
  dsimp only
  sl_unfold_words
  rw [View.canon_cons_unit_zero (S := S1024x1) hz2]
  simp only [View.readAt_eq_ld, harg2.read_unread, harg3.read_unread, harg4.read_unread, harg5.read_unread, harg6.read_unread, harg7.read_unread, harg8.read_unread, harg9.read_unread, harg10.read_unread, View.ld_unit_zero (S := S1024x1) hz2, View.ld_unit_zero (S := S1x1024) hz2, View.ld_unit_zero (S := S1024x1024) hz2, View.ld_unit_zero (S := S1024x256) hz2, View.readCov_unit_zero (S := S1024x1) _ hz2, View.readCov_unit_zero (S := S1024x256) _ hz2]
  rfl

/-- Case B, scratch 1: what the body's last store into it leaves is the update's component, the loads before it reading
    the whole input buffers and the scratch as it came in. -/
theorem piece1_B_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond1_0 i) (hc1 : ¬cond1_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x1 .f32) (xs2 : Vec F S1024x256 .f32) :
    VS1_1.read (Elt F) (VS1_1.writes (Elt F) VS1_1.junk (kernelRun1_B c i arg2 harg2 arg3 harg3 arg4 harg4 arg5 harg5 arg6 harg6 arg7 harg7 arg8 harg8 arg9 harg9 arg10 harg10 hc0 hc1 x0 x1 x2 x3 x4 xs0 xs1 xs2).2.2.1) = (step1 x0 x1 x2 x3 x4 (xs0, xs1, xs2)).2.1 := by
  rw [View.read_writes_junk_eq_canon]
  unfold kernelRun1_B
  dsimp only
  sl_unfold_words
  rw [View.canon_cons_unit_zero (S := S1024x1) hz2]
  simp only [View.readAt_eq_ld, harg2.read_unread, harg3.read_unread, harg4.read_unread, harg5.read_unread, harg6.read_unread, harg7.read_unread, harg8.read_unread, harg9.read_unread, harg10.read_unread, View.ld_unit_zero (S := S1024x1) hz2, View.ld_unit_zero (S := S1x1024) hz2, View.ld_unit_zero (S := S1024x1024) hz2, View.ld_unit_zero (S := S1024x256) hz2, View.readCov_unit_zero (S := S1024x1) _ hz2, View.readCov_unit_zero (S := S1024x256) _ hz2]
  rfl

/-- Case B, scratch 2: what the body's last store into it leaves is the update's component, the loads before it reading
    the whole input buffers and the scratch as it came in. -/
theorem piece1_B_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond1_0 i) (hc1 : ¬cond1_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x1 .f32) (xs2 : Vec F S1024x256 .f32) :
    VS1_2.read (Elt F) (VS1_2.writes (Elt F) VS1_2.junk (kernelRun1_B c i arg2 harg2 arg3 harg3 arg4 harg4 arg5 harg5 arg6 harg6 arg7 harg7 arg8 harg8 arg9 harg9 arg10 harg10 hc0 hc1 x0 x1 x2 x3 x4 xs0 xs1 xs2).2.2.2.1) = (step1 x0 x1 x2 x3 x4 (xs0, xs1, xs2)).2.2 := by
  rw [View.read_writes_junk_eq_canon]
  unfold kernelRun1_B
  dsimp only
  sl_unfold_words
  rw [View.canon_cons_unit_zero (S := S1024x256) hz2]
  simp only [View.readAt_eq_ld, harg2.read_unread, harg3.read_unread, harg4.read_unread, harg5.read_unread, harg6.read_unread, harg7.read_unread, harg8.read_unread, harg9.read_unread, harg10.read_unread, View.ld_unit_zero (S := S1024x1) hz2, View.ld_unit_zero (S := S1x1024) hz2, View.ld_unit_zero (S := S1024x1024) hz2, View.ld_unit_zero (S := S1024x256) hz2, View.readCov_unit_zero (S := S1024x1) _ hz2, View.readCov_unit_zero (S := S1024x256) _ hz2]
  rfl

/-- Case C, scratch 0: what the body's last store into it leaves is the update's component, the loads before it reading
    the whole input buffers and the scratch as it came in. -/
theorem piece1_C_0 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond1_0 i) (hc1 : cond1_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x1 .f32) (xs2 : Vec F S1024x256 .f32) :
    VS1_0.read (Elt F) (VS1_0.writes (Elt F) VS1_0.junk (kernelRun1_C c i arg2 harg2 arg3 harg3 arg4 harg4 arg5 harg5 arg6 harg6 arg7 harg7 arg8 harg8 arg9 harg9 arg10 harg10 hc0 hc1 x0 x1 x2 x3 x4 xs0 xs1 xs2).2.1) = (step1 x0 x1 x2 x3 x4 (xs0, xs1, xs2)).1 := by
  rw [View.read_writes_junk_eq_canon]
  unfold kernelRun1_C
  dsimp only
  sl_unfold_words
  rw [View.canon_cons_unit_zero (S := S1024x1) hz2]
  simp only [View.readAt_eq_ld, harg2.read_unread, harg3.read_unread, harg4.read_unread, harg5.read_unread, harg6.read_unread, harg7.read_unread, harg8.read_unread, harg9.read_unread, harg10.read_unread, View.ld_unit_zero (S := S1024x1) hz2, View.ld_unit_zero (S := S1x1024) hz2, View.ld_unit_zero (S := S1024x1024) hz2, View.ld_unit_zero (S := S1024x256) hz2, View.readCov_unit_zero (S := S1024x1) _ hz2, View.readCov_unit_zero (S := S1024x256) _ hz2]
  rfl

/-- Case C, scratch 1: what the body's last store into it leaves is the update's component, the loads before it reading
    the whole input buffers and the scratch as it came in. -/
theorem piece1_C_1 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond1_0 i) (hc1 : cond1_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x1 .f32) (xs2 : Vec F S1024x256 .f32) :
    VS1_1.read (Elt F) (VS1_1.writes (Elt F) VS1_1.junk (kernelRun1_C c i arg2 harg2 arg3 harg3 arg4 harg4 arg5 harg5 arg6 harg6 arg7 harg7 arg8 harg8 arg9 harg9 arg10 harg10 hc0 hc1 x0 x1 x2 x3 x4 xs0 xs1 xs2).2.2.1) = (step1 x0 x1 x2 x3 x4 (xs0, xs1, xs2)).2.1 := by
  rw [View.read_writes_junk_eq_canon]
  unfold kernelRun1_C
  dsimp only
  sl_unfold_words
  rw [View.canon_cons_unit_zero (S := S1024x1) hz2]
  simp only [View.readAt_eq_ld, harg2.read_unread, harg3.read_unread, harg4.read_unread, harg5.read_unread, harg6.read_unread, harg7.read_unread, harg8.read_unread, harg9.read_unread, harg10.read_unread, View.ld_unit_zero (S := S1024x1) hz2, View.ld_unit_zero (S := S1x1024) hz2, View.ld_unit_zero (S := S1024x1024) hz2, View.ld_unit_zero (S := S1024x256) hz2, View.readCov_unit_zero (S := S1024x1) _ hz2, View.readCov_unit_zero (S := S1024x256) _ hz2]
  rfl

/-- Case C, scratch 2: what the body's last store into it leaves is the update's component, the loads before it reading
    the whole input buffers and the scratch as it came in. -/
theorem piece1_C_2 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond1_0 i) (hc1 : cond1_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x1 .f32) (xs2 : Vec F S1024x256 .f32) :
    VS1_2.read (Elt F) (VS1_2.writes (Elt F) VS1_2.junk (kernelRun1_C c i arg2 harg2 arg3 harg3 arg4 harg4 arg5 harg5 arg6 harg6 arg7 harg7 arg8 harg8 arg9 harg9 arg10 harg10 hc0 hc1 x0 x1 x2 x3 x4 xs0 xs1 xs2).2.2.2.1) = (step1 x0 x1 x2 x3 x4 (xs0, xs1, xs2)).2.2 := by
  rw [View.read_writes_junk_eq_canon]
  unfold kernelRun1_C
  dsimp only
  sl_unfold_words
  rw [View.canon_cons_unit_zero (S := S1024x256) hz2]
  simp only [View.readAt_eq_ld, harg2.read_unread, harg3.read_unread, harg4.read_unread, harg5.read_unread, harg6.read_unread, harg7.read_unread, harg8.read_unread, harg9.read_unread, harg10.read_unread, View.ld_unit_zero (S := S1024x1) hz2, View.ld_unit_zero (S := S1x1024) hz2, View.ld_unit_zero (S := S1024x1024) hz2, View.ld_unit_zero (S := S1024x256) hz2, View.readCov_unit_zero (S := S1024x1) _ hz2, View.readCov_unit_zero (S := S1024x256) _ hz2]
  rfl

/-- Case C, the output block: the quotient of the two buffers the point has just updated, through the exponential linear unit. -/
theorem piece1_C_5 (c : Dev nD) (i : grid1.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x256 .f32) (harg10 : arg10.IsWhole) (hc0 : ¬cond1_0 i) (hc1 : cond1_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x1 .f32) (xs2 : Vec F S1024x256 .f32) :
    VO1_5.read (Elt F) (VO1_5.writes (Elt F) VO1_5.junk (kernelRun1_C c i arg2 harg2 arg3 harg3 arg4 harg4 arg5 harg5 arg6 harg6 arg7 harg7 arg8 harg8 arg9 harg9 arg10 harg10 hc0 hc1 x0 x1 x2 x3 x4 xs0 xs1 xs2).1) = emit1 (step1 x0 x1 x2 x3 x4 (xs0, xs1, xs2)) := by
  rw [View.read_writes_junk_eq_canon]
  unfold kernelRun1_C
  dsimp only
  sl_unfold_words
  rw [View.canon_cons_unit_zero (S := S1024x256) hz2]
  simp only [View.readAt_eq_ld, harg2.read_unread, harg3.read_unread, harg4.read_unread, harg5.read_unread, harg6.read_unread, harg7.read_unread, harg8.read_unread, harg9.read_unread, harg10.read_unread, View.ld_unit_zero (S := S1024x1) hz2, View.ld_unit_zero (S := S1x1024) hz2, View.ld_unit_zero (S := S1024x1024) hz2, View.ld_unit_zero (S := S1024x256) hz2, View.readCov_unit_zero (S := S1024x1) _ hz2, View.readCov_unit_zero (S := S1024x256) _ hz2]
  rfl

section Entry
variable (V : (c : Dev nD) → (b : Ref sig .tc) → Buf (Elt F) ((c : Thread nD τ).loc b))

/-! ## Each case at a point, the scratch coming in at any triple `s` -/

set_option maxHeartbeats 2000000 in
theorem pt1_A_carried (c : Dev nD) (t : Fin cfg1.N) (h0 : t.val % 8 = 0) :
    (pt1_A V c t h0).2 = step1 (iblk1 V c 0 t) (iblk1 V c 1 t) (iblk1 V c 2 t) (iblk1 V c 3 t) (iblk1 V c 4 t) init1 := by
  unfold pt1_A run1_A
  dsimp only
  rw [piece1_A_0, piece1_A_1, piece1_A_2]

set_option maxHeartbeats 2000000 in
theorem pt1_B_carried (c : Dev nD) (t : Fin cfg1.N) (h0 : ¬t.val % 8 = 0) (h7 : ¬t.val % 8 = 7) (s : Carried F) :
    (pt1_B V c t h0 h7 s).2 = step1 (iblk1 V c 0 t) (iblk1 V c 1 t) (iblk1 V c 2 t) (iblk1 V c 3 t) (iblk1 V c 4 t) s := by
  unfold pt1_B run1_B
  dsimp only
  rw [piece1_B_0, piece1_B_1, piece1_B_2]

set_option maxHeartbeats 2000000 in
theorem pt1_C_carried (c : Dev nD) (t : Fin cfg1.N) (h7 : t.val % 8 = 7) (s : Carried F) :
    (pt1_C V c t h7 s).2 = step1 (iblk1 V c 0 t) (iblk1 V c 1 t) (iblk1 V c 2 t) (iblk1 V c 3 t) (iblk1 V c 4 t) s := by
  unfold pt1_C run1_C
  dsimp only
  rw [piece1_C_0, piece1_C_1, piece1_C_2]

set_option maxHeartbeats 2000000 in
theorem pt1_C_out (c : Dev nD) (t : Fin cfg1.N) (h7 : t.val % 8 = 7) (s : Carried F) :
    (pt1_C V c t h7 s).1 = emit1 (step1 (iblk1 V c 0 t) (iblk1 V c 1 t) (iblk1 V c 2 t) (iblk1 V c 3 t) (iblk1 V c 4 t) s) := by
  unfold pt1_C run1_C
  dsimp only
  rw [piece1_C_5]

/-! ## The carried triple point by point -/

/-- In a row tile's first column tile the scratch ends at one update of the starting triple. -/
theorem carried_first (c : Dev nD) (t : Fin cfg1.N) (h : t.val % 8 = 0) :
    (outsAt1 V c t.val t.isLt).2 = step1 (iblk1 V c 0 t) (iblk1 V c 1 t) (iblk1 V c 2 t) (iblk1 V c 3 t) (iblk1 V c 4 t) init1 := by
  rw [outsAt1_A V c t h]
  exact pt1_A_carried V c t h

/-- In every other column tile it ends at one update of what the point before left. -/
theorem carried_next (c : Dev nD) (t : Fin cfg1.N) (h : t.val % 8 ≠ 0) :
    (outsAt1 V c t.val t.isLt).2 = step1 (iblk1 V c 0 t) (iblk1 V c 1 t) (iblk1 V c 2 t) (iblk1 V c 3 t) (iblk1 V c 4 t) ((outsAt1 V c (t.val - 1) (Nat.lt_of_le_of_lt (Nat.sub_le _ _) t.isLt)).2) := by
  by_cases h7 : t.val % 8 = 7
  · rw [outsAt1_C V c t h7]
    exact pt1_C_carried V c t h7 _
  · rw [outsAt1_B V c t h h7]
    exact pt1_B_carried V c t h h7 _

/-- In a row tile's last column tile the output block is written from the triple the point has just updated. -/
theorem out_last (c : Dev nD) (t : Fin cfg1.N) (h : t.val % 8 = 7) :
    (outsAt1 V c t.val t.isLt).1 = emit1 ((outsAt1 V c t.val t.isLt).2) := by
  have h0 : t.val % 8 ≠ 0 := by omega
  rw [carried_next V c t h0, outsAt1_C V c t h]
  exact pt1_C_out V c t h _

end Entry

end Cert.KernelIdeal.Hand

end
-- ==== Proof.RowTile.lean ====
/-
  Along one row tile, the carried triple after each column tile, read at one row p and one feature column d, is the
  state of the tile-by-tile softmax recurrence run on that row's masked scores, tile after tile, with the column
  tiles' projected features as the values.

  Grid point 8 * i + j is column tile j of row tile i. At the row tile's first column tile the carried triple is
  one update of the starting triple, which reads (−∞, 0, 0) at every entry: the recurrence's first step. At every
  later column tile it is one update of what the point before left: the recurrence's next step. One update, read at
  (p, d), is the recurrence's update with the tile's scores of row p and column d of the tile's features. So by
  induction on the number of column tiles passed the two agree.
-/
import proofs.«124482_j60979945668752_2_alg».proof.Proof.Reg1Value
import proofs.«124482_j60979945668752_2_alg».proof.Proof.Step1Val

noncomputable section

namespace Cert.KernelIdeal.Hand

open Idealize.ShloMosaic Idealize.ShloMosaic.TcCoe Idealize.ShloMosaic.ValueIdx Cert.KernelIdeal Cert.KernelIdeal.Gen

/-- The recurrence's state after no tile. -/
theorem online_after_zero {J K : ℕ} (e h : Fin J → Fin K → EReal) (h0 : 0 ≤ J) :
    Cert.Online.after e h 0 h0 = ((⊥ : EReal), (0 : EReal), (0 : EReal)) := rfl

/-- The recurrence's state after one more tile is one update of the state before it. -/
theorem online_after_succ {J K : ℕ} (e h : Fin J → Fin K → EReal) (n : ℕ) (hn : n + 1 ≤ J) :
    Cert.Online.after e h (n + 1) hn
      = Cert.Online.upd (e ⟨n, hn⟩) (h ⟨n, hn⟩) (Cert.Online.after e h n (Nat.le_of_succ_le hn)) := rfl

/-- Column tile `n` of row tile `i` is a point of the grid of 64. -/
theorem pt_lt (i : Fin 8) (n : ℕ) (hn : n < 8) : 8 * i.val + n < cfg1.N := by
  rw [show cfg1.N = 64 from N_1]; have := i.isLt; omega

/-- The grid point of row tile `i` and column tile `j`. -/
def pt (i j : Fin 8) : Fin cfg1.N := ⟨8 * i.val + j.val, pt_lt i j.val j.isLt⟩

variable (V : (c : Dev nD) → (b : Ref sig .tc) → Buf (Elt Ideal) ((c : Thread nD τ).loc b))

/-- What the points leave depends on the point's number only, not on the proof that it is below 64. -/
theorem rowTile_outsAt1_congr (c : Dev nD) {a b : ℕ} (hab : a = b) (ha : a < cfg1.N) (hb : b < cfg1.N) :
    outsAt1 (F := Ideal) V c a ha = outsAt1 (F := Ideal) V c b hb := by
  subst hab; rfl

/-- **Along a row tile the carried triple is the recurrence's state.** After column tile `n` of row tile `i`,
    the carried running maximum and running normaliser at row `p`, and the carried running weighted sum at
    `(p, d)`, are the state after `n + 1` tiles of the recurrence whose tile `j` has the scores of row `p`
    against column tile `j` and, as values, column `d` of that column tile's projected features. -/
theorem carried_after (c : Dev nD) (i : Fin 8) (p : Fin 1024) (d : Fin 256) (n : ℕ) (hn : n < 8) :
    (((outsAt1 (F := Ideal) V c (8 * i.val + n) (pt_lt i n hn)).2).1 (ix2 p (0 : Fin 1)),
     ((outsAt1 (F := Ideal) V c (8 * i.val + n) (pt_lt i n hn)).2).2.1 (ix2 p (0 : Fin 1)),
     ((outsAt1 (F := Ideal) V c (8 * i.val + n) (pt_lt i n hn)).2).2.2 (ix2 p d))
      = Cert.Online.after (J := 8) (K := 1024)
          (fun j k => tileScore (iblk1 V c 0 (pt i j)) (iblk1 V c 1 (pt i j)) (iblk1 V c 2 (pt i j)) (iblk1 V c 3 (pt i j)) p k)
          (fun j k => iblk1 V c 4 (pt i j) (ix2 k d)) (n + 1) (by omega) := by
  induction n with
  | zero =>
    have ht : (pt i ⟨0, hn⟩).val % 8 = 0 := by show (8 * i.val + 0) % 8 = 0; omega
    have h1 : (outsAt1 (F := Ideal) V c (8 * i.val + 0) (pt_lt i 0 hn)).2
        = step1 (iblk1 V c 0 (pt i ⟨0, hn⟩)) (iblk1 V c 1 (pt i ⟨0, hn⟩)) (iblk1 V c 2 (pt i ⟨0, hn⟩))
            (iblk1 V c 3 (pt i ⟨0, hn⟩)) (iblk1 V c 4 (pt i ⟨0, hn⟩)) init1 :=
      carried_first V c (pt i ⟨0, hn⟩) ht
    rw [h1, step1_apply, init1_apply, online_after_succ, online_after_zero]
  | succ n ih =>
    have hn' : n < 8 := by omega
    have ht : (pt i ⟨n + 1, hn⟩).val % 8 ≠ 0 := by show (8 * i.val + (n + 1)) % 8 ≠ 0; omega
    have hidx : (pt i ⟨n + 1, hn⟩).val - 1 = 8 * i.val + n := by
      show 8 * i.val + (n + 1) - 1 = 8 * i.val + n; omega
    have h1 := carried_next V c (pt i ⟨n + 1, hn⟩) ht
    rw [rowTile_outsAt1_congr V c hidx _ (pt_lt i n hn')] at h1
    have h2 : (outsAt1 (F := Ideal) V c (8 * i.val + (n + 1)) (pt_lt i (n + 1) hn)).2
        = step1 (iblk1 V c 0 (pt i ⟨n + 1, hn⟩)) (iblk1 V c 1 (pt i ⟨n + 1, hn⟩)) (iblk1 V c 2 (pt i ⟨n + 1, hn⟩))
            (iblk1 V c 3 (pt i ⟨n + 1, hn⟩)) (iblk1 V c 4 (pt i ⟨n + 1, hn⟩))
            ((outsAt1 (F := Ideal) V c (8 * i.val + n) (pt_lt i n hn')).2) := h1
    rw [h2, step1_apply, ih hn', online_after_succ _ _ (n + 1)]

end Cert.KernelIdeal.Hand

end
-- ==== Proof.LibSumBlocks.lean ====
/-
  A finite sum taken block by block.

  A sum of `m * n` terms in a commutative additive monoid is the sum, over `m` consecutive blocks, of
  each block's `n` terms: term `b` of block `a` is term `b + n * a` of the whole. Only commutativity and
  associativity of the addition are used, so the law holds on the extended reals with no finiteness
  assumption: a contraction of length 4096 accumulated as 16 partial contractions of length 256 is the
  one contraction.
-/
import Mathlib.Algebra.BigOperators.Fin
import Mathlib.Logic.Equiv.Fin.Basic

namespace Cert.SumBlocks

open Finset

/-- The whole sum is the sum over blocks of the blocks' sums; `finProdFinEquiv (a, b)` is position
    `b` of block `a`. -/
theorem sum_blocks {M : Type*} [AddCommMonoid M] (m n : ℕ) (f : Fin (m * n) → M) :
    ∑ k : Fin (m * n), f k = ∑ a : Fin m, ∑ b : Fin n, f (finProdFinEquiv (a, b)) :=
  (Equiv.sum_comp finProdFinEquiv f).symm.trans (Fintype.sum_prod_type _)

/-- Position `b` of block `a` is term `b + n * a`. -/
theorem block_pos (m n : ℕ) (a : Fin m) (b : Fin n) :
    (finProdFinEquiv (a, b) : Fin (m * n)).val = b.val + n * a.val := rfl

end Cert.SumBlocks
-- ==== Proof.LibTiledInf.lean ====
/-
  A meet over `m * n` consecutive entries, taken block by block.

  Split the index range of length `m * n` into `m` consecutive blocks of length `n`: block `a` holds the
  entries at `b + n * a` for `b` below `n`. The meet of all the entries is the meet, over the blocks, of
  each block's own meet, because every index is `b + n * a` for exactly one pair (a, b) and a meet over pairs is
  an iterated meet. And a running meet — start at the top, visit the blocks in order, each time replace the
  accumulator by its meet with the visited block's meet — ends at the meet over the blocks, because the meet is
  associative, commutative and idempotent with the top as its identity, so the order of the visits and the
  bracketing do not matter. Together: a scan that keeps a running minimum over `m` tiles of `n` keys computes
  the minimum over all `m * n` keys at once.

  Nothing but a meet-semilattice with a top is used (every complete lattice and every linear order with a top
  is one: there the meet of two elements is their minimum), so no entry has to be finite or even comparable to
  another. The same holds with joins, from the bottom, on a join-semilattice with a bottom: a running maximum.

  Two forms. `tiled_inf` / `tiled_sup`: the entries indexed by `Fin (m * n)`, the running meet a `Fin.foldl`
  over the `m` blocks, block `a`'s meet over `b : Fin n` at the index `⟨b + n * a, _⟩`. `tiled_inf_nat` /
  `tiled_sup_nat`: the entries a function of a natural number, the running meet a `List.foldl` over
  `List.range m`, block `a`'s meet over `Finset.range n` at `b + n * a`, the whole over
  `Finset.range (m * n)`; no bound has to be carried. The steps are stated on their own: a running meet over
  any list from any initial value (`foldl_inf_eq`), the regrouping into blocks (`inf_univ_eq_inf_blocks`,
  `inf_range_eq_inf_blocks`).
-/
import Mathlib.Data.Finset.Lattice.Prod
import Mathlib.Data.Fintype.Basic
import Mathlib.Data.Fintype.Prod
import Mathlib.Logic.Equiv.Fin.Basic

namespace Cert.LibTiledInf

variable {α : Type*}

/-- Entry `b` of block `a` lies inside the range: `b + n * a < m * n` for `a < m` and `b < n`. -/
theorem block_lt {m n : ℕ} (a : Fin m) (b : Fin n) : b.val + n * a.val < m * n :=
  (finProdFinEquiv (a, b)).isLt

/-- The visited indices of `List.range m` are the naturals below `m`. -/
theorem toFinset_range (m : ℕ) : (List.range m).toFinset = Finset.range m := by
  ext i; simp

/-! ## Meets -/

section Inf
variable [SemilatticeInf α] [OrderTop α]

/-- A RUNNING MEET over a list, from any initial value, is the initial value met with the meet over the list's
    elements: visiting `a` first and then the rest is meeting with `g a` and then with the rest's meet. -/
theorem foldl_inf_eq {ι : Type*} [DecidableEq ι] (l : List ι) (g : ι → α) (init : α) :
    l.foldl (fun acc a => acc ⊓ g a) init = init ⊓ l.toFinset.inf g := by
  induction l generalizing init with
  | nil => simp
  | cons a l ih => rw [List.foldl_cons, ih, List.toFinset_cons, Finset.inf_insert, inf_assoc]

/-- From the top, over the `m` indices in order, it is the meet over them. -/
theorem finFoldl_inf_eq (m : ℕ) (g : Fin m → α) :
    Fin.foldl m (fun acc a => acc ⊓ g a) ⊤ = Finset.univ.inf g := by
  rw [Fin.foldl_eq_finRange_foldl, foldl_inf_eq, List.toFinset_finRange, top_inf_eq]

/-- Written out for three indices: the running meet is the left-nested meet from the top. -/
example (g : Fin 3 → α) : ((⊤ ⊓ g 0) ⊓ g 1) ⊓ g 2 = Finset.univ.inf g := finFoldl_inf_eq 3 g

/-- The same over the naturals below `m`. -/
theorem rangeFoldl_inf_eq (m : ℕ) (g : ℕ → α) :
    (List.range m).foldl (fun acc a => acc ⊓ g a) ⊤ = (Finset.range m).inf g := by
  rw [foldl_inf_eq, toFinset_range, top_inf_eq]

/-- THE REGROUPING: the meet over all `m * n` entries is the meet over the blocks of each block's meet. Every
    index is `b + n * a` for one pair (a, b), so the meet is one over pairs, and a meet over pairs is iterated. -/
theorem inf_univ_eq_inf_blocks (m n : ℕ) (f : Fin (m * n) → α) :
    Finset.univ.inf f
      = Finset.univ.inf fun a : Fin m => Finset.univ.inf fun b : Fin n => f ⟨b.val + n * a.val, block_lt a b⟩ := by
  rw [← Finset.map_univ_equiv (finProdFinEquiv (m := m) (n := n)), Finset.inf_map, ← Finset.univ_product_univ,
    Finset.inf_product_left]
  rfl

/-- A RUNNING MEET OVER `m` TILES OF `n`, from the top, is the meet over all `m * n` entries. -/
theorem tiled_inf (m n : ℕ) (f : Fin (m * n) → α) :
    Fin.foldl m (fun acc a => acc ⊓ Finset.univ.inf fun b : Fin n => f ⟨b.val + n * a.val, block_lt a b⟩) ⊤
      = Finset.univ.inf f := by
  rw [finFoldl_inf_eq, inf_univ_eq_inf_blocks]

/-- The meet over the naturals below `k` is the meet over `Fin k` of the same entries: each bounds the other
    entry by entry. -/
theorem inf_range_eq_inf_univ (k : ℕ) (F : ℕ → α) :
    (Finset.range k).inf F = Finset.univ.inf fun i : Fin k => F i.val :=
  le_antisymm (Finset.le_inf fun i _ => Finset.inf_le (Finset.mem_range.2 i.isLt))
    (Finset.le_inf fun j hj => Finset.inf_le (f := fun i : Fin k => F i.val) (Finset.mem_univ ⟨j, Finset.mem_range.1 hj⟩))

/-- The regrouping for entries indexed by naturals. -/
theorem inf_range_eq_inf_blocks (m n : ℕ) (F : ℕ → α) :
    (Finset.range (m * n)).inf F = (Finset.range m).inf fun a => (Finset.range n).inf fun b => F (b + n * a) := by
  rw [inf_range_eq_inf_univ, inf_univ_eq_inf_blocks m n fun i => F i.val, inf_range_eq_inf_univ]
  exact Finset.inf_congr rfl fun a _ => (inf_range_eq_inf_univ n fun b => F (b + n * a.val)).symm

/-- The running meet over `m` tiles of `n`, the entries indexed by naturals: no bound to carry. -/
theorem tiled_inf_nat (m n : ℕ) (F : ℕ → α) :
    (List.range m).foldl (fun acc a => acc ⊓ (Finset.range n).inf fun b => F (b + n * a)) ⊤
      = (Finset.range (m * n)).inf F := by
  rw [rangeFoldl_inf_eq, inf_range_eq_inf_blocks]

end Inf

/-! ## Joins -/

section Sup
variable [SemilatticeSup α] [OrderBot α]

/-- A RUNNING JOIN over a list, from any initial value, is the initial value joined with the join over the list's
    elements. -/
theorem foldl_sup_eq {ι : Type*} [DecidableEq ι] (l : List ι) (g : ι → α) (init : α) :
    l.foldl (fun acc a => acc ⊔ g a) init = init ⊔ l.toFinset.sup g := by
  induction l generalizing init with
  | nil => simp
  | cons a l ih => rw [List.foldl_cons, ih, List.toFinset_cons, Finset.sup_insert, sup_assoc]

/-- From the bottom, over the `m` indices in order, it is the join over them. -/
theorem finFoldl_sup_eq (m : ℕ) (g : Fin m → α) :
    Fin.foldl m (fun acc a => acc ⊔ g a) ⊥ = Finset.univ.sup g := by
  rw [Fin.foldl_eq_finRange_foldl, foldl_sup_eq, List.toFinset_finRange, bot_sup_eq]

/-- The same over the naturals below `m`. -/
theorem rangeFoldl_sup_eq (m : ℕ) (g : ℕ → α) :
    (List.range m).foldl (fun acc a => acc ⊔ g a) ⊥ = (Finset.range m).sup g := by
  rw [foldl_sup_eq, toFinset_range, bot_sup_eq]

/-- THE REGROUPING: the join over all `m * n` entries is the join over the blocks of each block's join. -/
theorem sup_univ_eq_sup_blocks (m n : ℕ) (f : Fin (m * n) → α) :
    Finset.univ.sup f
      = Finset.univ.sup fun a : Fin m => Finset.univ.sup fun b : Fin n => f ⟨b.val + n * a.val, block_lt a b⟩ := by
  rw [← Finset.map_univ_equiv (finProdFinEquiv (m := m) (n := n)), Finset.sup_map, ← Finset.univ_product_univ,
    Finset.sup_product_left]
  rfl

/-- A RUNNING JOIN OVER `m` TILES OF `n`, from the bottom, is the join over all `m * n` entries. -/
theorem tiled_sup (m n : ℕ) (f : Fin (m * n) → α) :
    Fin.foldl m (fun acc a => acc ⊔ Finset.univ.sup fun b : Fin n => f ⟨b.val + n * a.val, block_lt a b⟩) ⊥
      = Finset.univ.sup f := by
  rw [finFoldl_sup_eq, sup_univ_eq_sup_blocks]

/-- The join over the naturals below `k` is the join over `Fin k` of the same entries. -/
theorem sup_range_eq_sup_univ (k : ℕ) (F : ℕ → α) :
    (Finset.range k).sup F = Finset.univ.sup fun i : Fin k => F i.val :=
  le_antisymm
    (Finset.sup_le fun j hj => Finset.le_sup (f := fun i : Fin k => F i.val) (Finset.mem_univ ⟨j, Finset.mem_range.1 hj⟩))
    (Finset.sup_le fun i _ => Finset.le_sup (Finset.mem_range.2 i.isLt))

/-- The regrouping for entries indexed by naturals. -/
theorem sup_range_eq_sup_blocks (m n : ℕ) (F : ℕ → α) :
    (Finset.range (m * n)).sup F = (Finset.range m).sup fun a => (Finset.range n).sup fun b => F (b + n * a) := by
  rw [sup_range_eq_sup_univ, sup_univ_eq_sup_blocks m n fun i => F i.val, sup_range_eq_sup_univ]
  exact Finset.sup_congr rfl fun a _ => (sup_range_eq_sup_univ n fun b => F (b + n * a.val)).symm

/-- The running join over `m` tiles of `n`, the entries indexed by naturals. -/
theorem tiled_sup_nat (m n : ℕ) (F : ℕ → α) :
    (List.range m).foldl (fun acc a => acc ⊔ (Finset.range n).sup fun b => F (b + n * a)) ⊥
      = (Finset.range (m * n)).sup F := by
  rw [rangeFoldl_sup_eq, sup_range_eq_sup_blocks]

end Sup

end Cert.LibTiledInf
-- ==== Proof.OnlineFlat.lean ====
import proofs.«124482_j60979945668752_2_alg».proof.Proof.LibOnlineSoftmax
import proofs.«124482_j60979945668752_2_alg».proof.Proof.LibSumBlocks
import proofs.«124482_j60979945668752_2_alg».proof.Proof.LibTiledInf

/-!
# The online softmax recurrence over a flat row cut into consecutive tiles

A flat row of `m * n` finite scores is read as `m` consecutive tiles of `n`: entry `k` of tile `j`
is entry `k + n * j` of the row.  Running the tile-by-tile recurrence over these tiles gives the
maximum of the whole row, the row's normaliser `∑ exp (e - max)` and, as the quotient, the row's
softmax-weighted sum.  This is the tiled statement, with the maximum over tiles of tile maxima
regrouped into one maximum over the row and each double sum regrouped into one sum over the row.
-/

noncomputable section

namespace Cert.Online

open Idealize.ShloMosaic
open scoped BigOperators

/-- For a flat row of `m * n` real scores `e` with real values `h` (`m, n ≥ 1`), read as `m`
    consecutive tiles of `n`, the state `(mx, l, a)` of the recurrence after all `m` tiles satisfies:
    `mx` is the maximum of the row, `l = ∑ exp (e - mx)` over the row, and `a / l` is the
    softmax-weighted sum `∑ (exp (e - mx) / l) * h` over the row. -/
theorem after_blocks (m n : ℕ) (hm : 0 < m) (hn : 0 < n) (e h : Fin (m * n) → ℝ) :
    (after (J := m) (K := n) (fun j k => ((e ⟨k.val + n * j.val, Cert.LibTiledInf.block_lt j k⟩ : ℝ) : EReal)) (fun j k => ((h ⟨k.val + n * j.val, Cert.LibTiledInf.block_lt j k⟩ : ℝ) : EReal)) m le_rfl).1 = (Finset.univ : Finset (Fin (m * n))).sup (fun q => ((e q : ℝ) : EReal))
    ∧ (after (J := m) (K := n) (fun j k => ((e ⟨k.val + n * j.val, Cert.LibTiledInf.block_lt j k⟩ : ℝ) : EReal)) (fun j k => ((h ⟨k.val + n * j.val, Cert.LibTiledInf.block_lt j k⟩ : ℝ) : EReal)) m le_rfl).2.1 = (∑ q : Fin (m * n), Ideal.exp (((e q : ℝ) : EReal) - (Finset.univ : Finset (Fin (m * n))).sup (fun q => ((e q : ℝ) : EReal))))
    ∧ Ideal.div (after (J := m) (K := n) (fun j k => ((e ⟨k.val + n * j.val, Cert.LibTiledInf.block_lt j k⟩ : ℝ) : EReal)) (fun j k => ((h ⟨k.val + n * j.val, Cert.LibTiledInf.block_lt j k⟩ : ℝ) : EReal)) m le_rfl).2.2 (after (J := m) (K := n) (fun j k => ((e ⟨k.val + n * j.val, Cert.LibTiledInf.block_lt j k⟩ : ℝ) : EReal)) (fun j k => ((h ⟨k.val + n * j.val, Cert.LibTiledInf.block_lt j k⟩ : ℝ) : EReal)) m le_rfl).2.1
        = ∑ q : Fin (m * n), Ideal.div (Ideal.exp (((e q : ℝ) : EReal) - (Finset.univ : Finset (Fin (m * n))).sup (fun q => ((e q : ℝ) : EReal)))) (∑ q : Fin (m * n), Ideal.exp (((e q : ℝ) : EReal) - (Finset.univ : Finset (Fin (m * n))).sup (fun q => ((e q : ℝ) : EReal)))) * ((h q : ℝ) : EReal) := by
  -- the maximum over tiles of the tile maxima is the maximum over the row
  have hsup : (Finset.univ : Finset (Fin m)).sup (fun j => (Finset.univ : Finset (Fin n)).sup (fun k => ((e ⟨k.val + n * j.val, Cert.LibTiledInf.block_lt j k⟩ : ℝ) : EReal)))
      = (Finset.univ : Finset (Fin (m * n))).sup (fun q => ((e q : ℝ) : EReal)) :=
    (Cert.LibTiledInf.sup_univ_eq_sup_blocks m n (fun q => ((e q : ℝ) : EReal))).symm
  -- a sum over tiles of sums over a tile is the sum over the row
  have hblocks : ∀ f : Fin (m * n) → EReal,
      ∑ j : Fin m, ∑ k : Fin n, f ⟨k.val + n * j.val, Cert.LibTiledInf.block_lt j k⟩ = ∑ q : Fin (m * n), f q :=
    fun f => (Cert.SumBlocks.sum_blocks m n f).symm
  obtain ⟨h1, h2, h3⟩ := after_all hm hn
    (fun j k => e ⟨k.val + n * j.val, Cert.LibTiledInf.block_lt j k⟩)
    (fun j k => h ⟨k.val + n * j.val, Cert.LibTiledInf.block_lt j k⟩)
  rw [hsup] at h1 h2 h3
  have hl := hblocks (fun q => Ideal.exp (((e q : ℝ) : EReal) - (Finset.univ : Finset (Fin (m * n))).sup (fun q => ((e q : ℝ) : EReal))))
  rw [hl] at h2 h3
  refine ⟨h1, h2, h3.trans ?_⟩
  exact hblocks (fun q => Ideal.div (Ideal.exp (((e q : ℝ) : EReal) - (Finset.univ : Finset (Fin (m * n))).sup (fun q => ((e q : ℝ) : EReal)))) (∑ q : Fin (m * n), Ideal.exp (((e q : ℝ) : EReal) - (Finset.univ : Finset (Fin (m * n))).sup (fun q => ((e q : ℝ) : EReal)))) * ((h q : ℝ) : EReal))

/-- The same for a row of `8192 = 8 * 1024` scores read as 8 consecutive tiles of 1024. -/
theorem after_flat (e h : Fin 8192 → ℝ) :
    (after (J := 8) (K := 1024) (fun j k => ((e ⟨k.val + 1024 * j.val, by omega⟩ : ℝ) : EReal)) (fun j k => ((h ⟨k.val + 1024 * j.val, by omega⟩ : ℝ) : EReal)) 8 le_rfl).1 = (Finset.univ : Finset (Fin 8192)).sup (fun q => ((e q : ℝ) : EReal))
    ∧ (after (J := 8) (K := 1024) (fun j k => ((e ⟨k.val + 1024 * j.val, by omega⟩ : ℝ) : EReal)) (fun j k => ((h ⟨k.val + 1024 * j.val, by omega⟩ : ℝ) : EReal)) 8 le_rfl).2.1 = (∑ q : Fin 8192, Ideal.exp (((e q : ℝ) : EReal) - (Finset.univ : Finset (Fin 8192)).sup (fun q => ((e q : ℝ) : EReal))))
    ∧ Ideal.div (after (J := 8) (K := 1024) (fun j k => ((e ⟨k.val + 1024 * j.val, by omega⟩ : ℝ) : EReal)) (fun j k => ((h ⟨k.val + 1024 * j.val, by omega⟩ : ℝ) : EReal)) 8 le_rfl).2.2 (after (J := 8) (K := 1024) (fun j k => ((e ⟨k.val + 1024 * j.val, by omega⟩ : ℝ) : EReal)) (fun j k => ((h ⟨k.val + 1024 * j.val, by omega⟩ : ℝ) : EReal)) 8 le_rfl).2.1
        = ∑ q : Fin 8192, Ideal.div (Ideal.exp (((e q : ℝ) : EReal) - (Finset.univ : Finset (Fin 8192)).sup (fun q => ((e q : ℝ) : EReal)))) (∑ q : Fin 8192, Ideal.exp (((e q : ℝ) : EReal) - (Finset.univ : Finset (Fin 8192)).sup (fun q => ((e q : ℝ) : EReal)))) * ((h q : ℝ) : EReal) :=
  after_blocks 8 1024 (Nat.succ_pos 7) (Nat.succ_pos 1023) e h

end Cert.Online
-- ==== Proof.SpecReal.lean ====
/-
  Every quantity of the layer's specification below the softmax is a real number when every entry of the six
  argument arrays is one, and the attention-weighted features are then what the tile-by-tile softmax recurrence
  computes over 8 consecutive tiles of 1024 scores.

  A finite sum of reals, a product of two reals and a sum of two reals are reals; the leaky slope and the fill
  value are reals because the words that spell them have an exponent field that is not all ones. So the projected
  features and the masked scores are reals entry by entry, and the statement on the recurrence over a flat row of
  real scores with real values applies to row r of the scores and column c of the projected features.
-/
import proofs.«124482_j60979945668752_2_alg».proof.Proof.Spec
import proofs.«124482_j60979945668752_2_alg».proof.Proof.OnlineFlat

noncomputable section

namespace Cert.Spec

open Idealize.ShloMosaic Idealize.ShloMosaic.ValueIdx
open scoped BigOperators

/-- A finite sum of extended reals each of which is a real is a real. -/
theorem sum_real {ι : Type*} (s : Finset ι) (f : ι → EReal) (hf : ∀ i, ∃ v : ℝ, f i = ((v : ℝ) : EReal)) :
    ∃ v : ℝ, ∑ i ∈ s, f i = ((v : ℝ) : EReal) := by
  choose g hg using hf
  exact ⟨∑ i ∈ s, g i, by rw [Cert.Online.coe_sum]; exact Finset.sum_congr rfl fun i _ => hg i⟩

/-- A product of two reals is a real. -/
theorem mul_real {a b : EReal} (ha : ∃ v : ℝ, a = ((v : ℝ) : EReal)) (hb : ∃ v : ℝ, b = ((v : ℝ) : EReal)) :
    ∃ v : ℝ, a * b = ((v : ℝ) : EReal) := by
  obtain ⟨u, rfl⟩ := ha; obtain ⟨v, rfl⟩ := hb
  exact ⟨u * v, (EReal.coe_mul u v).symm⟩

/-- A sum of two reals is a real. -/
theorem add_real {a b : EReal} (ha : ∃ v : ℝ, a = ((v : ℝ) : EReal)) (hb : ∃ v : ℝ, b = ((v : ℝ) : EReal)) :
    ∃ v : ℝ, a + b = ((v : ℝ) : EReal) := by
  obtain ⟨u, rfl⟩ := ha; obtain ⟨v, rfl⟩ := hb
  exact ⟨u + v, (EReal.coe_add u v).symm⟩

/-- The leaky slope is a real: its word is a normal number, a significand times a power of two. -/
theorem slope_real : ∃ v : ℝ, slope = ((v : ℝ) : EReal) := by
  simp only [slope, Ideal.ofBits, Ideal.ieee]
  simp
  exact ⟨_, (EReal.coe_mul _ _).symm⟩

/-- The fill value is a real: its word is a normal number, a significand times a power of two. -/
theorem fill_real : ∃ v : ℝ, fill = ((v : ℝ) : EReal) := by
  simp only [fill, Ideal.ofBits, Ideal.ieee]
  simp
  exact ⟨-(16763806 * 2 ^ 29), by rw [EReal.coe_neg, EReal.coe_mul, EReal.coe_pow]⟩

variable (x : Arr2 8192 512) (w : Arr2 512 256) (as an : Arr2 256 1) (adj M : Arr2 8192 8192)

/-- The projected features are reals. -/
theorem feat_real (hx : ∀ i, ∃ v : ℝ, x i = ((v : ℝ) : EReal)) (hw : ∀ i, ∃ v : ℝ, w i = ((v : ℝ) : EReal))
    (r : Fin 8192) (c : Fin 256) : ∃ v : ℝ, feat x w r c = ((v : ℝ) : EReal) :=
  sum_real _ _ fun k => mul_real (hx _) (hw _)

/-- A row of the projected features against a real column vector is a real. -/
theorem proj_real (hx : ∀ i, ∃ v : ℝ, x i = ((v : ℝ) : EReal)) (hw : ∀ i, ∃ v : ℝ, w i = ((v : ℝ) : EReal))
    (a : Arr2 256 1) (ha : ∀ i, ∃ v : ℝ, a i = ((v : ℝ) : EReal)) (r : Fin 8192) :
    ∃ v : ℝ, proj x w a r = ((v : ℝ) : EReal) :=
  sum_real _ _ fun k => mul_real (feat_real x w hx hw r k) (ha _)

/-- The leaky slope sends a real to a real. -/
theorem leaky_real {e : EReal} (he : ∃ v : ℝ, e = ((v : ℝ) : EReal)) : ∃ v : ℝ, leaky e = ((v : ℝ) : EReal) := by
  unfold leaky
  split_ifs
  · exact he
  · exact mul_real slope_real he

/-- The masked scores are reals. -/
theorem score_real (hx : ∀ i, ∃ v : ℝ, x i = ((v : ℝ) : EReal)) (hw : ∀ i, ∃ v : ℝ, w i = ((v : ℝ) : EReal))
    (has : ∀ i, ∃ v : ℝ, as i = ((v : ℝ) : EReal)) (han : ∀ i, ∃ v : ℝ, an i = ((v : ℝ) : EReal))
    (hadj : ∀ i, ∃ v : ℝ, adj i = ((v : ℝ) : EReal)) (hM : ∀ i, ∃ v : ℝ, M i = ((v : ℝ) : EReal))
    (r q : Fin 8192) : ∃ v : ℝ, score x w as an adj M r q = ((v : ℝ) : EReal) := by
  unfold score
  split_ifs
  · exact leaky_real (mul_real (add_real (proj_real x w hx hw as has r) (proj_real x w hx hw an han q)) (hM _))
  · exact fill_real

/-- The attention-weighted features are the quotient of the weighted sum by the normaliser that the tile-by-tile
    recurrence reaches after 8 consecutive tiles of 1024, run on row `r` of the scores with column `c` of the
    projected features as the values. -/
theorem mix_eq_online (hx : ∀ i, ∃ v : ℝ, x i = ((v : ℝ) : EReal)) (hw : ∀ i, ∃ v : ℝ, w i = ((v : ℝ) : EReal))
    (has : ∀ i, ∃ v : ℝ, as i = ((v : ℝ) : EReal)) (han : ∀ i, ∃ v : ℝ, an i = ((v : ℝ) : EReal))
    (hadj : ∀ i, ∃ v : ℝ, adj i = ((v : ℝ) : EReal)) (hM : ∀ i, ∃ v : ℝ, M i = ((v : ℝ) : EReal))
    (r : Fin 8192) (c : Fin 256) :
    mix x w as an adj M r c
      = Ideal.div (Cert.Online.after (J := 8) (K := 1024) (fun j k => score x w as an adj M r ⟨k.val + 1024 * j.val, by omega⟩) (fun j k => feat x w ⟨k.val + 1024 * j.val, by omega⟩ c) 8 le_rfl).2.2
                  (Cert.Online.after (J := 8) (K := 1024) (fun j k => score x w as an adj M r ⟨k.val + 1024 * j.val, by omega⟩) (fun j k => feat x w ⟨k.val + 1024 * j.val, by omega⟩ c) 8 le_rfl).2.1 := by
  choose e he using fun q => score_real x w as an adj M hx hw has han hadj hM r q
  choose h hh using fun q => feat_real x w hx hw q c
  have hscore : score x w as an adj M r = fun q => ((e q : ℝ) : EReal) := funext he
  have hE : (fun (j : Fin 8) (k : Fin 1024) => score x w as an adj M r ⟨k.val + 1024 * j.val, by omega⟩)
      = fun j k => ((e ⟨k.val + 1024 * j.val, by omega⟩ : ℝ) : EReal) := by
    funext j k; exact he _
  have hH : (fun (j : Fin 8) (k : Fin 1024) => feat x w ⟨k.val + 1024 * j.val, by omega⟩ c)
      = fun j k => ((h ⟨k.val + 1024 * j.val, by omega⟩ : ℝ) : EReal) := by
    funext j k; exact hh _
  rw [hE, hH, (Cert.Online.after_flat e h).2.2]
  simp only [mix, den, wgt, rowMax, hscore, hh]

end Cert.Spec

end
-- ==== Proof.KVal3.lean ====
/-
  The attention region's result array is the specification's layer.  Along row tile i the carried running maximum,
  normaliser and weighted sum after the last column tile are the tile-by-tile recurrence run over the row's eight
  tiles of scores and feature rows; the last point writes the exponential linear unit of weighted sum over normaliser;
  and for finite scores that quotient is the softmax-weighted sum of the features.
-/
import proofs.«124482_j60979945668752_2_alg».proof.Proof.KVal2
import proofs.«124482_j60979945668752_2_alg».proof.Proof.Reg1Value
import proofs.«124482_j60979945668752_2_alg».proof.Proof.RowTile
import proofs.«124482_j60979945668752_2_alg».proof.Proof.SpecReal

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

theorem pt_div (i j : Fin 8) : (pt i j).val / 8 = i.val := by
  show (8 * i.val + j.val) / 8 = i.val
  have := j.isLt; omega
theorem pt_mod (i j : Fin 8) : (pt i j).val % 8 = j.val := by
  show (8 * i.val + j.val) % 8 = j.val
  have := j.isLt; omega

/-- The result array at row p of row tile i. -/
theorem result_tile (c : Dev nD)
    (hx : ∀ i, ∃ v : ℝ, aX m c i = ((v : ℝ) : EReal)) (hw : ∀ i, ∃ v : ℝ, aW m c i = ((v : ℝ) : EReal))
    (hs : ∀ i, ∃ v : ℝ, aS m c i = ((v : ℝ) : EReal)) (hn : ∀ i, ∃ v : ℝ, aN m c i = ((v : ℝ) : EReal))
    (hadj : ∀ i, ∃ v : ℝ, aAdj m c i = ((v : ℝ) : EReal)) (hM : ∀ i, ∃ v : ℝ, aM m c i = ((v : ℝ) : EReal))
    (i : Fin 8) (p : Fin 1024) (d : Fin 256) :
    (dat1 (V2 m ρ) c).arrAt 5 cfg1.N (ix2 (⟨p.val + 1024 * i.val, tileRow_lt i p⟩ : Fin 8192) d)
      = Cert.Spec.G (aX m c) (aW m c) (aS m c) (aN m c) (aAdj m c) (aM m c) ⟨p.val + 1024 * i.val, tileRow_lt i p⟩ d := by
  have hc := carried_after (V2 m ρ) c i p d 7 (by omega)
  have hE : (fun (j : Fin 8) (k : Fin 1024) => tileScore (iblk1 (V2 m ρ) c 0 (pt i j)) (iblk1 (V2 m ρ) c 1 (pt i j)) (iblk1 (V2 m ρ) c 2 (pt i j)) (iblk1 (V2 m ρ) c 3 (pt i j)) p k)
      = fun (j : Fin 8) (k : Fin 1024) => Cert.Spec.score (aX m c) (aW m c) (aS m c) (aN m c) (aAdj m c) (aM m c) ⟨p.val + 1024 * i.val, tileRow_lt i p⟩ ⟨k.val + 1024 * j.val, tileRow_lt j k⟩ :=
    funext fun j => funext fun k => tile_score m ρ c (pt i j) i j (pt_div i j) (pt_mod i j) p k
  have hH : (fun (j : Fin 8) (k : Fin 1024) => iblk1 (V2 m ρ) c 4 (pt i j) (ix2 k d))
      = fun (j : Fin 8) (k : Fin 1024) => Cert.Spec.feat (aX m c) (aW m c) ⟨k.val + 1024 * j.val, tileRow_lt j k⟩ d :=
    funext fun j => funext fun k => tile_feat m ρ c (pt i j) j (pt_mod i j) k d
  rw [hE, hH] at hc
  have ho := out_last (V2 m ρ) c ⟨8 * i.val + 7, lastPt_lt i⟩ (by show (8 * i.val + 7) % 8 = 7; omega)
  refine (arr1_5 (V2 m ρ) c i p d).trans ?_
  refine (congrFun ho (ix2 p d)).trans ?_
  refine (emit1_apply _ p d).trans ?_
  unfold Cert.Spec.G
  refine congrArg Cert.Spec.elu ?_
  refine Eq.trans ?_ (Cert.Spec.mix_eq_online (aX m c) (aW m c) (aS m c) (aN m c) (aAdj m c) (aM m c) hx hw hs hn hadj hM ⟨p.val + 1024 * i.val, tileRow_lt i p⟩ d).symm
  have h1 := congrArg (fun z : EReal × EReal × EReal => z.2.1) hc
  have h2 := congrArg (fun z : EReal × EReal × EReal => z.2.2) hc
  exact congrArg₂ Ideal.div h2 h1

/-- The result array at any row. -/
theorem result_eq (c : Dev nD)
    (hx : ∀ i, ∃ v : ℝ, aX m c i = ((v : ℝ) : EReal)) (hw : ∀ i, ∃ v : ℝ, aW m c i = ((v : ℝ) : EReal))
    (hs : ∀ i, ∃ v : ℝ, aS m c i = ((v : ℝ) : EReal)) (hn : ∀ i, ∃ v : ℝ, aN m c i = ((v : ℝ) : EReal))
    (hadj : ∀ i, ∃ v : ℝ, aAdj m c i = ((v : ℝ) : EReal)) (hM : ∀ i, ∃ v : ℝ, aM m c i = ((v : ℝ) : EReal))
    (r : Fin 8192) (d : Fin 256) :
    (dat1 (V2 m ρ) c).arrAt 5 cfg1.N (ix2 r d) = Cert.Spec.G (aX m c) (aW m c) (aS m c) (aN m c) (aAdj m c) (aM m c) r d := by
  obtain ⟨i, p, rfl⟩ : ∃ (i : Fin 8) (p : Fin 1024), r = ⟨p.val + 1024 * i.val, tileRow_lt i p⟩ :=
    ⟨⟨r.val / 1024, by have := r.isLt; omega⟩, ⟨r.val % 1024, Nat.mod_lt _ (by norm_num)⟩,
      Fin.ext (by show r.val = r.val % 1024 + 1024 * (r.val / 1024); omega)⟩
  exact result_tile m ρ c hx hw hs hn hadj hM i p d

end Cert.KernelIdeal.Hand

end
-- ==== Proof.PreReal.lean ====
/-
  From the precondition to "every entry of every argument is a real number".

  The precondition is the conjunction, over the six argument arrays, of "every entry's absolute value is below +∞":
  each conjunct is a reduction by "and", from 1, of the entrywise comparison of |a| with the word 0x7F800000, which
  denotes +∞. A conjunction of one-bit words is 1 exactly when each is; a reduction by "and" over all axes that
  came out 1 met a 1 at every entry; and an extended real x with max x (−x) < +∞ is neither −∞ nor +∞, so it is
  a real.
-/
import proofs.«124482_j60979945668752_2_alg».proof.Pre_finite_inputs
import proofs.«124482_j60979945668752_2_alg».proof.Proof.Gen.Pre_finite_inputs
import Idealize.ShloMosaic.Lib.ReduceAll
import Idealize.ShloMosaic.PureOps.Ideal.Laws
import Idealize.ShloMosaic.Lib.ValueIdx

noncomputable section

namespace Cert.PreReal

open Idealize.ShloMosaic Cert.Pre_finite_inputs

/-- The shape of rank 0 has one index. -/
instance : Subsingleton S_.Idx := ⟨fun a b => funext fun d => d.elim0⟩

/-- An extended real whose absolute value `max x (-x)` is below `⊤` is a real. -/
theorem real_of_abs_lt_top (x : EReal) (h : max x (-x) < ⊤) : ∃ v : ℝ, x = ((v : ℝ) : EReal) := by
  induction x using EReal.rec with
  | bot => simp at h
  | coe v => exact ⟨v, rfl⟩
  | top => simp at h

/-- The word 0x7F800000 read as a binary32 number is `+∞`: exponent field all ones, fraction zero, sign clear. -/
theorem inf_word : Ideal.ofBits .f32 0x7F800000#32 = (⊤ : EReal) := by
  simp [Ideal.ofBits, Ideal.ieee]

/-- One conjunct of the precondition, at any shape: if the reduction by "and" over all axes of the entrywise
    comparison `|a| < +∞` is 1, every entry of `a` is a real. -/
theorem all_real {s : Shape} {axes : List (Fin s.rank)} (a : FVec Ideal s .f32)
    (dims : Fin S_.rank → Fin s.rank) (hb : S_.BroadcastsInDim s dims) (hr : s.ReducesTo axes S_)
    (hu : 0 < S_.numel) (init : IVec S_ 1) (j : S_.Idx)
    (e : Host.reduce IntOp.andi (cmpf .olt (Host.absf a) (broadcastInDim s dims hb (constant S_ .f32 0x7F800000#32)))
          init hr hu j = 1#1) :
    ∀ i, ∃ v : ℝ, a i = ((v : ℝ) : EReal) := by
  intro i
  have h1 := Host.reduce_andi_all _ init hr hu j e i
  simp only [cmpf, Host.absf, broadcastInDim, constant, Ideal.ofBits_def, Ideal.hostAbsf_def, Ideal.cmpf_def,
    Ideal.absf_def, Ideal.cmp, inf_word] at h1
  refine real_of_abs_lt_top (a i) ?_
  by_contra hn
  rw [decide_eq_false hn] at h1
  exact absurd h1 (by decide)

/-- **The precondition says every entry of each of the six argument arrays is a real.** -/
theorem args_real (a0 : FVec Ideal S8192x512 .f32) (a1 : FVec Ideal S512x256 .f32) (a2 a3 : FVec Ideal S256x1 .f32)
    (a4 a5 : FVec Ideal S8192x8192 .f32)
    (h : Cert.Pre_finite_inputs.fn (F := Ideal) a0 a1 a2 a3 a4 a5 = (fun _ => 1#1)) :
    (∀ i, ∃ v : ℝ, a0 i = ((v : ℝ) : EReal)) ∧ (∀ i, ∃ v : ℝ, a1 i = ((v : ℝ) : EReal))
    ∧ (∀ i, ∃ v : ℝ, a2 i = ((v : ℝ) : EReal)) ∧ (∀ i, ∃ v : ℝ, a3 i = ((v : ℝ) : EReal))
    ∧ (∀ i, ∃ v : ℝ, a4 i = ((v : ℝ) : EReal)) ∧ (∀ i, ∃ v : ℝ, a5 i = ((v : ℝ) : EReal)) := by
  have h0 := congrFun h ValueIdx.ix0
  dsimp only [Cert.Pre_finite_inputs.fn, Cert.Pre_finite_inputs.fn_part1, andi] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real a0 _ _ _ _ _ _ e0, all_real a1 _ _ _ _ _ _ e1, all_real a2 _ _ _ _ _ _ e2,
    all_real a3 _ _ _ _ _ _ e3, all_real a4 _ _ _ _ _ _ e4, all_real a5 _ _ _ _ _ _ e5⟩

end Cert.PreReal

end
-- ==== Proof.RefRead1.lean ====
/-
  The reference's stages read at an index, up to the masked scores: each stage at its coordinates is the
  specification's function of the same name. A product of two matrices at (r, c) is the sum over the contracted
  coordinate; a transpose swaps the coordinates; a column spread along rows reads its row, a row spread down
  columns its column, a scalar spread reads the scalar; a comparison followed by a select is an `if`.
-/
import proofs.«124482_j60979945668752_2_alg».proof.Proof.RefVal
import proofs.«124482_j60979945668752_2_alg».proof.Proof.Spec
import proofs.«124482_j60979945668752_2_alg».proof.Proof.LibPlainDot
import Idealize.ShloMosaic.Lib.ValueLayout
import Idealize.ShloMosaic.Lib.IdealHost

noncomputable section

namespace Cert.ReferenceIdeal.Hand

open Cert.ReferenceIdeal Cert.ReferenceIdeal.Gen Idealize.ShloMosaic Idealize.ShloMosaic.ValueIdx

/-! ## Layout and selection at an index -/

/-- A scalar word spread over any shape reads the extended real the word encodes. -/
theorem splat_apply (T : Shape) (h : S_.BroadcastsInDim T (![] : Fin 0 → Fin T.rank)) (b : BitVec 32) (j : T.Idx) :
    splat T h b j = Ideal.ofBits .f32 b :=
  broadcastInDim_scalar_apply h _ j

/-- A column spread along the rows of the square reads, at (r, q), the column's entry of row r. -/
theorem bcastCol_apply (v : FVec Ideal S8192x1 .f32) (r q : Fin 8192) :
    broadcastInDim S8192x8192 ![0, 1] bcast_S8192x1_S8192x8192_0_1 v (ix2 r q) = v (ix2 r (0 : Fin 1)) :=
  broadcastInDim_apply _ _ v (ix2 r q) (ix2 r (0 : Fin 1)) fun a => match a with
    | ⟨0, _⟩ => rfl
    | ⟨1, _⟩ => rfl

/-- A row spread down the columns of the square reads, at (r, q), the row's entry of column q. -/
theorem bcastRow_apply (v : FVec Ideal S1x8192 .f32) (r q : Fin 8192) :
    broadcastInDim S8192x8192 ![0, 1] bcast_S1x8192_S8192x8192_0_1 v (ix2 r q) = v (ix2 (0 : Fin 1) q) :=
  broadcastInDim_apply _ _ v (ix2 r q) (ix2 (0 : Fin 1) q) fun a => match a with
    | ⟨0, _⟩ => rfl
    | ⟨1, _⟩ => rfl

/-- A vector laid out as a column reads, at (r, 0), the vector's entry r. -/
theorem bcastVec_apply (v : FVec Ideal S8192 .f32) (r : Fin 8192) (u : Fin 1) :
    broadcastInDim S8192x1 ![0] bcast_S8192_S8192x1_0 v (ix2 r u) = v (ix1 r) :=
  broadcastInDim_apply _ _ v (ix2 r u) (ix1 r) fun a => match a with
    | ⟨0, _⟩ => rfl

/-- A per-row vector spread along the rows of the square reads, at (r, q), its entry r. -/
theorem alongRows_apply (v : FVec Ideal S8192 .f32) (r q : Fin 8192) : alongRows v (ix2 r q) = v (ix1 r) :=
  (bcastCol_apply _ r q).trans (bcastVec_apply v r 0)

/-- A select on "a is greater than b" is the `if` on "b is less than a". -/
theorem select_ogt {α : Type} (a b : EReal) (u v : α) :
    Scalar.select (FloatOps.cmpf (F := Ideal) (φ := .f32) .ogt a b) u v = if b < a then u else v := by
  show Scalar.select (Ideal.cmp .ogt a b) u v = _
  unfold Ideal.cmp
  by_cases h : b < a
  · rw [if_pos h, show decide (b < a) = true from decide_eq_true h]; exact select_one u v
  · rw [if_neg h, show decide (b < a) = false from decide_eq_false h]; exact select_zero u v

/-! ## The stages -/

variable (x : FVec Ideal S8192x512 .f32) (w : FVec Ideal S512x256 .f32) (aS aN : FVec Ideal S256x1 .f32)
  (adj M : FVec Ideal S8192x8192 .f32)

/-- The projected features at (r, c). -/
theorem sFeat_apply (r : Fin 8192) (c : Fin 256) : sFeat x w (ix2 r c) = Cert.Spec.feat x w r c :=
  Cert.Sage.dotGeneral_plain_apply none .single x w r c

/-- A score column at row r. -/
theorem sCol_apply (a : FVec Ideal S256x1 .f32) (r : Fin 8192) :
    sCol x w a (ix2 r (0 : Fin 1)) = Cert.Spec.proj x w a r := by
  refine (Cert.Sage.dotGeneral_plain_apply none .single (sFeat x w) a r (0 : Fin 1)).trans ?_
  exact Finset.sum_congr rfl fun k _ => by rw [sFeat_apply]

/-- The neighbour row at column q. -/
theorem sRow_apply (q : Fin 8192) : sRow x w aN (ix2 (0 : Fin 1) q) = Cert.Spec.proj x w aN q := by
  unfold sRow
  rw [transpose_ix2_apply]
  exact sCol_apply x w aN q

/-- The raw score of the pair (r, q). -/
theorem sPre_apply (r q : Fin 8192) :
    sPre x w aS aN M (ix2 r q) = (Cert.Spec.proj x w aS r + Cert.Spec.proj x w aN q) * M (ix2 r q) := by
  unfold sPre
  rw [mulf_apply, addf_apply, bcastCol_apply, bcastRow_apply, sCol_apply, sRow_apply]

/-- The leaky slope at (r, q). -/
theorem sLeaky_apply (r q : Fin 8192) :
    sLeaky x w aS aN M (ix2 r q)
      = Cert.Spec.leaky ((Cert.Spec.proj x w aS r + Cert.Spec.proj x w aN q) * M (ix2 r q)) := by
  unfold sLeaky Cert.Spec.leaky Cert.Spec.slope
  rw [select_apply, cmpf_apply, mulf_apply, splat_apply, splat_apply, Ideal.ofBits_zero_f32, select_ogt, sPre_apply]

/-- The masked score at (r, q). -/
theorem sScore_apply (r q : Fin 8192) : sScore x w aS aN adj M (ix2 r q) = Cert.Spec.score x w aS aN adj M r q := by
  unfold sScore Cert.Spec.score Cert.Spec.fill
  rw [select_apply, cmpf_apply, splat_apply, Ideal.ofBits_zero_f32, select_ogt, sLeaky_apply,
    broadcastInDim_scalar_apply]
  rfl

end Cert.ReferenceIdeal.Hand

end
-- ==== Proof.RefRead2.lean ====
/-
  The reference's later stages read at an index, and its result: the row maximum is the greatest masked score of
  the row (the fold of the maximum from the least element, the least element being the word the program folds
  from); the weights, their row sums, the normalised weights, the mixed features and the exponential linear unit
  are the specification's functions of the same names.
-/
import proofs.«124482_j60979945668752_2_alg».proof.Proof.RefRead1
import proofs.«124482_j60979945668752_2_alg».proof.Proof.LibHostRowMax

noncomputable section

namespace Cert.ReferenceIdeal.Hand

open Cert.ReferenceIdeal Cert.ReferenceIdeal.Gen Idealize.ShloMosaic Idealize.ShloMosaic.ValueIdx

/-- The word of minus infinity is the least extended real. -/
theorem ofBits_neg_inf : Ideal.ofBits .f32 0xFF800000#32 = (⊥ : EReal) := by
  simp [Ideal.ofBits, Ideal.ieee]

/-- The square with its second axis removed is the vector, as a reduction with a result of positive rank. -/
theorem reduces_rows : S8192x8192.Reduces [1] S8192 := by decide

/-- The host's exponential at an index. -/
theorem hostExp_apply {s : Shape} (X : FVec Ideal s .f32) (i : s.Idx) : Host.exp X i = Ideal.exp (X i) := rfl

/-- The host's exponential less one at an index. -/
theorem hostExpm1_apply {s : Shape} (X : FVec Ideal s .f32) (i : s.Idx) : Host.expm1 X i = Ideal.exp (X i) - 1 := rfl

variable (x : FVec Ideal S8192x512 .f32) (w : FVec Ideal S512x256 .f32) (aS aN : FVec Ideal S256x1 .f32)
  (adj M : FVec Ideal S8192x8192 .f32)

/-- The row maximum at row r. -/
theorem sRowMax_apply (r : Fin 8192) : sRowMax x w aS aN adj M (ix1 r) = Cert.Spec.rowMax x w aS aN adj M r := by
  unfold sRowMax Cert.Spec.rowMax
  rw [maximumf_apply, splat_apply, ofBits_neg_inf, bot_sup_eq,
    Cert.LibHostRowMax.reduce_max_row _ _ reducesTo_S8192x8192_S8192_d1 reduces_rows h_S_ r, constant_apply, ofBits_neg_inf]
  have e : (fun k : Fin 8192 => sScore x w aS aN adj M (ix2 r k)) = Cert.Spec.score x w aS aN adj M r :=
    funext fun k => sScore_apply x w aS aN adj M r k
  rw [e]
  rfl

/-- The unnormalised weight at (r, q). -/
theorem sWgt_apply (r q : Fin 8192) : sWgt x w aS aN adj M (ix2 r q) = Cert.Spec.wgt x w aS aN adj M r q := by
  unfold sWgt Cert.Spec.wgt
  rw [hostExp_apply, subf_apply, alongRows_apply, sScore_apply, sRowMax_apply]

/-- The normaliser at row r. -/
theorem sDen_apply (r : Fin 8192) : sDen x w aS aN adj M (ix1 r) = Cert.Spec.den x w aS aN adj M r := by
  unfold sDen Cert.Spec.den
  rw [hostReduceAdd_apply, Ideal.hostReduceAdd_single _ reduces_rows, constant_apply, Ideal.ofBits_zero_f32, zero_add]
  refine Finset.sum_congr rfl fun k _ => ?_
  exact (congrArg (sWgt x w aS aN adj M) (Cert.LibHostRowMax.lift_row reduces_rows r k)).trans
    (sWgt_apply x w aS aN adj M r k)

/-- The normalised weight at (r, q). -/
theorem sAttn_apply (r q : Fin 8192) :
    sAttn x w aS aN adj M (ix2 r q)
      = Ideal.div (Cert.Spec.wgt x w aS aN adj M r q) (Cert.Spec.den x w aS aN adj M r) := by
  unfold sAttn
  rw [hostDivf_apply, alongRows_apply, sWgt_apply, sDen_apply]

/-- The mixed features at (r, c). -/
theorem sMix_apply (r : Fin 8192) (c : Fin 256) : sMix x w aS aN adj M (ix2 r c) = Cert.Spec.mix x w aS aN adj M r c := by
  unfold sMix Cert.Spec.mix
  refine (Cert.Sage.dotGeneral_plain_apply none .single (sAttn x w aS aN adj M) (sFeat x w) r c).trans ?_
  exact Finset.sum_congr rfl fun q _ => by rw [sAttn_apply, sFeat_apply]

/-- The exponential linear unit at an index: where the value is positive the inner select zeroes it, but there the
    outer select keeps the value itself; elsewhere the inner select keeps the value, and one times the exponential
    less one is the exponential less one. -/
theorem sElu_apply (y : FVec Ideal S8192x256 .f32) (j : S8192x256.Idx) : sElu y j = Cert.Spec.elu (y j) := by
  unfold sElu Cert.Spec.elu
  rw [select_apply, cmpf_apply, splat_apply, Ideal.ofBits_zero_f32, select_ogt, mulf_apply, splat_apply,
    Ideal.ofBits_one_f32, one_mul, hostExpm1_apply, select_apply, cmpf_apply, splat_apply, Ideal.ofBits_zero_f32,
    select_ogt]
  by_cases h : 0 < y j
  · rw [if_pos h, if_pos h]
  · rw [if_neg h, if_neg h, if_neg h]

/-- The reference's result at (r, c) is the specification's. -/
theorem refVal_apply (x : FVec Ideal S8192x512 .f32) (w : FVec Ideal S512x256 .f32) (aS aN : FVec Ideal S256x1 .f32)
    (adj M : FVec Ideal S8192x8192 .f32) (r : Fin 8192) (c : Fin 256) :
    refVal x w aS aN adj M (ValueIdx.ix2 r c) = Cert.Spec.G x w aS aN adj M r c := by
  unfold refVal Cert.Spec.G
  rw [sElu_apply, sMix_apply]

end Cert.ReferenceIdeal.Hand

end
-- ==== Proof.Alg.lean ====
/-
  The two idealized programs agree.  From memories that agree on the six arguments, the kernel's run ends with its
  result array at the fold of the attention region's write-backs, which is the specification's layer at every index
  (the precondition makes every argument entry a real, so every score is finite and the tile-by-tile softmax is the
  plain one); the reference's run ends with its result at its operations' composed term, which is the same layer at
  every index.
-/
import proofs.«124482_j60979945668752_2_alg».proof.Defs
import proofs.«124482_j60979945668752_2_alg».proof.Proof.KRun
import proofs.«124482_j60979945668752_2_alg».proof.Proof.KVal3
import proofs.«124482_j60979945668752_2_alg».proof.Proof.PreReal
import proofs.«124482_j60979945668752_2_alg».proof.Proof.RefOut
import proofs.«124482_j60979945668752_2_alg».proof.Proof.RefRead2

noncomputable section

namespace Cert.KernelIdeal.Hand

open Idealize.ShloMosaic Idealize.ShloMosaic.TcCoe Idealize.ShloMosaic.ValueIdx Idealize.SL.Sem
open Cert.KernelIdeal Cert.KernelIdeal.Gen

theorem algebraic : Cert.algebraic_KernelIdeal_ReferenceIdeal := by
  intro m ρ m' ρ' hpre hagree
  refine ⟨_, run_val m ρ, ?_⟩
  refine (θ_run Cert.ReferenceIdeal.defs _ _).mono (fun _ h c => ⟨(h c).1.trans ?_, (h c).2⟩)
    (Cert.ReferenceIdeal.Hand.run m' ρ')
  obtain ⟨e0, e1, e2, e3, e4, e5⟩ := hagree c
  rw [e0, e1, e2, e3, e4, e5]
  obtain ⟨hx, hw, hs, hn, hadj, hM⟩ := Cert.PreReal.args_real _ _ _ _ _ _ (hpre c)
  funext idx
  obtain ⟨r, d, rfl⟩ : ∃ (r : Fin 8192) (d : Fin 256), idx = ix2 r d := ⟨idx 0, idx 1, eq_ix2 idx⟩
  rw [Cert.ReferenceIdeal.Hand.refVal_apply]
  exact (result_eq m ρ c hx hw hs hn hadj hM r d).symm

end Cert.KernelIdeal.Hand

end
-- ==== Proof.lean ====
/-
  A dense masked graph-attention layer: features h = x·W, self and neighbour scores h·a_self and h·a_neighs, pairwise
  scores (s_r + n_q)·M_rq through a leaky slope and an adjacency mask, a row softmax, the softmax-weighted sum of the
  features, and an exponential linear unit.  The kernel computes it in two regions: the three products tile by tile,
  then a sweep over column tiles that carries a running row maximum, normaliser and weighted sum and divides at the end.
  The reference computes it with whole-array operations.  At the extended reals, with every argument entry finite,
  both are the same function of the arguments index by index.

  The five claims: each program runs to the end, faults nowhere and leaves its arguments as launched (the kernel's two
  readings by the run assembled from its two regions and the reshape between them; the reference's by its run); the
  idealized kernel is the kernel's own text read at the ideal instance (nothing was rewritten); and the two idealized
  programs end with equal results.
-/
import proofs.«124482_j60979945668752_2_alg».proof.Defs
import proofs.«124482_j60979945668752_2_alg».proof.Proof.Gen.Kernel
import proofs.«124482_j60979945668752_2_alg».proof.Proof.Gen.KernelIdeal
import proofs.«124482_j60979945668752_2_alg».proof.Proof.Gen.ReferenceIdeal
import proofs.«124482_j60979945668752_2_alg».proof.Proof.Gen.Pre_finite_inputs
import proofs.«124482_j60979945668752_2_alg».proof.Proof.KRun
import proofs.«124482_j60979945668752_2_alg».proof.Proof.KRunB
import proofs.«124482_j60979945668752_2_alg».proof.Proof.RefOut
import proofs.«124482_j60979945668752_2_alg».proof.Proof.Alg

noncomputable section

namespace Cert.Proof

open Idealize.ShloMosaic Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_reference : Cert.frame_ReferenceIdeal := fun m ρ _ =>
  (θ_run Cert.ReferenceIdeal.defs _ _).mono (fun _ h c => (h c).2) (Cert.ReferenceIdeal.Hand.run m ρ)

theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, Cert.KernelIdeal.Hand.algebraic⟩

end Cert.Proof

end
